-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1 : Shape := ⟨3, ![4, 2048, 1]⟩
abbrev S4x2048x2048 : Shape := ⟨3, ![4, 2048, 2048]⟩
abbrev S4x2048x4 : Shape := ⟨3, ![4, 2048, 4]⟩
abbrev S2048x1 : Shape := ⟨2, ![2048, 1]⟩
abbrev S_ : Shape := ⟨0, ![]⟩

class Facts : Prop where
  bcast_S_S4x2048x1 : S_.BroadcastsInDim S4x2048x1 (![] : Fin 0 → Fin S4x2048x1.rank)
  reducesTo_S4x2048x1_S_d0_1_2 : S4x2048x1.ReducesTo [0, 1, 2] S_
  h_S_ : 0 < S_.numel
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S_S4x2048x4 : S_.BroadcastsInDim S4x2048x4 (![] : Fin 0 → Fin S4x2048x4.rank)
  reducesTo_S4x2048x4_S_d0_1_2 : S4x2048x4.ReducesTo [0, 1, 2] S_
  bcast_S_S2048x1 : S_.BroadcastsInDim S2048x1 (![] : Fin 0 → Fin S2048x1.rank)
  reducesTo_S2048x1_S_d0_1 : S2048x1.ReducesTo [0, 1] S_

variable [Facts]

def fn_part1 {F : FTy → Type} [FloatOps F] (main_arg4 : FVec F S4x2048x2048 .f32) (main_arg5 : FVec F S2048x1 .f32) (main_arg6 : FVec F S2048x1 .f32) (main_v13 : IVec S_ 1) (main_v16 : IVec S4x2048x4 1) : IVec S_ 1 :=
  let main_c_5 : IVec S_ 1 := constantI S_ 1 1#1
  let main_v17 : IVec S_ 1 := (fun x v => Host.reduce IntOp.andi x v reducesTo_S4x2048x4_S_d0_1_2 h_S_) main_v16 main_c_5
  let main_v18 : IVec S_ 1 := andi main_v13 main_v17
  let main_v19 : FVec F S4x2048x2048 .f32 := Host.absf main_arg4
  let main_cst_6 : FVec F S_ .f32 := constant S_ .f32 0x7F800000#32
  let main_v20 : FVec F S4x2048x2048 .f32 := broadcastInDim S4x2048x2048 ![] bcast_S_S4x2048x2048 main_cst_6
  let main_v21 : IVec S4x2048x2048 1 := cmpf .olt main_v19 main_v20
  let main_c_7 : IVec S_ 1 := constantI S_ 1 1#1
  let main_v22 : IVec S_ 1 := (fun x v => Host.reduce IntOp.andi x v reducesTo_S4x2048x2048_S_d0_1_2 h_S_) main_v21 main_c_7
  let main_v23 : IVec S_ 1 := andi main_v18 main_v22
  let main_v24 : FVec F S2048x1 .f32 := Host.absf main_arg5
  let main_cst_8 : FVec F S_ .f32 := constant S_ .f32 0x7F800000#32
  let main_v25 : FVec F S2048x1 .f32 := broadcastInDim S2048x1 ![] bcast_S_S2048x1 main_cst_8
  let main_v26 : IVec S2048x1 1 := cmpf .olt main_v24 main_v25
  let main_c_9 : IVec S_ 1 := constantI S_ 1 1#1
  let main_v27 : IVec S_ 1 := (fun x v => Host.reduce IntOp.andi x v reducesTo_S2048x1_S_d0_1 h_S_) main_v26 main_c_9
  let main_v28 : IVec S_ 1 := andi main_v23 main_v27
  let main_v29 : FVec F S2048x1 .f32 := Host.absf main_arg6
  let main_cst_10 : FVec F S_ .f32 := constant S_ .f32 0x7F800000#32
  let main_v30 : FVec F S2048x1 .f32 := broadcastInDim S2048x1 ![] bcast_S_S2048x1 main_cst_10
  let main_v31 : IVec S2048x1 1 := cmpf .olt main_v29 main_v30
  let main_c_11 : IVec S_ 1 := constantI S_ 1 1#1
  let main_v32 : IVec S_ 1 := (fun x v => Host.reduce IntOp.andi x v reducesTo_S2048x1_S_d0_1 h_S_) main_v31 main_c_11
  let main_v33 : IVec S_ 1 := andi main_v28 main_v32
  main_v33

def fn {F : FTy → Type} [FloatOps F] (main_arg0 : FVec F S4x2048x1 .f32) (main_arg1 : FVec F S4x2048x1 .f32) (main_arg2 : FVec F S4x2048x2048 .f32) (main_arg3 : FVec F S4x2048x4 .f32) (main_arg4 : FVec F S4x2048x2048 .f32) (main_arg5 : FVec F S2048x1 .f32) (main_arg6 : FVec F S2048x1 .f32) : IVec S_ 1 :=
  let main_v0 : FVec F S4x2048x1 .f32 := Host.absf main_arg0
  let main_cst : FVec F S_ .f32 := constant S_ .f32 0x7F800000#32
  let main_v1 : FVec F S4x2048x1 .f32 := broadcastInDim S4x2048x1 ![] bcast_S_S4x2048x1 main_cst
  let main_v2 : IVec S4x2048x1 1 := cmpf .olt main_v0 main_v1
  let main_c : IVec S_ 1 := constantI S_ 1 1#1
  let main_v3 : IVec S_ 1 := (fun x v => Host.reduce IntOp.andi x v reducesTo_S4x2048x1_S_d0_1_2 h_S_) main_v2 main_c
  let main_v4 : FVec F S4x2048x1 .f32 := Host.absf main_arg1
  let main_cst_0 : FVec F S_ .f32 := constant S_ .f32 0x7F800000#32
  let main_v5 : FVec F S4x2048x1 .f32 := broadcastInDim S4x2048x1 ![] bcast_S_S4x2048x1 main_cst_0
  let main_v6 : IVec S4x2048x1 1 := cmpf .olt main_v4 main_v5
  let main_c_1 : IVec S_ 1 := constantI S_ 1 1#1
  let main_v7 : IVec S_ 1 := (fun x v => Host.reduce IntOp.andi x v reducesTo_S4x2048x1_S_d0_1_2 h_S_) main_v6 main_c_1
  let main_v8 : IVec S_ 1 := andi main_v3 main_v7
  let main_v9 : FVec F S4x2048x2048 .f32 := Host.absf main_arg2
  let main_cst_2 : FVec F S_ .f32 := constant S_ .f32 0x7F800000#32
  let main_v10 : FVec F S4x2048x2048 .f32 := broadcastInDim S4x2048x2048 ![] bcast_S_S4x2048x2048 main_cst_2
  let main_v11 : IVec S4x2048x2048 1 := cmpf .olt main_v9 main_v10
  let main_c_3 : IVec S_ 1 := constantI S_ 1 1#1
  let main_v12 : IVec S_ 1 := (fun x v => Host.reduce IntOp.andi x v reducesTo_S4x2048x2048_S_d0_1_2 h_S_) main_v11 main_c_3
  let main_v13 : IVec S_ 1 := andi main_v8 main_v12
  let main_v14 : FVec F S4x2048x4 .f32 := Host.absf main_arg3
  let main_cst_4 : FVec F S_ .f32 := constant S_ .f32 0x7F800000#32
  let main_v15 : FVec F S4x2048x4 .f32 := broadcastInDim S4x2048x4 ![] bcast_S_S4x2048x4 main_cst_4
  let main_v16 : IVec S4x2048x4 1 := cmpf .olt main_v14 main_v15
  fn_part1 (F := F) main_arg4 main_arg5 main_arg6 main_v13 main_v16
-- ==== Kernel.lean ====
abbrev S4x2048x1 : Shape := ⟨3, ![4, 2048, 1]⟩
abbrev S4x2048x2048 : Shape := ⟨3, ![4, 2048, 2048]⟩
abbrev S4x2048x4 : Shape := ⟨3, ![4, 2048, 4]⟩
abbrev S2048x1 : Shape := ⟨2, ![2048, 1]⟩
abbrev S4x1x2048 : Shape := ⟨3, ![4, 1, 2048]⟩
abbrev S1x512x2048 : Shape := ⟨3, ![1, 512, 2048]⟩
abbrev S1x1x2048 : Shape := ⟨3, ![1, 1, 2048]⟩
abbrev S1x2048 : Shape := ⟨2, ![1, 2048]⟩
abbrev S512x2048 : Shape := ⟨2, ![512, 2048]⟩
abbrev S2048 : Shape := ⟨1, ![2048]⟩
abbrev S_ : Shape := ⟨0, ![]⟩
abbrev S4x1 : Shape := ⟨2, ![4, 1]⟩
abbrev S4x1x1 : Shape := ⟨3, ![4, 1, 1]⟩
abbrev S4x2048x6 : Shape := ⟨3, ![4, 2048, 6]⟩
abbrev S1x256x2048 : Shape := ⟨3, ![1, 256, 2048]⟩
abbrev S1x256x1 : Shape := ⟨3, ![1, 256, 1]⟩
abbrev S1x2048x4 : Shape := ⟨3, ![1, 2048, 4]⟩
abbrev S1x256x4 : Shape := ⟨3, ![1, 256, 4]⟩
abbrev S256x1 : Shape := ⟨2, ![256, 1]⟩
abbrev S1x1x1 : Shape := ⟨3, ![1, 1, 1]⟩
abbrev S1x256x6 : Shape := ⟨3, ![1, 256, 6]⟩
abbrev S256x2048 : Shape := ⟨2, ![256, 2048]⟩
abbrev S2048x4 : Shape := ⟨2, ![2048, 4]⟩
abbrev S2048x3 : Shape := ⟨2, ![2048, 3]⟩
abbrev S256x3 : Shape := ⟨2, ![256, 3]⟩
abbrev S1x1 : Shape := ⟨2, ![1, 1]⟩
abbrev S256x4 : Shape := ⟨2, ![256, 4]⟩
abbrev S256x6 : Shape := ⟨2, ![256, 6]⟩
abbrev S4x2048x2048x1 : Shape := ⟨4, ![4, 2048, 2048, 1]⟩
abbrev S4x2048x2048x2 : Shape := ⟨4, ![4, 2048, 2048, 2]⟩

abbrev nBuf : Space → Nat
  | .hbm => 27
  | .vmem => 32
  | .smem => 0
  | _ => 0

abbrev bufTy : (tb : Table) → Fin (tcTables nBuf tb) → BufTy
  | .hbm, ⟨0, _⟩ => ⟨S4x2048x1, .f32⟩
  | .hbm, ⟨1, _⟩ => ⟨S4x2048x1, .f32⟩
  | .hbm, ⟨2, _⟩ => ⟨S4x2048x2048, .f32⟩
  | .hbm, ⟨3, _⟩ => ⟨S4x2048x4, .f32⟩
  | .hbm, ⟨4, _⟩ => ⟨S4x2048x2048, .f32⟩
  | .hbm, ⟨5, _⟩ => ⟨S2048x1, .f32⟩
  | .hbm, ⟨6, _⟩ => ⟨S2048x1, .f32⟩
  | .hbm, ⟨7, _⟩ => ⟨S4x1x2048, .f32⟩
  | .hbm, ⟨8, _⟩ => ⟨S4x2048x1, .f32⟩
  | .hbm, ⟨9, _⟩ => ⟨S_, .f32⟩
  | .hbm, ⟨10, _⟩ => ⟨S4x1, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x1, .f32⟩
  | .hbm, ⟨18, _⟩ => ⟨S4x1, .f32⟩
  | .hbm, ⟨19, _⟩ => ⟨S4x1x1, .f32⟩
  | .hbm, ⟨20, _⟩ => ⟨S4x2048x6, .f32⟩
  | .hbm, ⟨21, _⟩ => ⟨S4x2048x4, .f32⟩
  | .hbm, ⟨22, _⟩ => ⟨S4x2048x2048, .f32⟩
  | .hbm, ⟨23, _⟩ => ⟨S4x2048x2048, .f32⟩
  | .hbm, ⟨24, _⟩ => ⟨S4x2048x2048x1, .f32⟩
  | .hbm, ⟨25, _⟩ => ⟨S4x2048x2048x1, .f32⟩
  | .hbm, ⟨26, _⟩ => ⟨S4x2048x2048x2, .f32⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x1, .f32⟩
  | .local _ .vmem, ⟨9, _⟩ => ⟨S1x256x1, .f32⟩
  | .local _ .vmem, ⟨10, _⟩ => ⟨S1x2048x4, .f32⟩
  | .local _ .vmem, ⟨11, _⟩ => ⟨S1x2048x4, .f32⟩
  | .local _ .vmem, ⟨12, _⟩ => ⟨S1x256x4, .f32⟩
  | .local _ .vmem, ⟨13, _⟩ => ⟨S1x256x4, .f32⟩
  | .local _ .vmem, ⟨14, _⟩ => ⟨S1x256x1, .f32⟩
  | .local _ .vmem, ⟨15, _⟩ => ⟨S1x256x1, .f32⟩
  | .local _ .vmem, ⟨16, _⟩ => ⟨S1x256x1, .f32⟩
  | .local _ .vmem, ⟨17, _⟩ => ⟨S1x256x1, .f32⟩
  | .local _ .vmem, ⟨18, _⟩ => ⟨S256x1, .f32⟩
  | .local _ .vmem, ⟨19, _⟩ => ⟨S256x1, .f32⟩
  | .local _ .vmem, ⟨20, _⟩ => ⟨S256x1, .f32⟩
  | .local _ .vmem, ⟨21, _⟩ => ⟨S256x1, .f32⟩
  | .local _ .vmem, ⟨22, _⟩ => ⟨S1x1x1, .f32⟩
  | .local _ .vmem, ⟨23, _⟩ => ⟨S1x1x1, .f32⟩
  | .local _ .vmem, ⟨24, _⟩ => ⟨S1x256x6, .f32⟩
  | .local _ .vmem, ⟨25, _⟩ => ⟨S1x256x6, .f32⟩
  | .local _ .vmem, ⟨26, _⟩ => ⟨S1x256x4, .f32⟩
  | .local _ .vmem, ⟨27, _⟩ => ⟨S1x256x4, .f32⟩
  | .local _ .vmem, ⟨28, _⟩ => ⟨S1x256x2048, .f32⟩
  | .local _ .vmem, ⟨29, _⟩ => ⟨S1x256x2048, .f32⟩
  | .local _ .vmem, ⟨30, _⟩ => ⟨S1x256x2048, .f32⟩
  | .local _ .vmem, ⟨31, _⟩ => ⟨S1x256x2048, .f32⟩
  | _, _ => ⟨S4x2048x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_stg10_1 : Ref sig .tc := ⟨.vmem, 25, rfl⟩
abbrev cc1_stg11_0 : Ref sig .tc := ⟨.vmem, 26, rfl⟩
abbrev cc1_stg11_1 : Ref sig .tc := ⟨.vmem, 27, rfl⟩
abbrev cc1_stg12_0 : Ref sig .tc := ⟨.vmem, 28, rfl⟩
abbrev cc1_stg12_1 : Ref sig .tc := ⟨.vmem, 29, rfl⟩
abbrev cc1_stg13_0 : Ref sig .tc := ⟨.vmem, 30, rfl⟩
abbrev cc1_stg13_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21
abbrev cc1_sem9_0 : DmaSem sig := 22
abbrev cc1_sem9_1 : DmaSem sig := 23
abbrev cc1_sem10_0 : DmaSem sig := 24
abbrev cc1_sem10_1 : DmaSem sig := 25
abbrev cc1_sem11_0 : DmaSem sig := 26
abbrev cc1_sem11_1 : DmaSem sig := 27
abbrev cc1_sem12_0 : DmaSem sig := 28
abbrev cc1_sem12_1 : DmaSem sig := 29
abbrev cc1_sem13_0 : DmaSem sig := 30
abbrev cc1_sem13_1 : DmaSem sig := 31

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2048x4 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x256x4 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S256x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S256x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![false, true]

abbrev stage1_9 : Fin 2 → Memref sig .tc .vmem S1x1x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S1x256x6 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x256x4 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x256x2048 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S1x256x2048 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

class Facts₀ : Prop where
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  iota_S512x2048_d0_w32 : S512x2048.Iotas .tc 32 [0]
  iota_S512x2048_d1_w32 : S512x2048.Iotas .tc 32 [1]
  reduces_S512x2048_S2048 : S512x2048.Reduces [0] S2048
  shapeCasts_S2048_S1x2048 : S2048.ShapeCasts S1x2048
  transposes_S4x1x2048_S4x2048x1_0_2_1 : S4x1x2048.Transposes [0, 2, 1] S4x2048x1
  reducesTo_S4x2048x1_S4x1_d1 : S4x2048x1.ReducesTo [1] S4x1
  h_S_ : 0 < S_.numel
  slices_S4x2048x4_S4x2048x1_0_0_0 : S4x2048x4.Slices ![0, 0, 0] S4x2048x1
  slices_S4x2048x4_S4x2048x1_0_0_1 : S4x2048x4.Slices ![0, 0, 1] S4x2048x1
  slices_S4x2048x4_S4x2048x1_0_0_2 : S4x2048x4.Slices ![0, 0, 2] S4x2048x1
  bcast_S4x1_S4x1x1_0_1 : S4x1.BroadcastsInDim S4x1x1 (![0, 1] : Fin 2 → Fin S4x1x1.rank)
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  iota_S256x2048_d0_w32 : S256x2048.Iotas .tc 32 [0]
  iota_S256x2048_d1_w32 : S256x2048.Iotas .tc 32 [1]
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  broadcasts_S256x1_S256x2048 : S256x1.Broadcasts S256x2048
  inb_S1x2048x4_S1x2048x4_0_0_0 : ∀ a, (![0, 0, 0] : Fin 3 → Nat) a + S1x2048x4.size a ≤ S1x2048x4.size a
  h_S1x2048x4 : 0 < S1x2048x4.numel
  shapeCasts_S1x2048x4_S2048x4 : S1x2048x4.ShapeCasts S2048x4
  slices_S2048x4_o0_0_S2048x1 : S2048x4.Slices ![0, 0] S2048x1
  slices_S2048x4_o0_1_S2048x1 : S2048x4.Slices ![0, 1] S2048x1
  slices_S2048x4_o0_2_S2048x1 : S2048x4.Slices ![0, 2] S2048x1
  concatenates_S2048x1_S2048x1_S2048x1_S2048x3_d1 : Shape.Concatenates [S2048x1, S2048x1, S2048x1] S2048x3 1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  broadcasts_S1x1_S256x3 : S1x1.Broadcasts S256x3
  slices_S256x3_o0_0_S256x1 : S256x3.Slices ![0, 0] S256x1
  slices_S256x3_o0_1_S256x1 : S256x3.Slices ![0, 1] S256x1
  slices_S256x3_o0_2_S256x1 : S256x3.Slices ![0, 2] S256x1
  inb_S1x256x4_S1x256x4_0_0_0 : ∀ a, (![0, 0, 0] : Fin 3 → Nat) a + S1x256x4.size a ≤ S1x256x4.size a
  h_S1x256x4 : 0 < S1x256x4.numel
  shapeCasts_S1x256x4_S256x4 : S1x256x4.ShapeCasts S256x4
  slices_S256x4_o0_0_S256x1 : S256x4.Slices ![0, 0] S256x1
  slices_S256x4_o0_1_S256x1 : S256x4.Slices ![0, 1] S256x1
  slices_S256x4_o0_2_S256x1 : S256x4.Slices ![0, 2] S256x1
  slices_S256x4_o0_3_S256x1 : S256x4.Slices ![0, 3] S256x1
  inb_S256x1_S256x1_0_0 : ∀ a, (![0, 0] : Fin 2 → Nat) a + S256x1.size a ≤ S256x1.size a
  h_S256x1 : 0 < S256x1.numel
  broadcasts_S1x1_S256x1 : S1x1.Broadcasts S256x1
  concatenates_S256x1_S256x1_S256x1_S256x1_S256x1_S256x1_S256x6_d1 : Shape.Concatenates [S256x1, S256x1, S256x1, S256x1, S256x1, S256x1] S256x6 1
  inb_S1x256x6_S1x256x6_0_0_0 : ∀ a, (![0, 0, 0] : Fin 3 → Nat) a + S1x256x6.size a ≤ S1x256x6.size a
  h_S1x256x6 : 0 < S1x256x6.numel
  shapeCasts_S1x256x6_S256x6 : S1x256x6.ShapeCasts S256x6
  shapeCasts_S256x6_S1x256x6 : S256x6.ShapeCasts S1x256x6
  shapeCasts_S1x1_S1x1 : S1x1.ShapeCasts S1x1
  concatenates_S256x1_S256x1_S256x1_S256x1_S256x4_d1 : Shape.Concatenates [S256x1, S256x1, S256x1, S256x1] S256x4 1
  shapeCasts_S256x4_S1x256x4 : S256x4.ShapeCasts S1x256x4
  shapeCasts_S256x2048_S1x256x2048 : S256x2048.ShapeCasts S1x256x2048
  bcast_S4x2048x2048_S4x2048x2048x1_0_1_2 : S4x2048x2048.BroadcastsInDim S4x2048x2048x1 (![0, 1, 2] : Fin 3 → Fin S4x2048x2048x1.rank)
  concatenates_S4x2048x2048x1_S4x2048x2048x1_S4x2048x2048x2_d3 : Shape.Concatenates [S4x2048x2048x1, S4x2048x2048x1] S4x2048x2048x2 3
  dot_S256x2048_S2048x3_S256x3_1_0_0_1_n_n_wf : DotDims.WF S256x2048 S2048x3 S256x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S4x2048x2048.size a
  hwx0_0 : ∀ i : grid0.Coords, EltTy.bits .f32 = 32 ∨ (Rect.block (s := S4x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S4x1x2048.size a
  hwx0_1 : ∀ i : grid0.Coords, EltTy.bits .f32 = 32 ∨ (Rect.block (s := S4x1x2048) S1x1x2048.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x2048.size a ≤ S4x2048x2048.size a
  hwx1_0 : ∀ i : grid1.Coords, EltTy.bits .f32 = 32 ∨ (Rect.block (s := S4x2048x2048) S1x256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x2048.size a ≤ S4x2048x2048.size a
  hwx1_1 : ∀ i : grid1.Coords, EltTy.bits .f32 = 32 ∨ (Rect.block (s := S4x2048x2048) S1x256x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x1.size a ≤ S4x2048x1.size a
  hwx1_2 : ∀ i : grid1.Coords, EltTy.bits .f32 = 32 ∨ (Rect.block (s := S4x2048x1) S1x256x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x4.size a ≤ S4x2048x4.size a
  hwx1_3 : ∀ i : grid1.Coords, EltTy.bits .f32 = 32 ∨ (Rect.block (s := S4x2048x4) S1x2048x4.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x4.size a ≤ S4x2048x4.size a
  hwx1_4 : ∀ i : grid1.Coords, EltTy.bits .f32 = 32 ∨ (Rect.block (s := S4x2048x4) S1x256x4.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x1.size a ≤ S4x2048x1.size a
  hwx1_5 : ∀ i : grid1.Coords, EltTy.bits .f32 = 32 ∨ (Rect.block (s := S4x2048x1) S1x256x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x1.size a ≤ S4x2048x1.size a
  hwx1_6 : ∀ i : grid1.Coords, EltTy.bits .f32 = 32 ∨ (Rect.block (s := S4x2048x1) S1x256x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x1.size a ≤ S2048x1.size a
  hwx1_7 : ∀ i : grid1.Coords, EltTy.bits .f32 = 32 ∨ (Rect.block (s := S2048x1) S256x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S256x1.size a ≤ S2048x1.size a
  hwx1_8 : ∀ i : grid1.Coords, EltTy.bits .f32 = 32 ∨ (Rect.block (s := S2048x1) S256x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x1x1.size a ≤ S4x1x1.size a
  hwx1_9 : ∀ i : grid1.Coords, EltTy.bits .f32 = 32 ∨ (Rect.block (s := S4x1x1) S1x1x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x256x6.size a ≤ S4x2048x6.size a
  hwx1_10 : ∀ i : grid1.Coords, EltTy.bits .f32 = 32 ∨ (Rect.block (s := S4x2048x6) S1x256x6.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1x256x4.size a ≤ S4x2048x4.size a
  hwx1_11 : ∀ i : grid1.Coords, EltTy.bits .f32 = 32 ∨ (Rect.block (s := S4x2048x4) S1x256x4.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1x256x2048.size a ≤ S4x2048x2048.size a
  hwx1_12 : ∀ i : grid1.Coords, EltTy.bits .f32 = 32 ∨ (Rect.block (s := S4x2048x2048) S1x256x2048.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S1x256x2048.size a ≤ S4x2048x2048.size a
  hwx1_13 : ∀ i : grid1.Coords, EltTy.bits .f32 = 32 ∨ (Rect.block (s := S4x2048x2048) S1x256x2048.size (cc1_transform_13 i) (hinb1_13 i)).WholeWords (EltTy.packing .f32)

variable [Facts₀]

def dot_S256x2048_S2048x3_S256x3_1_0_0_1_n_n : DotDims S256x2048 S2048x3 S256x3 where
  lhsContracting := [1]
  rhsContracting := [0]
  lhsNonContracting := [0]
  rhsNonContracting := [1]
  lhsBatch := []
  rhsBatch := []
  wf := dot_S256x2048_S2048x3_S256x3_1_0_0_1_n_n_wf

abbrev win0_0 : Pipeline.Window sig grid0 :=
  Pipeline.Window.ofSpec (Memref.whole main_arg2) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg2) S1x256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1x256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1x2048x4.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S1x256x4.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg0) S1x256x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg1) S1x256x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_arg5) S256x1.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_arg6) S256x1.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v10) S1x1x1.size cc1_transform_9 reads1_9 false false 2 stage1_9 sem1_9
    hrank1 hreads1_9 hinb1_9 nbuf1_9 (Memref.isWhole_whole _) hwx1_9 hstage1_9

abbrev win1_10 : Pipeline.Window sig grid1 :=
  Pipeline.Window.ofSpec (Memref.whole main_v11_0) S1x256x6.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v11_1) S1x256x4.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v11_2) S1x256x2048.size cc1_transform_12 reads1_12 true false 2 stage1_12 sem1_12
    hrank1 hreads1_12 hinb1_12 nbuf1_12 (Memref.isWhole_whole _) hwx1_12 hstage1_12

abbrev win1_13 : Pipeline.Window sig grid1 :=
  Pipeline.Window.ofSpec (Memref.whole main_v11_3) S1x256x2048.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S4x2048x1 : Shape := ⟨3, ![4, 2048, 1]⟩
abbrev S4x2048x2048 : Shape := ⟨3, ![4, 2048, 2048]⟩
abbrev S4x2048x4 : Shape := ⟨3, ![4, 2048, 4]⟩
abbrev S2048x1 : Shape := ⟨2, ![2048, 1]⟩
abbrev S2048x2048 : Shape := ⟨2, ![2048, 2048]⟩
abbrev S_ : Shape := ⟨0, ![]⟩
abbrev S1x2048x2048 : Shape := ⟨3, ![1, 2048, 2048]⟩
abbrev S4x2048 : Shape := ⟨2, ![4, 2048]⟩
abbrev S4 : Shape := ⟨1, ![4]⟩
abbrev S4x1 : Shape := ⟨2, ![4, 1]⟩
abbrev S4x1x1 : Shape := ⟨3, ![4, 1, 1]⟩
abbrev S1x2048x1 : Shape := ⟨3, ![1, 2048, 1]⟩
abbrev S4x2048x6 : Shape := ⟨3, ![4, 2048, 6]⟩
abbrev S4x2048x2048x1 : Shape := ⟨4, ![4, 2048, 2048, 1]⟩
abbrev S4x2048x2048x2 : Shape := ⟨4, ![4, 2048, 2048, 2]⟩

abbrev nBuf : Space → Nat
  | .hbm => 123
  | .vmem => 0
  | .smem => 0
  | _ => 0

abbrev bufTy : (tb : Table) → Fin (tcTables nBuf tb) → BufTy
  | .hbm, ⟨0, _⟩ => ⟨S4x2048x1, .f32⟩
  | .hbm, ⟨1, _⟩ => ⟨S4x2048x1, .f32⟩
  | .hbm, ⟨2, _⟩ => ⟨S4x2048x2048, .f32⟩
  | .hbm, ⟨3, _⟩ => ⟨S4x2048x4, .f32⟩
  | .hbm, ⟨4, _⟩ => ⟨S4x2048x2048, .f32⟩
  | .hbm, ⟨5, _⟩ => ⟨S2048x1, .f32⟩
  | .hbm, ⟨6, _⟩ => ⟨S2048x1, .f32⟩
  | .hbm, ⟨7, _⟩ => ⟨S2048x2048, .i32⟩
  | .hbm, ⟨8, _⟩ => ⟨S2048x2048, .i32⟩
  | .hbm, ⟨9, _⟩ => ⟨S_, .i32⟩
  | .hbm, ⟨10, _⟩ => ⟨S2048x2048, .i32⟩
  | .hbm, ⟨11, _⟩ => ⟨S2048x2048, .i32⟩
  | .hbm, ⟨12, _⟩ => ⟨S2048x2048, .i1⟩
  | .hbm, ⟨13, _⟩ => ⟨S1x2048x2048, .i1⟩
  | .hbm, ⟨14, _⟩ => ⟨S_, .f32⟩
  | .hbm, ⟨15, _⟩ => ⟨S_, .f32⟩
  | .hbm, ⟨16, _⟩ => ⟨S4x2048x2048, .i1⟩
  | .hbm, ⟨17, _⟩ => ⟨S4x2048x2048, .f32⟩
  | .hbm, ⟨18, _⟩ => ⟨S4x2048x2048, .f32⟩
  | .hbm, ⟨19, _⟩ => ⟨S1x2048x2048, .i1⟩
  | .hbm, ⟨20, _⟩ => ⟨S_, .f32⟩
  | .hbm, ⟨21, _⟩ => ⟨S_, .f32⟩
  | .hbm, ⟨22, _⟩ => ⟨S4x2048x2048, .i1⟩
  | .hbm, ⟨23, _⟩ => ⟨S4x2048x2048, .f32⟩
  | .hbm, ⟨24, _⟩ => ⟨S4x2048x2048, .f32⟩
  | .hbm, ⟨25, _⟩ => ⟨S_, .f32⟩
  | .hbm, ⟨26, _⟩ => ⟨S4x2048, .f32⟩
  | .hbm, ⟨27, _⟩ => ⟨S4x2048x1, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4, .f32⟩
  | .hbm, ⟨32, _⟩ => ⟨S4x1, .f32⟩
  | .hbm, ⟨33, _⟩ => ⟨S4x2048x1, .f32⟩
  | .hbm, ⟨34, _⟩ => ⟨S4x2048x1, .f32⟩
  | .hbm, ⟨35, _⟩ => ⟨S4x2048x1, .f32⟩
  | .hbm, ⟨36, _⟩ => ⟨S4x2048x1, .f32⟩
  | .hbm, ⟨37, _⟩ => ⟨S4x2048x1, .f32⟩
  | .hbm, ⟨38, _⟩ => ⟨S4x2048x1, .f32⟩
  | .hbm, ⟨39, _⟩ => ⟨S_, .f32⟩
  | .hbm, ⟨40, _⟩ => ⟨S4x1, .f32⟩
  | .hbm, ⟨41, _⟩ => ⟨S4x1, .f32⟩
  | .hbm, ⟨42, _⟩ => ⟨S4x1x1, .f32⟩
  | .hbm, ⟨43, _⟩ => ⟨S1x2048x1, .f32⟩
  | .hbm, ⟨44, _⟩ => ⟨S1x2048x1, .f32⟩
  | .hbm, ⟨45, _⟩ => ⟨S4x2048x1, .f32⟩
  | .hbm, ⟨46, _⟩ => ⟨S4x2048x1, .f32⟩
  | .hbm, ⟨47, _⟩ => ⟨S4x2048x1, .f32⟩
  | .hbm, ⟨48, _⟩ => ⟨S4x2048x1, .f32⟩
  | .hbm, ⟨49, _⟩ => ⟨S_, .f32⟩
  | .hbm, ⟨50, _⟩ => ⟨S4x2048x1, .f32⟩
  | .hbm, ⟨51, _⟩ => ⟨S4x2048x1, .f32⟩
  | .hbm, ⟨52, _⟩ => ⟨S4x2048x1, .f32⟩
  | .hbm, ⟨53, _⟩ => ⟨S4x2048x1, .f32⟩
  | .hbm, ⟨54, _⟩ => ⟨S4x2048x1, .f32⟩
  | .hbm, ⟨55, _⟩ => ⟨S4x2048x1, .f32⟩
  | .hbm, ⟨56, _⟩ => ⟨S4x2048x1, .f32⟩
  | .hbm, ⟨57, _⟩ => ⟨S4x2048x1, .f32⟩
  | .hbm, ⟨58, _⟩ => ⟨S4x2048x1, .f32⟩
  | .hbm, ⟨59, _⟩ => ⟨S4x2048x1, .f32⟩
  | .hbm, ⟨60, _⟩ => ⟨S4x2048x1, .f32⟩
  | .hbm, ⟨61, _⟩ => ⟨S4x2048x1, .f32⟩
  | .hbm, ⟨62, _⟩ => ⟨S4x2048x1, .f32⟩
  | .hbm, ⟨63, _⟩ => ⟨S4x2048x1, .f32⟩
  | .hbm, ⟨64, _⟩ => ⟨S4x2048x1, .f32⟩
  | .hbm, ⟨65, _⟩ => ⟨S4x2048x1, .f32⟩
  | .hbm, ⟨66, _⟩ => ⟨S4x2048x1, .f32⟩
  | .hbm, ⟨67, _⟩ => ⟨S_, .f32⟩
  | .hbm, ⟨68, _⟩ => ⟨S4x2048x1, .f32⟩
  | .hbm, ⟨69, _⟩ => ⟨S4x2048x1, .f32⟩
  | .hbm, ⟨70, _⟩ => ⟨S4x2048x1, .f32⟩
  | .hbm, ⟨71, _⟩ => ⟨S_, .f32⟩
  | .hbm, ⟨72, _⟩ => ⟨S4x2048x1, .f32⟩
  | .hbm, ⟨73, _⟩ => ⟨S4x2048x1, .f32⟩
  | .hbm, ⟨74, _⟩ => ⟨S4x2048x1, .f32⟩
  | .hbm, ⟨75, _⟩ => ⟨S4x2048x1, .f32⟩
  | .hbm, ⟨76, _⟩ => ⟨S4x2048x1, .f32⟩
  | .hbm, ⟨77, _⟩ => ⟨S4x2048x1, .f32⟩
  | .hbm, ⟨78, _⟩ => ⟨S4x2048x1, .f32⟩
  | .hbm, ⟨79, _⟩ => ⟨S4x2048x1, .f32⟩
  | .hbm, ⟨80, _⟩ => ⟨S4x2048x1, .f32⟩
  | .hbm, ⟨81, _⟩ => ⟨S4x2048x1, .f32⟩
  | .hbm, ⟨82, _⟩ => ⟨S4x2048x1, .f32⟩
  | .hbm, ⟨83, _⟩ => ⟨S4x2048x1, .f32⟩
  | .hbm, ⟨84, _⟩ => ⟨S4x2048x1, .f32⟩
  | .hbm, ⟨85, _⟩ => ⟨S4x2048x1, .f32⟩
  | .hbm, ⟨86, _⟩ => ⟨S4x2048x1, .f32⟩
  | .hbm, ⟨87, _⟩ => ⟨S4x2048x1, .f32⟩
  | .hbm, ⟨88, _⟩ => ⟨S4x2048x1, .f32⟩
  | .hbm, ⟨89, _⟩ => ⟨S4x2048x1, .f32⟩
  | .hbm, ⟨90, _⟩ => ⟨S4x2048x1, .f32⟩
  | .hbm, ⟨91, _⟩ => ⟨S4x2048x1, .f32⟩
  | .hbm, ⟨92, _⟩ => ⟨S4x2048x1, .f32⟩
  | .hbm, ⟨93, _⟩ => ⟨S4x2048x1, .f32⟩
  | .hbm, ⟨94, _⟩ => ⟨S4x2048x1, .f32⟩
  | .hbm, ⟨95, _⟩ => ⟨S4x2048x1, .f32⟩
  | .hbm, ⟨96, _⟩ => ⟨S4x2048x1, .f32⟩
  | .hbm, ⟨97, _⟩ => ⟨S4x2048x1, .f32⟩
  | .hbm, ⟨98, _⟩ => ⟨S_, .f32⟩
  | .hbm, ⟨99, _⟩ => ⟨S1x2048x1, .f32⟩
  | .hbm, ⟨100, _⟩ => ⟨S1x2048x1, .f32⟩
  | .hbm, ⟨101, _⟩ => ⟨S_, .f32⟩
  | .hbm, ⟨102, _⟩ => ⟨S1x2048x1, .f32⟩
  | .hbm, ⟨103, _⟩ => ⟨S1x2048x1, .f32⟩
  | .hbm, ⟨104, _⟩ => ⟨S4x2048x1, .f32⟩
  | .hbm, ⟨105, _⟩ => ⟨S4x2048x1, .f32⟩
  | .hbm, ⟨106, _⟩ => ⟨S4x2048x1, .f32⟩
  | .hbm, ⟨107, _⟩ => ⟨S4x2048x1, .f32⟩
  | .hbm, ⟨108, _⟩ => ⟨S4x2048x1, .f32⟩
  | .hbm, ⟨109, _⟩ => ⟨S4x2048x1, .f32⟩
  | .hbm, ⟨110, _⟩ => ⟨S4x2048x1, .f32⟩
  | .hbm, ⟨111, _⟩ => ⟨S_, .f32⟩
  | .hbm, ⟨112, _⟩ => ⟨S4x2048x1, .f32⟩
  | .hbm, ⟨113, _⟩ => ⟨S4x2048x1, .f32⟩
  | .hbm, ⟨114, _⟩ => ⟨S_, .f32⟩
  | .hbm, ⟨115, _⟩ => ⟨S4x2048x1, .f32⟩
  | .hbm, ⟨116, _⟩ => ⟨S4x2048x1, .f32⟩
  | .hbm, ⟨117, _⟩ => ⟨S4x2048x6, .f32⟩
  | .hbm, ⟨118, _⟩ => ⟨S4x2048x1, .f32⟩
  | .hbm, ⟨119, _⟩ => ⟨S4x2048x4, .f32⟩
  | .hbm, ⟨120, _⟩ => ⟨S4x2048x2048x1, .f32⟩
  | .hbm, ⟨121, _⟩ => ⟨S4x2048x2048x1, .f32⟩
  | .hbm, ⟨122, _⟩ => ⟨S4x2048x2048x2, .f32⟩
  | _, _ => ⟨S4x2048x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_5 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_6 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_7 : Ref sig .tc := ⟨.hbm, 98, rfl⟩
abbrev main_v76 : Ref sig .tc := ⟨.hbm, 99, rfl⟩
abbrev main_v77 : Ref sig .tc := ⟨.hbm, 100, rfl⟩
abbrev main_cst_8 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_9 : Ref sig .tc := ⟨.hbm, 111, rfl⟩
abbrev main_v87 : Ref sig .tc := ⟨.hbm, 112, rfl⟩
abbrev main_v88 : Ref sig .tc := ⟨.hbm, 113, rfl⟩
abbrev main_cst_10 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S4x2048x2048_0_1_2 : S1x2048x2048.BroadcastsInDim S4x2048x2048 (![0, 1, 2] : Fin 3 → Fin S4x2048x2048.rank)
  bcast_S_S4x2048x2048 : S_.BroadcastsInDim S4x2048x2048 (![] : Fin 0 → Fin S4x2048x2048.rank)
  reducesTo_S4x2048x2048_S4x2048_d1 : S4x2048x2048.ReducesTo [1] S4x2048
  h_S_ : 0 < S_.numel
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  reducesTo_S4x2048x2048_S4_d1_2 : S4x2048x2048.ReducesTo [1, 2] S4
  bcast_S4_S4x1_0 : S4.BroadcastsInDim S4x1 (![0] : Fin 1 → Fin S4x1.rank)
  slices_S4x2048x4_S4x2048x1_0_0_0 : S4x2048x4.Slices ![0, 0, 0] S4x2048x1
  slices_S4x2048x4_S4x2048x1_0_0_1 : S4x2048x4.Slices ![0, 0, 1] S4x2048x1
  slices_S4x2048x4_S4x2048x1_0_0_2 : S4x2048x4.Slices ![0, 0, 2] S4x2048x1
  slices_S4x2048x4_S4x2048x1_0_0_3 : S4x2048x4.Slices ![0, 0, 3] S4x2048x1
  reducesTo_S4x2048x1_S4x1_d1 : S4x2048x1.ReducesTo [1] S4x1
  bcast_S4x1_S4x1x1_0_1 : S4x1.BroadcastsInDim S4x1x1 (![0, 1] : Fin 2 → Fin S4x1x1.rank)
  bcast_S2048x1_S1x2048x1_1_2 : S2048x1.BroadcastsInDim S1x2048x1 (![1, 2] : Fin 2 → Fin S1x2048x1.rank)
  bcast_S_S4x2048x1 : S_.BroadcastsInDim S4x2048x1 (![] : Fin 0 → Fin S4x2048x1.rank)
  bcast_S1x2048x1_S4x2048x1_0_1_2 : S1x2048x1.BroadcastsInDim S4x2048x1 (![0, 1, 2] : Fin 3 → Fin S4x2048x1.rank)
  bcast_S4x1x1_S4x2048x1_0_1_2 : S4x1x1.BroadcastsInDim S4x2048x1 (![0, 1, 2] : Fin 3 → Fin S4x2048x1.rank)
  bcast_S_S1x2048x1 : S_.BroadcastsInDim S1x2048x1 (![] : Fin 0 → Fin S1x2048x1.rank)
  concatenates_S4x2048x1_S4x2048x1_S4x2048x1_S4x2048x1_S4x2048x1_S4x2048x1_S4x2048x6_d2 : Shape.Concatenates [S4x2048x1, S4x2048x1, S4x2048x1, S4x2048x1, S4x2048x1, S4x2048x1] S4x2048x6 2
  concatenates_S4x2048x1_S4x2048x1_S4x2048x1_S4x2048x1_S4x2048x4_d2 : Shape.Concatenates [S4x2048x1, S4x2048x1, S4x2048x1, S4x2048x1] S4x2048x4 2
  bcast_S4x2048x2048_S4x2048x2048x1_0_1_2 : S4x2048x2048.BroadcastsInDim S4x2048x2048x1 (![0, 1, 2] : Fin 3 → Fin S4x2048x2048x1.rank)
  concatenates_S4x2048x2048x1_S4x2048x2048x1_S4x2048x2048x2_d3 : Shape.Concatenates [S4x2048x2048x1, S4x2048x2048x1] S4x2048x2048x2 3
  dot_S4x2048x2048_S4x2048x1_S4x2048x1_2_1_1_2_0_0_wf : DotDims.WF S4x2048x2048 S4x2048x1 S4x2048x1 [2] [1] [1] [2] [0] [0]

variable [Facts₀]

def dot_S4x2048x2048_S4x2048x1_S4x2048x1_2_1_1_2_0_0 : DotDims S4x2048x2048 S4x2048x1 S4x2048x1 where
  lhsContracting := [2]
  rhsContracting := [1]
  lhsNonContracting := [1]
  rhsNonContracting := [2]
  lhsBatch := [0]
  rhsBatch := [0]
  wf := dot_S4x2048x2048_S4x2048x1_S4x2048x1_2_1_1_2_0_0_wf

class Facts : Prop extends Facts₀ where

variable [Facts]
-- ==== Proof.KReg0Run.lean ====
/-
  The first region (the column-sum pass), part one: the kernel body run on any staging memrefs.

  The grid is 4 batches by 4 row tiles of 512 rows. The body, at the first row tile of a batch, resets the
  1 x 2048 accumulator block to zero; at every tile it adds to the block the tile's column sums with the
  diagonal entries masked out. So the conditional on the second grid coordinate has two cases: the reset
  case (the tile index is 0) and the carry case (the block holds what the tile before left).
  Each case's run is a triple found by symbolic execution of the body's skeleton; the pieces the output
  buffer ends with are the witness.
-/
import proofs.«166416_j86079734546455_2_alg».proof.Proof.Gen.Kernel.Launch
import proofs.«166416_j86079734546455_2_alg».proof.Proof.Gen.Kernel.Skeleton
import proofs.«166416_j86079734546455_2_alg».proof.Proof.Gen.Kernel.Points
import Idealize.ShloMosaic.Lib.Pipeline.FrameBody
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one conditional: the row-tile coordinate is zero. -/
abbrev cond0_0 (i : grid0.Coords) : Prop :=
  (Scalar.cmpi .ne (Scalar.extui (Scalar.cmpi .eq (BitVec.ofNat 32 (i 1).val) 0#32)) 0#32) = 1#1

/-- Over the 16 grid points, row-major in (batch, tile), the tile coordinate is zero exactly at the points 0, 4, 8, 12. -/
theorem hcond0_0 : ∀ t : Fin cfg0.N, cond0_0 (grid0.coords t) ↔ t.val % 4 = 0 :=
  (by decide +kernel : ∀ t : Fin grid0.N, cond0_0 (grid0.coords t) ↔ t.val % 4 = 0)

/-- One staging buffer of the accumulator window, through which its contents are stated. -/
abbrev VO0_1 : View sig .tc .vmem S1x1x2048 .f32 := (Memref.whole cc0_stg1_0 : Memref sig .tc .vmem S1x1x2048 .f32).view

/-- The current staging memrefs at a point, as the pipeline passes them to the body. -/
abbrev ms0_0 (t : Fin cfg0.N) : Memref sig .tc .vmem S1x512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048 .f32 := win0_1.stage (cfg0.slots t 1)
abbrev hs0_1 (t : Fin cfg0.N) : (ms0_1 t).IsWhole := hstage0_1 ((cfg0.slots t 1).cast nbuf0_1)

set_option maxHeartbeats 1000000 in
/-- THE RESET CASE. With the tile coordinate zero the body stores zeros over the accumulator block, then
    stores the block plus the tile's masked column sums: the pieces the output buffer ends with, and the
    triple that says so. -/
noncomputable def kernelRun0_A (c : Dev nD) (i : grid0.Coords) (arg2 : Memref sig .tc .vmem S1x512x2048 .f32) (harg2 : arg2.IsWhole)
    (arg3 : Memref sig .tc .vmem S1x1x2048 .f32) (harg3 : arg3.IsWhole) (hc0 : cond0_0 i)
    (x0 : Vec F S1x512x2048 .f32) :
    { L1 : List (View.Piece (Elt F) S1x1x2048 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__colsum_kernel i arg2 harg2 arg3 harg3) K } := by
  refine ⟨?_, fun E K => ?run⟩
  case run =>
    simp only [cc0__colsum_kernel_eq_skeleton]; unfold cc0__colsum_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

set_option maxHeartbeats 1000000 in
/-- THE CARRY CASE. With the tile coordinate nonzero the body reads the accumulator block as the tile
    before left it (`xo1`) and stores it back plus this tile's masked column sums. -/
noncomputable def kernelRun0_B (c : Dev nD) (i : grid0.Coords) (arg2 : Memref sig .tc .vmem S1x512x2048 .f32) (harg2 : arg2.IsWhole)
    (arg3 : Memref sig .tc .vmem S1x1x2048 .f32) (harg3 : arg3.IsWhole) (hc0 : ¬cond0_0 i)
    (x0 : Vec F S1x512x2048 .f32) (xo1 : Vec F S1x1x2048 .f32) :
    { L1 : List (View.Piece (Elt F) S1x1x2048 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__colsum_kernel i arg2 harg2 arg3 harg3) K } := by
  refine ⟨?_, fun E K => ?run⟩
  case run =>
    simp only [cc0__colsum_kernel_eq_skeleton]; unfold cc0__colsum_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

end Cert.Kernel.Hand

end
-- ==== Proof.KReg0.lean ====
/-
  The first region (the column-sum pass), part two: what the accumulator block holds after each grid point,
  the region's proof data at any entry contents `V`, and the body obligation.

  After point t = 4 b + k the block holds the sum over the row tiles 0..k of batch b of the tiles' masked
  column sums: the reset case starts it from zeros, the carry case adds to what the point before left, and
  the block is written back to row b of the result only after the last tile (points 3, 7, 11, 15).
-/
import proofs.«166416_j86079734546455_2_alg».proof.Proof.KReg0Run
import Idealize.ShloMosaic.Lib.Pipeline.RegionsLoop
import Idealize.ShloMosaic.Lib.Pipeline.FrameSuffix
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The reset case's two stores each cover the block. -/
theorem cover0_A_1 (c : Dev nD) (i : grid0.Coords) (arg2 : Memref sig .tc .vmem S1x512x2048 .f32) (harg2 : arg2.IsWhole)
    (arg3 : Memref sig .tc .vmem S1x1x2048 .f32) (harg3 : arg3.IsWhole) (hc0 : cond0_0 i)
    (x0 : Vec F S1x512x2048 .f32) (y : S1x1x2048.Idx) :
    ∃ pc ∈ (kernelRun0_A c i arg2 harg2 arg3 harg3 hc0 x0).1, y ∈ pc.1.set :=
  View.cover_of_tiledL (kernelRun0_A c i arg2 harg2 arg3 harg3 hc0 x0).1 S1x1x2048.size (by sl_kernel_rfl) y

/-- What the reset case leaves in the accumulator block. -/
def out0_A_1 (c : Dev nD) (i : grid0.Coords) (arg2 : Memref sig .tc .vmem S1x512x2048 .f32) (harg2 : arg2.IsWhole)
    (arg3 : Memref sig .tc .vmem S1x1x2048 .f32) (harg3 : arg3.IsWhole) (hc0 : cond0_0 i)
    (x0 : Vec F S1x512x2048 .f32) : Vec F S1x1x2048 .f32 :=
  VO0_1.read (Elt F) (VO0_1.writes (Elt F) VO0_1.junk (kernelRun0_A c i arg2 harg2 arg3 harg3 hc0 x0).1)

/-- The carry case's store covers the block. -/
theorem cover0_B_1 (c : Dev nD) (i : grid0.Coords) (arg2 : Memref sig .tc .vmem S1x512x2048 .f32) (harg2 : arg2.IsWhole)
    (arg3 : Memref sig .tc .vmem S1x1x2048 .f32) (harg3 : arg3.IsWhole) (hc0 : ¬cond0_0 i)
    (x0 : Vec F S1x512x2048 .f32) (xo1 : Vec F S1x1x2048 .f32) (y : S1x1x2048.Idx) :
    ∃ pc ∈ (kernelRun0_B c i arg2 harg2 arg3 harg3 hc0 x0 xo1).1, y ∈ pc.1.set :=
  View.cover_of_tiledL (kernelRun0_B c i arg2 harg2 arg3 harg3 hc0 x0 xo1).1 S1x1x2048.size (by sl_kernel_rfl) y

/-- What the carry case leaves in the accumulator block, from what the point before left (`xo1`). -/
def out0_B_1 (c : Dev nD) (i : grid0.Coords) (arg2 : Memref sig .tc .vmem S1x512x2048 .f32) (harg2 : arg2.IsWhole)
    (arg3 : Memref sig .tc .vmem S1x1x2048 .f32) (harg3 : arg3.IsWhole) (hc0 : ¬cond0_0 i)
    (x0 : Vec F S1x512x2048 .f32) (xo1 : Vec F S1x1x2048 .f32) : Vec F S1x1x2048 .f32 :=
  VO0_1.read (Elt F) (VO0_1.writes (Elt F) VO0_1.junk (kernelRun0_B c i arg2 harg2 arg3 harg3 hc0 x0 xo1).1)

/-- THE ACCUMULATION: the accumulator block after the body at position `n` of the grid. -/
def outsAt0 (c : Dev nD) : (n : ℕ) → n < cfg0.N → Vec F S1x1x2048 .f32
  | 0, hn => out0_A_1 c (grid0.coords ⟨0, hn⟩) (ms0_0 ⟨0, hn⟩) (hs0_0 ⟨0, hn⟩) (ms0_1 ⟨0, hn⟩) (hs0_1 ⟨0, hn⟩) ((hcond0_0 ⟨0, hn⟩).mpr (Nat.zero_mod _)) (iblk0 V c 0 ⟨0, hn⟩)
  | n + 1, hn =>
    if h0 : (n + 1) % 4 = 0 then
      out0_A_1 c (grid0.coords ⟨n + 1, hn⟩) (ms0_0 ⟨n + 1, hn⟩) (hs0_0 ⟨n + 1, hn⟩) (ms0_1 ⟨n + 1, hn⟩) (hs0_1 ⟨n + 1, hn⟩) ((hcond0_0 ⟨n + 1, hn⟩).mpr h0) (iblk0 V c 0 ⟨n + 1, hn⟩)
    else
      out0_B_1 c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h)) (iblk0 V c 0 ⟨n + 1, hn⟩) (outsAt0 c n (Nat.lt_of_succ_lt hn))

theorem outsAt0_A (c : Dev nD) (t : Fin cfg0.N) (h0 : t.val % 4 = 0) :
    outsAt0 V c t.val t.isLt = out0_A_1 c (grid0.coords t) (ms0_0 t) (hs0_0 t) (ms0_1 t) (hs0_1 t) ((hcond0_0 t).mpr h0) (iblk0 V c 0 t) := by
  obtain ⟨n, hn⟩ := t
  cases n with
  | zero => exact rfl
  | succ n => exact (dif_pos h0).trans rfl

theorem outsAt0_B (c : Dev nD) (t : Fin cfg0.N) (h0 : ¬t.val % 4 = 0) :
    outsAt0 V c t.val t.isLt = out0_B_1 c (grid0.coords t) (ms0_0 t) (hs0_0 t) (ms0_1 t) (hs0_1 t) (fun h => h0 ((hcond0_0 t).mp h)) (iblk0 V c 0 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region's proof data on core `c`: the arrays as the region finds them; after the body the input
    window's buffer at its block and the accumulator's at `outsAt0`; the scoped rest and the generator
    register ride through untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d

/-- In the carry case the accumulator's buffer holds what the body left at the point before: the block is
    written back only after a batch's last tile, which the point before a carry point never is. -/
theorem before0_1_B (c : Dev nD) (t : Fin cfg0.N) (h0 : ¬t.val % 4 = 0) (d) :
    (dat0 V c).before 1 t d = (outsAt0 V c (t.val - 1) (Nat.lt_of_le_of_lt (Nat.sub_le _ _) t.isLt)) := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

set_option maxHeartbeats 800000 in
/-- The body at any point: the closed form of the condition says which case the point is in. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  have hN : t.val < 16 := lt_of_lt_of_eq t.isLt (show cfg0.N = 16 from N_0)
  by_cases h0 : t.val % 4 = 0
  · rw [outsAt0_A V c t h0]
    unfold out0_A_1
    iintro ⟨HΦ, Ho, ⟨%d0, H0⟩, ⟨%d1, H1⟩⟩
    iapply ((kernelRun0_A c (grid0.coords t) _ _ _ _ ((hcond0_0 t).mpr h0) (iblk0 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _)
  · rw [outsAt0_B V c t h0]
    simp only [before0_1_B V c t h0]
    unfold out0_B_1
    iintro ⟨HΦ, Ho, ⟨%d0, H0⟩, ⟨%d1, H1⟩⟩
    iapply ((kernelRun0_B c (grid0.coords t) _ _ _ _ (fun h => h0 ((hcond0_0 t).mp h)) (iblk0 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B_1 c _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRunVals0.lean ====
/-
  The kernel program's run, part one: what every unscoped buffer holds at each boundary of @main, up to the main region's entry.

  @main is the column-sum region, a stretch of twelve host operations (the transposed column sums, their
  total, the populations' total, the mobility rate), the main region, and a stretch of three host operations
  (the two matrices stacked along a new last axis). The contents fold from the launch memory: a region
  leaves its output arrays at what its write-backs leave and every other buffer as it found it; a host
  stretch applies its operations.
-/
import proofs.«166416_j86079734546455_2_alg».proof.Proof.KReg0
import proofs.«166416_j86079734546455_2_alg».proof.Proof.Gen.Kernel.Regions
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch: the column-sum region is entered from them. -/
abbrev W0 : Dev nD → Valuation τ sig (Elt F) := fun c b => m ((c : Dev nD), b)
abbrev V0r : (c : Dev nD) → (b : Ref sig .tc) → Buf (Elt F) ((c : Thread nD τ).loc b) := fun c b => W0 m c b

/-- After the column-sum region: its result array at what the write-backs leave, the rest as entered. -/
def W1 (c : Dev nD) : Valuation τ sig (Elt F) :=
  Pipeline.withArrays spec0 c (W0 m c) fun w => (dat0 (V0r m) c).arrAt w cfg0.N
theorem W1_arr (c : Dev nD) (w : Fin cfg0.W) :
    W1 m c (Proc.devRef .tc (Pipeline.arrRef spec0 w)) = (dat0 (V0r m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1r : (c : Dev nD) → (b : Ref sig .tc) → Buf (Elt F) ((c : Thread nD τ).loc b) := fun c b => W1 m c b
theorem hF0 (c : Dev nD) (w : Fin cfg0.W) : (dat0 (V0r m) c).arrAt w cfg0.N = V1r m c (Pipeline.arrRef spec0 w) :=
  (W1_arr m c w).symm
theorem hrest0 (c : Dev nD) : ∀ b, b ∉ Finset.univ.image (Pipeline.arrRef spec0) → V1r m c b = V0r m c b :=
  fun b hb => W1_of_ne m c b fun w e => hb (Finset.mem_image.mpr ⟨w, Finset.mem_univ _, e⟩)

/-- After the twelve host operations: the main region is entered from here. -/
abbrev W2 : Dev nD → Valuation τ sig (Elt F) := fun c => StableHlo.after hostOps1 (W1 m c)
abbrev V2r : (c : Dev nD) → (b : Ref sig .tc) → Buf (Elt F) ((c : Thread nD τ).loc b) := fun c b => W2 m c b

end Cert.Kernel.Hand

end
-- ==== Proof.KReg1.lean ====
import proofs.«166416_j86079734546455_2_alg».proof.Proof.Gen.Kernel.Launch
import proofs.«166416_j86079734546455_2_alg».proof.Proof.Gen.Kernel.Skeleton
import proofs.«166416_j86079734546455_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 1 of @main: custom_call 1, `cc1__main_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- The zero offsets of a rank-3 buffer, however spelt. -/
theorem hz3 : (![0, 0, 0] : Fin 3 → Nat) = fun _ => 0 := funext fun a => by fin_cases a <;> rfl

abbrev r1_10 : Rect S1x256x6 := Rect.unit (s := S1x256x6) ![0, 0, 0] S1x256x6.size inb_S1x256x6_S1x256x6_0_0_0
abbrev r1_11 : Rect S1x256x4 := Rect.unit (s := S1x256x4) ![0, 0, 0] S1x256x4.size inb_S1x256x4_S1x256x4_0_0_0
abbrev r1_12 : Rect S1x256x2048 := Rect.unit (s := S1x256x2048) ![0, 0, 0] S1x256x2048.size inb_S1x256x2048_S1x256x2048_0_0_0

/-! ## What the body leaves in each output window's buffer

Each output buffer is stored once, whole; the stored value is the skeleton's payload of the values the two parts
return, which are payloads of the ten input buffers' contents `x0 … x9` (windows 0 … 9) and of the grid
coordinate `i`. -/

/-- Window 10's staging buffer after the body (reads every input but `x1`). -/
def out1_10 (i : grid1.Coords) (x0 : Vec F S1x256x2048 .f32) (x1 : Vec F S1x256x2048 .f32) (x2 : Vec F S1x256x1 .f32) (x3 : Vec F S1x2048x4 .f32) (x4 : Vec F S1x256x4 .f32) (x5 : Vec F S1x256x1 .f32) (x6 : Vec F S1x256x1 .f32) (x7 : Vec F S256x1 .f32) (x8 : Vec F S256x1 .f32) (x9 : Vec F S1x1x1 .f32) : Vec F S1x256x6 .f32 :=
  View.canon [⟨r1_10, k1_pay1 (k1_pay8 x9) x8 (k1_pay20 (k1_pay13 x4) (k1_pay14 x4) (k1_pay15 x4) x5 x6) (k1_pay21 (k1_pay8 x9) (k1_pay12 i x0 x2 x3 x9) (k1_pay13 x4) (k1_pay15 x4) x8) (k1_pay22 (k1_pay8 x9) (k1_pay11 i x0 x2 x3 x9) (k1_pay13 x4) (k1_pay14 x4) (k1_pay15 x4) x5 x6 x8) (k1_pay23 (k1_pay8 x9) (k1_pay10 i x0 x2 x3 x9) (k1_pay13 x4) (k1_pay14 x4) (k1_pay15 x4) x5 x6 x7 x8) (k1_pay24 (k1_pay13 x4) (k1_pay14 x4) (k1_pay15 x4) x5 x6) (k1_pay25 x5 x6)⟩]

/-- Window 11's staging buffer after the body (reads `x4, x5, x6, x8, x9`; the coordinate is not read). -/
def out1_11 (i : grid1.Coords) (x4 : Vec F S1x256x4 .f32) (x5 : Vec F S1x256x1 .f32) (x6 : Vec F S1x256x1 .f32) (x8 : Vec F S256x1 .f32) (x9 : Vec F S1x1x1 .f32) : Vec F S1x256x4 .f32 :=
  View.canon [⟨r1_11, k1_pay2 (k1_pay8 x9) (k1_pay15 x4) (k1_pay17 (k1_pay13 x4) (k1_pay14 x4) (k1_pay15 x4)) (k1_pay18 x5) (k1_pay19 x6) x8⟩]

/-- Window 12's staging buffer after the body (reads `x1`). -/
def out1_12 (i : grid1.Coords) (x1 : Vec F S1x256x2048 .f32) : Vec F S1x256x2048 .f32 :=
  View.canon [⟨r1_12, k1_pay3 (k1_pay6 i x1)⟩]

/-- Window 13's staging buffer after the body (reads `x0, x2`). -/
def out1_13 (i : grid1.Coords) (x0 : Vec F S1x256x2048 .f32) (x2 : Vec F S1x256x1 .f32) : Vec F S1x256x2048 .f32 :=
  View.canon [⟨r1_12, k1_pay4 (k1_pay7 i x0 x2)⟩]

/-! ## The pipeline's proof data -/

/-- The proof data of pipeline 1 on core `c`: the arrays as the region finds them (`V`); after the body at point
    `t` each input's buffer at its block and each output's at `out1_W` of the input blocks and the point's
    coordinates; the invariant the scoped rest and the generator register, untouched; nothing owed. Windows 3 and 4
    read ONE array: each holds one half of its full share; every other window holds its array's full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
    | ⟨11, _⟩ => out1_11 (grid1.coords t) (iblk1 V c 4 t) (iblk1 V c 5 t) (iblk1 V c 6 t) (iblk1 V c 8 t) (iblk1 V c 9 t)
    | ⟨12, _⟩ => out1_12 (grid1.coords t) (iblk1 V c 1 t)
    | ⟨13, _⟩ => out1_13 (grid1.coords t) (iblk1 V c 0 t) (iblk1 V c 2 t)
  Φ _ := Pipeline.ΦA spec1 c
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]
theorem after1_11 (c : Dev nD) (t : Fin cfg1.N) : (dat1 V c).after 11 t = out1_11 (grid1.coords t) (iblk1 V c 4 t) (iblk1 V c 5 t) (iblk1 V c 6 t) (iblk1 V c 8 t) (iblk1 V c 9 t) := by dsimp only [dat1]
theorem after1_12 (c : Dev nD) (t : Fin cfg1.N) : (dat1 V c).after 12 t = out1_12 (grid1.coords t) (iblk1 V c 1 t) := by dsimp only [dat1]
theorem after1_13 (c : Dev nD) (t : Fin cfg1.N) : (dat1 V c).after 13 t = out1_13 (grid1.coords t) (iblk1 V c 0 t) (iblk1 V c 2 t) := by dsimp only [dat1]

end Cert.Kernel.Hand

end
-- ==== Proof.KRunVals.lean ====
/-
  The kernel program's run, part one continued: what every unscoped buffer holds from the main region's exit to the return.

  @main is the column-sum region, a stretch of twelve host operations (the transposed column sums, their
  total, the populations' total, the mobility rate), the main region, and a stretch of three host operations
  (the two matrices stacked along a new last axis). The contents fold from the launch memory: a region
  leaves its output arrays at what its write-backs leave and every other buffer as it found it; a host
  stretch applies its operations.
-/
import proofs.«166416_j86079734546455_2_alg».proof.Proof.KRunVals0
import proofs.«166416_j86079734546455_2_alg».proof.Proof.KReg1
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- After the main region: its four result arrays at what the write-backs leave, the rest as entered. -/
def W3 (c : Dev nD) : Valuation τ sig (Elt F) :=
  Function.update (Function.update (Function.update (Function.update (W2 m c)
    (Proc.devRef .tc (Pipeline.arrRef spec1 10)) ((dat1 (V2r m) c).arrAt 10 cfg1.N))
    (Proc.devRef .tc (Pipeline.arrRef spec1 11)) ((dat1 (V2r m) c).arrAt 11 cfg1.N))
    (Proc.devRef .tc (Pipeline.arrRef spec1 12)) ((dat1 (V2r m) c).arrAt 12 cfg1.N))
    (Proc.devRef .tc (Pipeline.arrRef spec1 13)) ((dat1 (V2r m) c).arrAt 13 cfg1.N)
abbrev V3r : (c : Dev nD) → (b : Ref sig .tc) → Buf (Elt F) ((c : Thread nD τ).loc b) := fun c b => W3 m c b

theorem W3_of (c : Dev nD) (b : Ref sig .tc)
    (h : b ∉ ([Pipeline.arrRef spec1 10, Pipeline.arrRef spec1 11, Pipeline.arrRef spec1 12, Pipeline.arrRef spec1 13] : List (Ref sig .tc))) :
    W3 m c (Proc.devRef .tc b) = W2 m c (Proc.devRef .tc b) := by
  unfold W3
  rw [Function.update_of_ne (StableHlo.devRef_ne_of_ne (List.ne_of_not_mem_cons (List.not_mem_of_not_mem_cons (List.not_mem_of_not_mem_cons (List.not_mem_of_not_mem_cons h))))),
    Function.update_of_ne (StableHlo.devRef_ne_of_ne (List.ne_of_not_mem_cons (List.not_mem_of_not_mem_cons (List.not_mem_of_not_mem_cons h)))),
    Function.update_of_ne (StableHlo.devRef_ne_of_ne (List.ne_of_not_mem_cons (List.not_mem_of_not_mem_cons h))),
    Function.update_of_ne (StableHlo.devRef_ne_of_ne (List.ne_of_not_mem_cons h))]

theorem W3_10 (c : Dev nD) : W3 m c (Proc.devRef .tc (Pipeline.arrRef spec1 10)) = (dat1 (V2r m) c).arrAt 10 cfg1.N := by
  unfold W3
  rw [Function.update_of_ne (StableHlo.devRef_ne_of_ne (by decide)), Function.update_of_ne (StableHlo.devRef_ne_of_ne (by decide)),
    Function.update_of_ne (StableHlo.devRef_ne_of_ne (by decide)), Function.update_self]
theorem W3_11 (c : Dev nD) : W3 m c (Proc.devRef .tc (Pipeline.arrRef spec1 11)) = (dat1 (V2r m) c).arrAt 11 cfg1.N := by
  unfold W3
  rw [Function.update_of_ne (StableHlo.devRef_ne_of_ne (by decide)), Function.update_of_ne (StableHlo.devRef_ne_of_ne (by decide)),
    Function.update_self]
theorem W3_12 (c : Dev nD) : W3 m c (Proc.devRef .tc (Pipeline.arrRef spec1 12)) = (dat1 (V2r m) c).arrAt 12 cfg1.N := by
  unfold W3
  rw [Function.update_of_ne (StableHlo.devRef_ne_of_ne (by decide)), Function.update_self]
theorem W3_13 (c : Dev nD) : W3 m c (Proc.devRef .tc (Pipeline.arrRef spec1 13)) = (dat1 (V2r m) c).arrAt 13 cfg1.N := by
  unfold W3
  rw [Function.update_self]

/-- An input window's array leaves the main region as it entered it. -/
theorem W3_in (c : Dev nD) (w : Fin cfg1.W) (hw : (cfg1.win w).isOut = false)
    (hne : Pipeline.arrRef spec1 w ∉ ([Pipeline.arrRef spec1 10, Pipeline.arrRef spec1 11, Pipeline.arrRef spec1 12, Pipeline.arrRef spec1 13] : List (Ref sig .tc))) :
    (dat1 (V2r m) c).arrAt w cfg1.N = V3r m c (Pipeline.arrRef spec1 w) :=
  (((dat1 (V2r m) c).arrAt_in w hw _).trans (A_eq1 (V2r m) c w)).trans (W3_of m c _ hne).symm

theorem hF1 (c : Dev nD) : ∀ w : Fin cfg1.W, (dat1 (V2r m) c).arrAt w cfg1.N = V3r m c (Pipeline.arrRef spec1 w)
  | ⟨0, _⟩ => W3_in m c 0 rfl (by decide)
  | ⟨1, _⟩ => W3_in m c 1 rfl (by decide)
  | ⟨2, _⟩ => W3_in m c 2 rfl (by decide)
  | ⟨3, _⟩ => W3_in m c 3 rfl (by decide)
  | ⟨4, _⟩ => W3_in m c 4 rfl (by decide)
  | ⟨5, _⟩ => W3_in m c 5 rfl (by decide)
  | ⟨6, _⟩ => W3_in m c 6 rfl (by decide)
  | ⟨7, _⟩ => W3_in m c 7 rfl (by decide)
  | ⟨8, _⟩ => W3_in m c 8 rfl (by decide)
  | ⟨9, _⟩ => W3_in m c 9 rfl (by decide)
  | ⟨10, _⟩ => (W3_10 m c).symm
  | ⟨11, _⟩ => (W3_11 m c).symm
  | ⟨12, _⟩ => (W3_12 m c).symm
  | ⟨13, _⟩ => (W3_13 m c).symm

theorem hrest1 (c : Dev nD) : ∀ b, b ∉ Finset.univ.image (Pipeline.arrRef spec1) → V3r m c b = V2r m c b :=
  fun b hb => W3_of m c b fun h => hb (by
    simp only [List.mem_cons, List.not_mem_nil, or_false] at h
    rcases h with rfl | rfl | rfl | rfl
    · exact Finset.mem_image.mpr ⟨10, Finset.mem_univ _, rfl⟩
    · exact Finset.mem_image.mpr ⟨11, Finset.mem_univ _, rfl⟩
    · exact Finset.mem_image.mpr ⟨12, Finset.mem_univ _, rfl⟩
    · exact Finset.mem_image.mpr ⟨13, Finset.mem_univ _, rfl⟩)

/-- After the three host operations: the contents @main returns with. -/
abbrev W4 : Dev nD → Valuation τ sig (Elt F) := fun c => StableHlo.after hostOps2 (W3 m c)

/-- An argument array is written by no host operation and by no region: it ends as launched. -/
theorem W4_arg (c : Dev nD) (b : Ref sig .tc)
    (h2 : b ∉ (hostOps2_W : List (Ref sig .tc)))
    (h3 : b ∉ ([Pipeline.arrRef spec1 10, Pipeline.arrRef spec1 11, Pipeline.arrRef spec1 12, Pipeline.arrRef spec1 13] : List (Ref sig .tc)))
    (h1 : b ∉ (hostOps1_W : List (Ref sig .tc)))
    (h0 : ∀ w, Pipeline.arrRef spec0 w ≠ b ∨ (cfg0.win w).isOut = false) :
    W4 m c (Proc.devRef .tc b) = m ((c : Thread nD τ).loc b) := by
  calc W4 m c (Proc.devRef .tc b)
    _ = W3 m c (Proc.devRef .tc b) := StableHlo.after_of_writes_sub hostOps2 _ hostOps2_writes h2
    _ = W2 m c (Proc.devRef .tc b) := W3_of m c b h3
    _ = W1 m c (Proc.devRef .tc b) := StableHlo.after_of_writes_sub hostOps1 _ hostOps1_writes h1
    _ = W0 m c (Proc.devRef .tc b) := by
        by_cases hb : ∀ w, Pipeline.arrRef spec0 w ≠ b
        · exact W1_of_ne m c b hb
        · obtain ⟨w, hw'⟩ := not_forall.mp hb
          obtain rfl := not_not.mp hw'
          have hw : (cfg0.win w).isOut = false := (h0 w).resolve_left (fun h => h rfl)
          exact (W1_arr m c w).trans (((dat0 (V0r m) c).arrAt_in w hw _).trans (A_eq0 (V0r m) c w))
    _ = m ((c : Thread nD τ).loc b) := rfl

end Cert.Kernel.Hand

end
-- ==== Proof.KReg1Kernel.lean ====
import proofs.«166416_j86079734546455_2_alg».proof.Proof.KReg1
import proofs.«166416_j86079734546455_2_alg».proof.Proof.Gen.Kernel.Launch
import proofs.«166416_j86079734546455_2_alg».proof.Proof.Gen.Kernel.Skeleton
import proofs.«166416_j86079734546455_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 1: the body's triple -/

/-- The zero offsets of a rank-2 buffer, however spelt. -/
theorem hz2 : (![0, 0] : Fin 2 → Nat) = fun _ => 0 := funext fun a => by fin_cases a <;> rfl

set_option maxHeartbeats 1000000 in
/-- The kernel body on whole staging memrefs, the ten inputs' at read contents `x0 … x9` and the four outputs' at
    anything, runs to the continuation holding the inputs' as they were and each output's at `out1_W` of the inputs
    and the grid coordinate: the printed functions are their skeletons, run through both part calls; each output is
    stored once through the whole-buffer rectangle, which covers it, and each whole-buffer load reads the buffer's
    contents. -/
theorem sound_kernel1 (c : Dev nD) (E : Set ℕ) (i : grid1.Coords) (arg2 : Memref sig .tc .vmem S1x256x2048 .f32) (harg2 : arg2.IsWhole) (arg3 : Memref sig .tc .vmem S1x256x2048 .f32) (harg3 : arg3.IsWhole) (arg4 : Memref sig .tc .vmem S1x256x1 .f32) (harg4 : arg4.IsWhole) (arg5 : Memref sig .tc .vmem S1x2048x4 .f32) (harg5 : arg5.IsWhole) (arg6 : Memref sig .tc .vmem S1x256x4 .f32) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S1x1x1 .f32) (harg11 : arg11.IsWhole) (arg12 : Memref sig .tc .vmem S1x256x6 .f32) (harg12 : arg12.IsWhole) (arg13 : Memref sig .tc .vmem S1x256x4 .f32) (harg13 : arg13.IsWhole) (arg14 : Memref sig .tc .vmem S1x256x2048 .f32) (harg14 : arg14.IsWhole) (arg15 : Memref sig .tc .vmem S1x256x2048 .f32) (harg15 : arg15.IsWhole)
    (x0 : Vec F S1x256x2048 .f32) (x1 : Vec F S1x256x2048 .f32) (x2 : Vec F S1x256x1 .f32) (x3 : Vec F S1x2048x4 .f32) (x4 : Vec F S1x256x4 .f32) (x5 : Vec F S1x256x1 .f32) (x6 : Vec F S1x256x1 .f32) (x7 : Vec F S256x1 .f32) (x8 : Vec F S256x1 .f32) (x9 : Vec F S1x1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (out1_10 i x0 x1 x2 x3 x4 x5 x6 x7 x8 x9) ∗ owns (c : Thread nD τ) arg13 fullShare (out1_11 i x4 x5 x6 x8 x9) ∗ owns (c : Thread nD τ) arg14 fullShare (out1_12 i x1) ∗ owns (c : Thread nD τ) arg15 fullShare (out1_13 i x0 x2)) -∗ K ⟨⟩))
      ⊢ wp frame (wpE (defs₀ (F := F)) Variants.none c none) E (cc1__main_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %g10, -, H10⟩, ⟨%d11, %g11, -, H11⟩, ⟨%d12, %g12, -, H12⟩, ⟨%d13, %g13, -, H13⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (View.read_writes_eq_canon _ _ _ (fun y => ⟨_, List.mem_singleton_self _, View.mem_set_unit_zero hz3 inb_S1x256x6_S1x256x6_0_0_0 y⟩)).trans ?_
    unfold out1_10
    sl_unfold_run_names
    simp only [View.readAt_eq_ld, View.ld_unit_zero (S := S1x256x2048) hz3, View.ld_unit_zero (S := S1x256x1) hz3, View.ld_unit_zero (S := S1x2048x4) hz3, View.ld_unit_zero (S := S1x256x4) hz3, View.ld_unit_zero (S := S1x1x1) hz3, View.ld_unit_zero (S := S256x1) hz2]
  isplitl [H11]
  · iexists _; isplitr
    swap; · iexact H11
    ipureintro
    refine (View.read_writes_eq_canon _ _ _ (fun y => ⟨_, List.mem_singleton_self _, View.mem_set_unit_zero hz3 inb_S1x256x4_S1x256x4_0_0_0 y⟩)).trans ?_
    unfold out1_11
    sl_unfold_run_names
    simp only [View.readAt_eq_ld, View.ld_unit_zero (S := S1x256x2048) hz3, View.ld_unit_zero (S := S1x256x1) hz3, View.ld_unit_zero (S := S1x2048x4) hz3, View.ld_unit_zero (S := S1x256x4) hz3, View.ld_unit_zero (S := S1x1x1) hz3, View.ld_unit_zero (S := S256x1) hz2]
  isplitl [H12]
  · iexists _; isplitr
    swap; · iexact H12
    ipureintro
    refine (View.read_writes_eq_canon _ _ _ (fun y => ⟨_, List.mem_singleton_self _, View.mem_set_unit_zero hz3 inb_S1x256x2048_S1x256x2048_0_0_0 y⟩)).trans ?_
    unfold out1_12
    sl_unfold_run_names
    simp only [View.readAt_eq_ld, View.ld_unit_zero (S := S1x256x2048) hz3, View.ld_unit_zero (S := S1x256x1) hz3, View.ld_unit_zero (S := S1x2048x4) hz3, View.ld_unit_zero (S := S1x256x4) hz3, View.ld_unit_zero (S := S1x1x1) hz3, View.ld_unit_zero (S := S256x1) hz2]
  · iexists _; isplitr
    swap; · iexact H13
    ipureintro
    refine (View.read_writes_eq_canon _ _ _ (fun y => ⟨_, List.mem_singleton_self _, View.mem_set_unit_zero hz3 inb_S1x256x2048_S1x256x2048_0_0_0 y⟩)).trans ?_
    unfold out1_13
    sl_unfold_run_names
    simp only [View.readAt_eq_ld, View.ld_unit_zero (S := S1x256x2048) hz3, View.ld_unit_zero (S := S1x256x1) hz3, View.ld_unit_zero (S := S1x2048x4) hz3, View.ld_unit_zero (S := S1x256x4) hz3, View.ld_unit_zero (S := S1x1x1) hz3, View.ld_unit_zero (S := S256x1) hz2]

end Cert.Kernel.Hand

end
-- ==== Proof.KReg1Body.lean ====
import proofs.«166416_j86079734546455_2_alg».proof.Proof.KReg1Kernel
import proofs.«166416_j86079734546455_2_alg».proof.Proof.Gen.Kernel.Launch
import proofs.«166416_j86079734546455_2_alg».proof.Proof.Gen.Kernel.Skeleton
import proofs.«166416_j86079734546455_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 1: the inputs' buffers, and the body obligation -/

/-! ## Each input's current staging buffer holds its block at every point

Fetched there or not: where the pipeline does not fetch a window (windows 3 and 9, away from the points ≡ 0 mod 8)
its block index has not moved since the last fetch, and the body leaves the block in place. -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1 V c 0]; try rfl) t d).trans
    (by unfold Dat.fetched Dat.blockOf iblk1; rw [A_eq1 V c 0]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1 V c 1]; try rfl) t d).trans
    (by unfold Dat.fetched Dat.blockOf iblk1; rw [A_eq1 V c 1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1 V c 2]; try rfl) t d).trans
    (by unfold Dat.fetched Dat.blockOf iblk1; rw [A_eq1 V c 2]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1 V c 3]; try rfl) t d).trans
    (by unfold Dat.fetched Dat.blockOf iblk1; rw [A_eq1 V c 3]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1 V c 4]; try rfl) t d).trans
    (by unfold Dat.fetched Dat.blockOf iblk1; rw [A_eq1 V c 4]; try rfl)
theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1 V c 5]; try rfl) t d).trans
    (by unfold Dat.fetched Dat.blockOf iblk1; rw [A_eq1 V c 5]; try rfl)
theorem before1_6 (c : Dev nD) (t : Fin cfg1.N) (d) : (dat1 V c).before 6 t d = iblk1 V c 6 t :=
  ((dat1 V c).before_in_eq_fetched 6 rfl (fun _ => rfl) (fun _ _ _ => rfl)
      (fun t => by rw [after1_6]; unfold Dat.blockOf iblk1; rw [A_eq1 V c 6]; try rfl) t d).trans
    (by unfold Dat.fetched Dat.blockOf iblk1; rw [A_eq1 V c 6]; try rfl)
theorem before1_7 (c : Dev nD) (t : Fin cfg1.N) (d) : (dat1 V c).before 7 t d = iblk1 V c 7 t :=
  ((dat1 V c).before_in_eq_fetched 7 rfl (fun _ => rfl) (fun _ _ _ => rfl)
      (fun t => by rw [after1_7]; unfold Dat.blockOf iblk1; rw [A_eq1 V c 7]; try rfl) t d).trans
    (by unfold Dat.fetched Dat.blockOf iblk1; rw [A_eq1 V c 7]; try rfl)
theorem before1_8 (c : Dev nD) (t : Fin cfg1.N) (d) : (dat1 V c).before 8 t d = iblk1 V c 8 t :=
  ((dat1 V c).before_in_eq_fetched 8 rfl (fun _ => rfl) (fun _ _ _ => rfl)
      (fun t => by rw [after1_8]; unfold Dat.blockOf iblk1; rw [A_eq1 V c 8]; try rfl) t d).trans
    (by unfold Dat.fetched Dat.blockOf iblk1; rw [A_eq1 V c 8]; try rfl)
theorem before1_9 (c : Dev nD) (t : Fin cfg1.N) (d) : (dat1 V c).before 9 t d = iblk1 V c 9 t :=
  ((dat1 V c).before_in_eq_fetched 9 rfl (fun _ => rfl) (fun _ _ _ => rfl)
      (fun t => by rw [after1_9]; unfold Dat.blockOf iblk1; rw [A_eq1 V c 9]; try rfl) t d).trans
    (by unfold Dat.fetched Dat.blockOf iblk1; rw [A_eq1 V c 9]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

set_option maxHeartbeats 1000000 in
/-- The body at any point: the inputs' memrefs hold their blocks, so the body's triple applies at the point's
    coordinates; the invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel1 c Set.univ (grid1.coords t) _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KReg1Arrays.lean ====
import proofs.«166416_j86079734546455_2_alg».proof.Proof.KReg1
import proofs.«166416_j86079734546455_2_alg».proof.Proof.Gen.Kernel.Launch
import proofs.«166416_j86079734546455_2_alg».proof.Proof.Gen.Kernel.Skeleton
import proofs.«166416_j86079734546455_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 1: the windows' arrays out of, and back into, the buffers behind them

Windows 3 and 4 read ONE array. The launch hands the region each distinct buffer whole at the full share; the
proof data hold window 3's array at the left half of that share and window 4's at the right half, every other
window's at the full share. A points-to at a share is the two points-tos at its halves, at the same contents. -/

/-- The distinct buffers behind the windows' arrays, one by one: thirteen, for fourteen windows. -/
theorem arrBufs1_eq (c : Dev nD) (V' : (b : Ref sig .tc) → Buf (Elt F) ((c : Thread nD τ).loc b)) :
    (Pipeline.arrBufs spec1 c V' : sProp 𝕄)
      = iprop((((c : Thread nD τ).loc main_arg2) ↦{fullShare} V' main_arg2) ∗ (((c : Thread nD τ).loc main_arg4) ↦{fullShare} V' main_arg4) ∗ (((c : Thread nD τ).loc main_v1) ↦{fullShare} V' main_v1) ∗ (((c : Thread nD τ).loc main_arg3) ↦{fullShare} V' main_arg3) ∗ (((c : Thread nD τ).loc main_arg0) ↦{fullShare} V' main_arg0) ∗ (((c : Thread nD τ).loc main_arg1) ↦{fullShare} V' main_arg1) ∗ (((c : Thread nD τ).loc main_arg5) ↦{fullShare} V' main_arg5) ∗ (((c : Thread nD τ).loc main_arg6) ↦{fullShare} V' main_arg6) ∗ (((c : Thread nD τ).loc main_v10) ↦{fullShare} V' main_v10) ∗ (((c : Thread nD τ).loc main_v11_0) ↦{fullShare} V' main_v11_0) ∗ (((c : Thread nD τ).loc main_v11_1) ↦{fullShare} V' main_v11_1) ∗ (((c : Thread nD τ).loc main_v11_2) ↦{fullShare} V' main_v11_2) ∗ (((c : Thread nD τ).loc main_v11_3) ↦{fullShare} V' main_v11_3)) := by
  unfold Pipeline.arrBufs
  exact bigSep_eq_bigSepL_of_eq [main_arg2, main_arg4, main_v1, main_arg3, main_arg0, main_arg1, main_arg5, main_arg6, main_v10, main_v11_0, main_v11_1, main_v11_2, main_v11_3] (by decide) (by decide) _

/-- The proof data's arrays, each a whole buffer, as points-tos of the buffers behind them at the windows' shares. -/
theorem arrays1_eq (c : Dev nD) (G : (w : Fin cfg1.W) → Buf (Elt F) ((cfg1.win w).arr.view.loc (c : Thread nD τ))) :
    ((dat1 V c).arrays G : sProp 𝕄)
      = bigSep Finset.univ fun w => (((c : Thread nD τ).loc (Pipeline.arrRef spec1 w)) ↦{(dat1 V c).share w} G w : sProp 𝕄) := by
  unfold Dat.arrays
  exact bigSep_congr fun w _ => by rw [(arr_whole1 w).set_eq_univ]

/-- The same one by one, each window's buffer and share named: windows 3 and 4 on one buffer, at the two halves. -/
theorem arrays1_chain (c : Dev nD) (G : (w : Fin cfg1.W) → Buf (Elt F) ((cfg1.win w).arr.view.loc (c : Thread nD τ))) :
    ((dat1 V c).arrays G : sProp 𝕄)
      = iprop((((c : Thread nD τ).loc main_arg2) ↦{fullShare} G 0) ∗ (((c : Thread nD τ).loc main_arg4) ↦{fullShare} G 1) ∗ (((c : Thread nD τ).loc main_v1) ↦{fullShare} G 2) ∗ (((c : Thread nD τ).loc main_arg3) ↦{fullShare.left} G 3) ∗ (((c : Thread nD τ).loc main_arg3) ↦{fullShare.right} G 4) ∗ (((c : Thread nD τ).loc main_arg0) ↦{fullShare} G 5) ∗ (((c : Thread nD τ).loc main_arg1) ↦{fullShare} G 6) ∗ (((c : Thread nD τ).loc main_arg5) ↦{fullShare} G 7) ∗ (((c : Thread nD τ).loc main_arg6) ↦{fullShare} G 8) ∗ (((c : Thread nD τ).loc main_v10) ↦{fullShare} G 9) ∗ (((c : Thread nD τ).loc main_v11_0) ↦{fullShare} G 10) ∗ (((c : Thread nD τ).loc main_v11_1) ↦{fullShare} G 11) ∗ (((c : Thread nD τ).loc main_v11_2) ↦{fullShare} G 12) ∗ (((c : Thread nD τ).loc main_v11_3) ↦{fullShare} G 13)) := by
  rw [arrays1_eq, bigSep_W1]; rfl

/-- The buffers behind the arrays, whole at the full share at contents `V'`, are the proof data's arrays at any
    contents `G` that are `V'`'s behind each window — the shared array's points-to split into its two halves. -/
theorem arrays1_of_bufs_at (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    (Pipeline.arrBufs spec1 c V' : sProp 𝕄) ⊢ (dat1 V c).arrays G := by
  obtain rfl : G = fun w => V' (Pipeline.arrRef spec1 w) := funext hG
  rw [arrBufs1_eq, arrays1_chain]
  iintro ⟨H0, H1, H2, H3, H5, H6, H7, H8, H9, H10, H11, H12, H13⟩
  ihave H34 := (pointsTo_share (PosShare.mem_left_op_right fullShare)).1 $$ H3
  icases H34 with ⟨H3, H4⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- Conversely the two halves of the shared array, both at its contents under `V'`, join. -/
theorem bufs_of_arrays1_at (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    ((dat1 V c).arrays G : sProp 𝕄) ⊢ Pipeline.arrBufs spec1 c V' := by
  obtain rfl : G = fun w => V' (Pipeline.arrRef spec1 w) := funext hG
  rw [arrBufs1_eq, arrays1_chain]
  iintro ⟨H0, H1, H2, H3, H4, H5, H6, H7, H8, H9, H10, H11, H12, H13⟩
  ihave H34 := (pointsTo_share (PosShare.mem_left_op_right fullShare)).2 $$ [H3 H4]
  · isplitl [H3]; · iexact H3
    iexact H4
  isplitl [H0]; · iexact H0
  isplitl [H1]; · iexact H1
  isplitl [H2]; · iexact H2
  isplitl [H34]; · iexact H34
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- At entry: the buffers behind the arrays at the entry contents are the proof data's arrays there. -/
theorem arrays1_of_bufs (c : Dev nD) :
    (Pipeline.arrBufs spec1 c (V c) : sProp 𝕄) ⊢ (dat1 V c).arrays ((dat1 V c).arrAt · 0) :=
  arrays1_of_bufs_at V c (V c) _ fun w => A_eq1 V c w

/-- At the exit: the proof data's arrays at what the pipeline leaves, which is what `V'` holds behind each
    (`hF`), are the buffers behind them whole at the full share at `V'`. -/
theorem bufs_of_arrays1 (c : Dev nD) (V' : (b : Ref sig .tc) → Buf (Elt F) ((c : Thread nD τ).loc b))
    (hF : ∀ w, (dat1 V c).arrAt w cfg1.N = V' (Pipeline.arrRef spec1 w)) :
    ((dat1 V c).arrays ((dat1 V c).arrAt · cfg1.N) : sProp 𝕄) ⊢ Pipeline.arrBufs spec1 c V' :=
  bufs_of_arrays1_at V c V' _ hF

end Cert.Kernel.Hand

end
-- ==== Proof.KRun.lean ====
/-
  The kernel program's run, part two: @main as four segments, and the launch.

  Each region is entered from a thread state that holds every unscoped buffer at the boundary's contents
  beside the generator register and the core's (empty) dues; its arrays are split out of the unscoped
  buffers at the entry and put back at the exit. The main region reads one array (the SIR array) through
  two input windows, so that array's points-to is divided between the two windows at the entry and joined
  at the exit. The conclusion: every weakly fair execution of @main terminates and every unscoped buffer
  ends at the fold's last contents.
-/
import proofs.«166416_j86079734546455_2_alg».proof.Proof.KRunVals
import proofs.«166416_j86079734546455_2_alg».proof.Proof.KReg1Body
import proofs.«166416_j86079734546455_2_alg».proof.Proof.KReg1Arrays
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline has a prefetched table. -/
abbrev adm : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0r m) c
  | ⟨1, _⟩ => fun c => dat1 (V2r m) c

abbrev 𝒱₀ : Variants := Variants.none
abbrev L : GSem nD τ sig → Finset Unit := fun _ => ∅
abbrev lv : GSem nD τ sig → Unit → ℕ := fun _ _ => 0

/-- What rides beside the buffers: the generator register at some state and the core's dues, none. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m c) ∗ ∃ r, prngReg c r)

set_option backward.isDefEq.respectTransparency.types false in
/-- The column-sum region as a segment. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0r m c) (V1r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The main region as a segment: the SIR array is divided between its two windows at the entry and
    joined at the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2r m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2r m c)
  hentry c := by
    rw [Pipeline.ownSems0_none]
    have hsplit : (unscopedBufs (Ix := Unit) (Name := ℕ) (U := UR sig nD τ) (Lvl := ℕ) c (V2r m c) : sProp 𝕄)
        ⊢ iprop((pdats m 1 c).arrays ((pdats m 1 c).arrAt · 0) ∗ Pipeline.unscopedRest spec1 c (V2r m c)) := by
      rw [Pipeline.unscopedBufs_split₀ cfgs 1 winFacts₀1.arr_unscoped c (V2r m c)]
      exact sep_mono (arrays1_of_bufs (V2r m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (V2r m c))
        ⊢ (unscopedBufs c (V3r m c) : sProp 𝕄) := by
      rw [Pipeline.unscopedBufs_split₀ cfgs 1 winFacts₀1.arr_unscoped c (V3r m c)]
      refine sep_mono (bufs_of_arrays1 (V2r m) c (V3r m c) (hF1 m c)) (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's four segments in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]

theorem main_run (c : Dev nD) : main (F := F) c = Pipeline.Seg.run (segs m) := (main_chain c).trans (by chain_rfl)

set_option backward.isDefEq.respectTransparency.types false in
/-- THE RUN: from any memory with zero counters every weakly fair execution of @main on the TensorCores
    terminates, nothing faulting, and in every final state each unscoped buffer holds the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := by
      refine ⟨fun _ => .rfl, fun _ => .rfl, fun _ => .rfl, fun _ => .rfl, fun c => ?_⟩
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      · iexact HO)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME, at any float instance: the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W4_arg m c main_arg0 (by decide) (by decide) (by decide) (by decide)),
     (h c _ (mem_uc main_arg1 (by decide))).trans (W4_arg m c main_arg1 (by decide) (by decide) (by decide) (by decide)),
     (h c _ (mem_uc main_arg2 (by decide))).trans (W4_arg m c main_arg2 (by decide) (by decide) (by decide) (by decide)),
     (h c _ (mem_uc main_arg3 (by decide))).trans (W4_arg m c main_arg3 (by decide) (by decide) (by decide) (by decide)),
     (h c _ (mem_uc main_arg4 (by decide))).trans (W4_arg m c main_arg4 (by decide) (by decide) (by decide) (by decide)),
     (h c _ (mem_uc main_arg5 (by decide))).trans (W4_arg m c main_arg5 (by decide) (by decide) (by decide) (by decide)),
     (h c _ (mem_uc main_arg6 (by decide))).trans (W4_arg m c main_arg6 (by decide) (by decide) (by decide) (by decide))⟩)
    (run_all m ρ)

end Cert.Kernel.Hand

end
-- ==== Proof.Reg0Run.lean ====
/-
  The first region (the column-sum pass), part one: the kernel body run on any staging memrefs.

  The grid is 4 batches by 4 row tiles of 512 rows. The body, at the first row tile of a batch, resets the
  1 x 2048 accumulator block to zero; at every tile it adds to the block the tile's column sums with the
  diagonal entries masked out. So the conditional on the second grid coordinate has two cases: the reset
  case (the tile index is 0) and the carry case (the block holds what the tile before left).
  Each case's run is a triple found by symbolic execution of the body's skeleton; the pieces the output
  buffer ends with are the witness.
-/
import proofs.«166416_j86079734546455_2_alg».proof.Proof.Gen.KernelIdeal.Launch
import proofs.«166416_j86079734546455_2_alg».proof.Proof.Gen.KernelIdeal.Skeleton
import proofs.«166416_j86079734546455_2_alg».proof.Proof.Gen.KernelIdeal.Points
import Idealize.ShloMosaic.Lib.Pipeline.FrameBody
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one conditional: the row-tile coordinate is zero. -/
abbrev cond0_0 (i : grid0.Coords) : Prop :=
  (Scalar.cmpi .ne (Scalar.extui (Scalar.cmpi .eq (BitVec.ofNat 32 (i 1).val) 0#32)) 0#32) = 1#1

/-- Over the 16 grid points, row-major in (batch, tile), the tile coordinate is zero exactly at the points 0, 4, 8, 12. -/
theorem hcond0_0 : ∀ t : Fin cfg0.N, cond0_0 (grid0.coords t) ↔ t.val % 4 = 0 :=
  (by decide +kernel : ∀ t : Fin grid0.N, cond0_0 (grid0.coords t) ↔ t.val % 4 = 0)

/-- One staging buffer of the accumulator window, through which its contents are stated. -/
abbrev VO0_1 : View sig .tc .vmem S1x1x2048 .f32 := (Memref.whole cc0_stg1_0 : Memref sig .tc .vmem S1x1x2048 .f32).view

/-- The current staging memrefs at a point, as the pipeline passes them to the body. -/
abbrev ms0_0 (t : Fin cfg0.N) : Memref sig .tc .vmem S1x512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048 .f32 := win0_1.stage (cfg0.slots t 1)
abbrev hs0_1 (t : Fin cfg0.N) : (ms0_1 t).IsWhole := hstage0_1 ((cfg0.slots t 1).cast nbuf0_1)

set_option maxHeartbeats 1000000 in
/-- THE RESET CASE. With the tile coordinate zero the body stores zeros over the accumulator block, then
    stores the block plus the tile's masked column sums: the pieces the output buffer ends with, and the
    triple that says so. -/
noncomputable def kernelRun0_A (c : Dev nD) (i : grid0.Coords) (arg2 : Memref sig .tc .vmem S1x512x2048 .f32) (harg2 : arg2.IsWhole)
    (arg3 : Memref sig .tc .vmem S1x1x2048 .f32) (harg3 : arg3.IsWhole) (hc0 : cond0_0 i)
    (x0 : Vec F S1x512x2048 .f32) :
    { L1 : List (View.Piece (Elt F) S1x1x2048 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__colsum_kernel i arg2 harg2 arg3 harg3) K } := by
  refine ⟨?_, fun E K => ?run⟩
  case run =>
    simp only [cc0__colsum_kernel_eq_skeleton]; unfold cc0__colsum_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

set_option maxHeartbeats 1000000 in
/-- THE CARRY CASE. With the tile coordinate nonzero the body reads the accumulator block as the tile
    before left it (`xo1`) and stores it back plus this tile's masked column sums. -/
noncomputable def kernelRun0_B (c : Dev nD) (i : grid0.Coords) (arg2 : Memref sig .tc .vmem S1x512x2048 .f32) (harg2 : arg2.IsWhole)
    (arg3 : Memref sig .tc .vmem S1x1x2048 .f32) (harg3 : arg3.IsWhole) (hc0 : ¬cond0_0 i)
    (x0 : Vec F S1x512x2048 .f32) (xo1 : Vec F S1x1x2048 .f32) :
    { L1 : List (View.Piece (Elt F) S1x1x2048 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__colsum_kernel i arg2 harg2 arg3 harg3) K } := by
  refine ⟨?_, fun E K => ?run⟩
  case run =>
    simp only [cc0__colsum_kernel_eq_skeleton]; unfold cc0__colsum_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

end Cert.KernelIdeal.Hand

end
-- ==== Proof.Reg0.lean ====
/-
  The first region (the column-sum pass), part two: what the accumulator block holds after each grid point,
  the region's proof data at any entry contents `V`, and the body obligation.

  After point t = 4 b + k the block holds the sum over the row tiles 0..k of batch b of the tiles' masked
  column sums: the reset case starts it from zeros, the carry case adds to what the point before left, and
  the block is written back to row b of the result only after the last tile (points 3, 7, 11, 15).
-/
import proofs.«166416_j86079734546455_2_alg».proof.Proof.Reg0Run
import Idealize.ShloMosaic.Lib.Pipeline.RegionsLoop
import Idealize.ShloMosaic.Lib.Pipeline.FrameSuffix
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The reset case's two stores each cover the block. -/
theorem cover0_A_1 (c : Dev nD) (i : grid0.Coords) (arg2 : Memref sig .tc .vmem S1x512x2048 .f32) (harg2 : arg2.IsWhole)
    (arg3 : Memref sig .tc .vmem S1x1x2048 .f32) (harg3 : arg3.IsWhole) (hc0 : cond0_0 i)
    (x0 : Vec F S1x512x2048 .f32) (y : S1x1x2048.Idx) :
    ∃ pc ∈ (kernelRun0_A c i arg2 harg2 arg3 harg3 hc0 x0).1, y ∈ pc.1.set :=
  View.cover_of_tiledL (kernelRun0_A c i arg2 harg2 arg3 harg3 hc0 x0).1 S1x1x2048.size (by sl_kernel_rfl) y

/-- What the reset case leaves in the accumulator block. -/
def out0_A_1 (c : Dev nD) (i : grid0.Coords) (arg2 : Memref sig .tc .vmem S1x512x2048 .f32) (harg2 : arg2.IsWhole)
    (arg3 : Memref sig .tc .vmem S1x1x2048 .f32) (harg3 : arg3.IsWhole) (hc0 : cond0_0 i)
    (x0 : Vec F S1x512x2048 .f32) : Vec F S1x1x2048 .f32 :=
  VO0_1.read (Elt F) (VO0_1.writes (Elt F) VO0_1.junk (kernelRun0_A c i arg2 harg2 arg3 harg3 hc0 x0).1)

/-- The carry case's store covers the block. -/
theorem cover0_B_1 (c : Dev nD) (i : grid0.Coords) (arg2 : Memref sig .tc .vmem S1x512x2048 .f32) (harg2 : arg2.IsWhole)
    (arg3 : Memref sig .tc .vmem S1x1x2048 .f32) (harg3 : arg3.IsWhole) (hc0 : ¬cond0_0 i)
    (x0 : Vec F S1x512x2048 .f32) (xo1 : Vec F S1x1x2048 .f32) (y : S1x1x2048.Idx) :
    ∃ pc ∈ (kernelRun0_B c i arg2 harg2 arg3 harg3 hc0 x0 xo1).1, y ∈ pc.1.set :=
  View.cover_of_tiledL (kernelRun0_B c i arg2 harg2 arg3 harg3 hc0 x0 xo1).1 S1x1x2048.size (by sl_kernel_rfl) y

/-- What the carry case leaves in the accumulator block, from what the point before left (`xo1`). -/
def out0_B_1 (c : Dev nD) (i : grid0.Coords) (arg2 : Memref sig .tc .vmem S1x512x2048 .f32) (harg2 : arg2.IsWhole)
    (arg3 : Memref sig .tc .vmem S1x1x2048 .f32) (harg3 : arg3.IsWhole) (hc0 : ¬cond0_0 i)
    (x0 : Vec F S1x512x2048 .f32) (xo1 : Vec F S1x1x2048 .f32) : Vec F S1x1x2048 .f32 :=
  VO0_1.read (Elt F) (VO0_1.writes (Elt F) VO0_1.junk (kernelRun0_B c i arg2 harg2 arg3 harg3 hc0 x0 xo1).1)

/-- THE ACCUMULATION: the accumulator block after the body at position `n` of the grid. -/
def outsAt0 (c : Dev nD) : (n : ℕ) → n < cfg0.N → Vec F S1x1x2048 .f32
  | 0, hn => out0_A_1 c (grid0.coords ⟨0, hn⟩) (ms0_0 ⟨0, hn⟩) (hs0_0 ⟨0, hn⟩) (ms0_1 ⟨0, hn⟩) (hs0_1 ⟨0, hn⟩) ((hcond0_0 ⟨0, hn⟩).mpr (Nat.zero_mod _)) (iblk0 V c 0 ⟨0, hn⟩)
  | n + 1, hn =>
    if h0 : (n + 1) % 4 = 0 then
      out0_A_1 c (grid0.coords ⟨n + 1, hn⟩) (ms0_0 ⟨n + 1, hn⟩) (hs0_0 ⟨n + 1, hn⟩) (ms0_1 ⟨n + 1, hn⟩) (hs0_1 ⟨n + 1, hn⟩) ((hcond0_0 ⟨n + 1, hn⟩).mpr h0) (iblk0 V c 0 ⟨n + 1, hn⟩)
    else
      out0_B_1 c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h)) (iblk0 V c 0 ⟨n + 1, hn⟩) (outsAt0 c n (Nat.lt_of_succ_lt hn))

theorem outsAt0_A (c : Dev nD) (t : Fin cfg0.N) (h0 : t.val % 4 = 0) :
    outsAt0 V c t.val t.isLt = out0_A_1 c (grid0.coords t) (ms0_0 t) (hs0_0 t) (ms0_1 t) (hs0_1 t) ((hcond0_0 t).mpr h0) (iblk0 V c 0 t) := by
  obtain ⟨n, hn⟩ := t
  cases n with
  | zero => exact rfl
  | succ n => exact (dif_pos h0).trans rfl

theorem outsAt0_B (c : Dev nD) (t : Fin cfg0.N) (h0 : ¬t.val % 4 = 0) :
    outsAt0 V c t.val t.isLt = out0_B_1 c (grid0.coords t) (ms0_0 t) (hs0_0 t) (ms0_1 t) (hs0_1 t) (fun h => h0 ((hcond0_0 t).mp h)) (iblk0 V c 0 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region's proof data on core `c`: the arrays as the region finds them; after the body the input
    window's buffer at its block and the accumulator's at `outsAt0`; the scoped rest and the generator
    register ride through untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d

/-- In the carry case the accumulator's buffer holds what the body left at the point before: the block is
    written back only after a batch's last tile, which the point before a carry point never is. -/
theorem before0_1_B (c : Dev nD) (t : Fin cfg0.N) (h0 : ¬t.val % 4 = 0) (d) :
    (dat0 V c).before 1 t d = (outsAt0 V c (t.val - 1) (Nat.lt_of_le_of_lt (Nat.sub_le _ _) t.isLt)) := by
  have hN : t.val < 16 := lt_of_lt_of_eq t.isLt (show cfg0.N = 16 from N_0)
  rw [Dat.before_out_kept _ 1 rfl t (by omega) (Bool.eq_false_iff.mpr fun h => by have := (flush0_1 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

set_option maxHeartbeats 800000 in
/-- The body at any point: the closed form of the condition says which case the point is in. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  have hN : t.val < 16 := lt_of_lt_of_eq t.isLt (show cfg0.N = 16 from N_0)
  by_cases h0 : t.val % 4 = 0
  · rw [outsAt0_A V c t h0]
    unfold out0_A_1
    iintro ⟨HΦ, Ho, ⟨%d0, H0⟩, ⟨%d1, H1⟩⟩
    iapply ((kernelRun0_A c (grid0.coords t) _ _ _ _ ((hcond0_0 t).mpr h0) (iblk0 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _)
  · rw [outsAt0_B V c t h0]
    simp only [before0_1_B V c t h0]
    unfold out0_B_1
    iintro ⟨HΦ, Ho, ⟨%d0, H0⟩, ⟨%d1, H1⟩⟩
    iapply ((kernelRun0_B c (grid0.coords t) _ _ _ _ (fun h => h0 ((hcond0_0 t).mp h)) (iblk0 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B_1 c _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.RunVals0.lean ====
/-
  The idealized kernel program's run, part one: what every unscoped buffer holds at each boundary of @main, up to the main region's entry.

  @main is the column-sum region, a stretch of twelve host operations (the transposed column sums, their
  total, the populations' total, the mobility rate), the main region, and a stretch of three host operations
  (the two matrices stacked along a new last axis). The contents fold from the launch memory: a region
  leaves its output arrays at what its write-backs leave and every other buffer as it found it; a host
  stretch applies its operations.
-/
import proofs.«166416_j86079734546455_2_alg».proof.Proof.Reg0
import proofs.«166416_j86079734546455_2_alg».proof.Proof.Gen.KernelIdeal.Regions
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch: the column-sum region is entered from them. -/
abbrev W0 : Dev nD → Valuation τ sig (Elt F) := fun c b => m ((c : Dev nD), b)
abbrev V0r : (c : Dev nD) → (b : Ref sig .tc) → Buf (Elt F) ((c : Thread nD τ).loc b) := fun c b => W0 m c b

/-- After the column-sum region: its result array at what the write-backs leave, the rest as entered. -/
def W1 (c : Dev nD) : Valuation τ sig (Elt F) :=
  Pipeline.withArrays spec0 c (W0 m c) fun w => (dat0 (V0r m) c).arrAt w cfg0.N
theorem W1_arr (c : Dev nD) (w : Fin cfg0.W) :
    W1 m c (Proc.devRef .tc (Pipeline.arrRef spec0 w)) = (dat0 (V0r m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1r : (c : Dev nD) → (b : Ref sig .tc) → Buf (Elt F) ((c : Thread nD τ).loc b) := fun c b => W1 m c b
theorem hF0 (c : Dev nD) (w : Fin cfg0.W) : (dat0 (V0r m) c).arrAt w cfg0.N = V1r m c (Pipeline.arrRef spec0 w) :=
  (W1_arr m c w).symm
theorem hrest0 (c : Dev nD) : ∀ b, b ∉ Finset.univ.image (Pipeline.arrRef spec0) → V1r m c b = V0r m c b :=
  fun b hb => W1_of_ne m c b fun w e => hb (Finset.mem_image.mpr ⟨w, Finset.mem_univ _, e⟩)

/-- After the twelve host operations: the main region is entered from here. -/
abbrev W2 : Dev nD → Valuation τ sig (Elt F) := fun c => StableHlo.after hostOps1 (W1 m c)
abbrev V2r : (c : Dev nD) → (b : Ref sig .tc) → Buf (Elt F) ((c : Thread nD τ).loc b) := fun c b => W2 m c b

end Cert.KernelIdeal.Hand

end
-- ==== Proof.Reg1.lean ====
import proofs.«166416_j86079734546455_2_alg».proof.Proof.Gen.KernelIdeal.Launch
import proofs.«166416_j86079734546455_2_alg».proof.Proof.Gen.KernelIdeal.Skeleton
import proofs.«166416_j86079734546455_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 1 of @main: custom_call 1, `cc1__main_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- The zero offsets of a rank-3 buffer, however spelt. -/
theorem hz3 : (![0, 0, 0] : Fin 3 → Nat) = fun _ => 0 := funext fun a => by fin_cases a <;> rfl

abbrev r1_10 : Rect S1x256x6 := Rect.unit (s := S1x256x6) ![0, 0, 0] S1x256x6.size inb_S1x256x6_S1x256x6_0_0_0
abbrev r1_11 : Rect S1x256x4 := Rect.unit (s := S1x256x4) ![0, 0, 0] S1x256x4.size inb_S1x256x4_S1x256x4_0_0_0
abbrev r1_12 : Rect S1x256x2048 := Rect.unit (s := S1x256x2048) ![0, 0, 0] S1x256x2048.size inb_S1x256x2048_S1x256x2048_0_0_0

/-! ## What the body leaves in each output window's buffer

Each output buffer is stored once, whole; the stored value is the skeleton's payload of the values the two parts
return, which are payloads of the ten input buffers' contents `x0 … x9` (windows 0 … 9) and of the grid
coordinate `i`. -/

/-- Window 10's staging buffer after the body (reads every input but `x1`). -/
def out1_10 (i : grid1.Coords) (x0 : Vec F S1x256x2048 .f32) (x1 : Vec F S1x256x2048 .f32) (x2 : Vec F S1x256x1 .f32) (x3 : Vec F S1x2048x4 .f32) (x4 : Vec F S1x256x4 .f32) (x5 : Vec F S1x256x1 .f32) (x6 : Vec F S1x256x1 .f32) (x7 : Vec F S256x1 .f32) (x8 : Vec F S256x1 .f32) (x9 : Vec F S1x1x1 .f32) : Vec F S1x256x6 .f32 :=
  View.canon [⟨r1_10, k1_pay1 (k1_pay8 x9) x8 (k1_pay20 (k1_pay13 x4) (k1_pay14 x4) (k1_pay15 x4) x5 x6) (k1_pay21 (k1_pay8 x9) (k1_pay12 i x0 x2 x3 x9) (k1_pay13 x4) (k1_pay15 x4) x8) (k1_pay22 (k1_pay8 x9) (k1_pay11 i x0 x2 x3 x9) (k1_pay13 x4) (k1_pay14 x4) (k1_pay15 x4) x5 x6 x8) (k1_pay23 (k1_pay8 x9) (k1_pay10 i x0 x2 x3 x9) (k1_pay13 x4) (k1_pay14 x4) (k1_pay15 x4) x5 x6 x7 x8) (k1_pay24 (k1_pay13 x4) (k1_pay14 x4) (k1_pay15 x4) x5 x6) (k1_pay25 x5 x6)⟩]

/-- Window 11's staging buffer after the body (reads `x4, x5, x6, x8, x9`; the coordinate is not read). -/
def out1_11 (i : grid1.Coords) (x4 : Vec F S1x256x4 .f32) (x5 : Vec F S1x256x1 .f32) (x6 : Vec F S1x256x1 .f32) (x8 : Vec F S256x1 .f32) (x9 : Vec F S1x1x1 .f32) : Vec F S1x256x4 .f32 :=
  View.canon [⟨r1_11, k1_pay2 (k1_pay8 x9) (k1_pay15 x4) (k1_pay17 (k1_pay13 x4) (k1_pay14 x4) (k1_pay15 x4)) (k1_pay18 x5) (k1_pay19 x6) x8⟩]

/-- Window 12's staging buffer after the body (reads `x1`). -/
def out1_12 (i : grid1.Coords) (x1 : Vec F S1x256x2048 .f32) : Vec F S1x256x2048 .f32 :=
  View.canon [⟨r1_12, k1_pay3 (k1_pay6 i x1)⟩]

/-- Window 13's staging buffer after the body (reads `x0, x2`). -/
def out1_13 (i : grid1.Coords) (x0 : Vec F S1x256x2048 .f32) (x2 : Vec F S1x256x1 .f32) : Vec F S1x256x2048 .f32 :=
  View.canon [⟨r1_12, k1_pay4 (k1_pay7 i x0 x2)⟩]

/-! ## The pipeline's proof data -/

/-- The proof data of pipeline 1 on core `c`: the arrays as the region finds them (`V`); after the body at point
    `t` each input's buffer at its block and each output's at `out1_W` of the input blocks and the point's
    coordinates; the invariant the scoped rest and the generator register, untouched; nothing owed. Windows 3 and 4
    read ONE array: each holds one half of its full share; every other window holds its array's full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
    | ⟨11, _⟩ => out1_11 (grid1.coords t) (iblk1 V c 4 t) (iblk1 V c 5 t) (iblk1 V c 6 t) (iblk1 V c 8 t) (iblk1 V c 9 t)
    | ⟨12, _⟩ => out1_12 (grid1.coords t) (iblk1 V c 1 t)
    | ⟨13, _⟩ => out1_13 (grid1.coords t) (iblk1 V c 0 t) (iblk1 V c 2 t)
  Φ _ := Pipeline.ΦA spec1 c
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]
theorem after1_11 (c : Dev nD) (t : Fin cfg1.N) : (dat1 V c).after 11 t = out1_11 (grid1.coords t) (iblk1 V c 4 t) (iblk1 V c 5 t) (iblk1 V c 6 t) (iblk1 V c 8 t) (iblk1 V c 9 t) := by dsimp only [dat1]
theorem after1_12 (c : Dev nD) (t : Fin cfg1.N) : (dat1 V c).after 12 t = out1_12 (grid1.coords t) (iblk1 V c 1 t) := by dsimp only [dat1]
theorem after1_13 (c : Dev nD) (t : Fin cfg1.N) : (dat1 V c).after 13 t = out1_13 (grid1.coords t) (iblk1 V c 0 t) (iblk1 V c 2 t) := by dsimp only [dat1]

end Cert.KernelIdeal.Hand

end
-- ==== Proof.RunVals.lean ====
/-
  The idealized kernel program's run, part one continued: what every unscoped buffer holds from the main region's exit to the return.

  @main is the column-sum region, a stretch of twelve host operations (the transposed column sums, their
  total, the populations' total, the mobility rate), the main region, and a stretch of three host operations
  (the two matrices stacked along a new last axis). The contents fold from the launch memory: a region
  leaves its output arrays at what its write-backs leave and every other buffer as it found it; a host
  stretch applies its operations.
-/
import proofs.«166416_j86079734546455_2_alg».proof.Proof.RunVals0
import proofs.«166416_j86079734546455_2_alg».proof.Proof.Reg1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- After the main region: its four result arrays at what the write-backs leave, the rest as entered. -/
def W3 (c : Dev nD) : Valuation τ sig (Elt F) :=
  Function.update (Function.update (Function.update (Function.update (W2 m c)
    (Proc.devRef .tc (Pipeline.arrRef spec1 10)) ((dat1 (V2r m) c).arrAt 10 cfg1.N))
    (Proc.devRef .tc (Pipeline.arrRef spec1 11)) ((dat1 (V2r m) c).arrAt 11 cfg1.N))
    (Proc.devRef .tc (Pipeline.arrRef spec1 12)) ((dat1 (V2r m) c).arrAt 12 cfg1.N))
    (Proc.devRef .tc (Pipeline.arrRef spec1 13)) ((dat1 (V2r m) c).arrAt 13 cfg1.N)
abbrev V3r : (c : Dev nD) → (b : Ref sig .tc) → Buf (Elt F) ((c : Thread nD τ).loc b) := fun c b => W3 m c b

theorem W3_of (c : Dev nD) (b : Ref sig .tc)
    (h : b ∉ ([Pipeline.arrRef spec1 10, Pipeline.arrRef spec1 11, Pipeline.arrRef spec1 12, Pipeline.arrRef spec1 13] : List (Ref sig .tc))) :
    W3 m c (Proc.devRef .tc b) = W2 m c (Proc.devRef .tc b) := by
  unfold W3
  rw [Function.update_of_ne (StableHlo.devRef_ne_of_ne (List.ne_of_not_mem_cons (List.not_mem_of_not_mem_cons (List.not_mem_of_not_mem_cons (List.not_mem_of_not_mem_cons h))))),
    Function.update_of_ne (StableHlo.devRef_ne_of_ne (List.ne_of_not_mem_cons (List.not_mem_of_not_mem_cons (List.not_mem_of_not_mem_cons h)))),
    Function.update_of_ne (StableHlo.devRef_ne_of_ne (List.ne_of_not_mem_cons (List.not_mem_of_not_mem_cons h))),
    Function.update_of_ne (StableHlo.devRef_ne_of_ne (List.ne_of_not_mem_cons h))]

theorem W3_10 (c : Dev nD) : W3 m c (Proc.devRef .tc (Pipeline.arrRef spec1 10)) = (dat1 (V2r m) c).arrAt 10 cfg1.N := by
  unfold W3
  rw [Function.update_of_ne (StableHlo.devRef_ne_of_ne (by decide)), Function.update_of_ne (StableHlo.devRef_ne_of_ne (by decide)),
    Function.update_of_ne (StableHlo.devRef_ne_of_ne (by decide)), Function.update_self]
theorem W3_11 (c : Dev nD) : W3 m c (Proc.devRef .tc (Pipeline.arrRef spec1 11)) = (dat1 (V2r m) c).arrAt 11 cfg1.N := by
  unfold W3
  rw [Function.update_of_ne (StableHlo.devRef_ne_of_ne (by decide)), Function.update_of_ne (StableHlo.devRef_ne_of_ne (by decide)),
    Function.update_self]
theorem W3_12 (c : Dev nD) : W3 m c (Proc.devRef .tc (Pipeline.arrRef spec1 12)) = (dat1 (V2r m) c).arrAt 12 cfg1.N := by
  unfold W3
  rw [Function.update_of_ne (StableHlo.devRef_ne_of_ne (by decide)), Function.update_self]
theorem W3_13 (c : Dev nD) : W3 m c (Proc.devRef .tc (Pipeline.arrRef spec1 13)) = (dat1 (V2r m) c).arrAt 13 cfg1.N := by
  unfold W3
  rw [Function.update_self]

/-- An input window's array leaves the main region as it entered it. -/
theorem W3_in (c : Dev nD) (w : Fin cfg1.W) (hw : (cfg1.win w).isOut = false)
    (hne : Pipeline.arrRef spec1 w ∉ ([Pipeline.arrRef spec1 10, Pipeline.arrRef spec1 11, Pipeline.arrRef spec1 12, Pipeline.arrRef spec1 13] : List (Ref sig .tc))) :
    (dat1 (V2r m) c).arrAt w cfg1.N = V3r m c (Pipeline.arrRef spec1 w) :=
  (((dat1 (V2r m) c).arrAt_in w hw _).trans (A_eq1 (V2r m) c w)).trans (W3_of m c _ hne).symm

theorem hF1 (c : Dev nD) : ∀ w : Fin cfg1.W, (dat1 (V2r m) c).arrAt w cfg1.N = V3r m c (Pipeline.arrRef spec1 w)
  | ⟨0, _⟩ => W3_in m c 0 rfl (by decide)
  | ⟨1, _⟩ => W3_in m c 1 rfl (by decide)
  | ⟨2, _⟩ => W3_in m c 2 rfl (by decide)
  | ⟨3, _⟩ => W3_in m c 3 rfl (by decide)
  | ⟨4, _⟩ => W3_in m c 4 rfl (by decide)
  | ⟨5, _⟩ => W3_in m c 5 rfl (by decide)
  | ⟨6, _⟩ => W3_in m c 6 rfl (by decide)
  | ⟨7, _⟩ => W3_in m c 7 rfl (by decide)
  | ⟨8, _⟩ => W3_in m c 8 rfl (by decide)
  | ⟨9, _⟩ => W3_in m c 9 rfl (by decide)
  | ⟨10, _⟩ => (W3_10 m c).symm
  | ⟨11, _⟩ => (W3_11 m c).symm
  | ⟨12, _⟩ => (W3_12 m c).symm
  | ⟨13, _⟩ => (W3_13 m c).symm

theorem hrest1 (c : Dev nD) : ∀ b, b ∉ Finset.univ.image (Pipeline.arrRef spec1) → V3r m c b = V2r m c b :=
  fun b hb => W3_of m c b fun h => hb (by
    simp only [List.mem_cons, List.not_mem_nil, or_false] at h
    rcases h with rfl | rfl | rfl | rfl
    · exact Finset.mem_image.mpr ⟨10, Finset.mem_univ _, rfl⟩
    · exact Finset.mem_image.mpr ⟨11, Finset.mem_univ _, rfl⟩
    · exact Finset.mem_image.mpr ⟨12, Finset.mem_univ _, rfl⟩
    · exact Finset.mem_image.mpr ⟨13, Finset.mem_univ _, rfl⟩)

/-- After the three host operations: the contents @main returns with. -/
abbrev W4 : Dev nD → Valuation τ sig (Elt F) := fun c => StableHlo.after hostOps2 (W3 m c)

/-- An argument array is written by no host operation and by no region: it ends as launched. -/
theorem W4_arg (c : Dev nD) (b : Ref sig .tc)
    (h2 : b ∉ (hostOps2_W : List (Ref sig .tc)))
    (h3 : b ∉ ([Pipeline.arrRef spec1 10, Pipeline.arrRef spec1 11, Pipeline.arrRef spec1 12, Pipeline.arrRef spec1 13] : List (Ref sig .tc)))
    (h1 : b ∉ (hostOps1_W : List (Ref sig .tc)))
    (h0 : ∀ w, Pipeline.arrRef spec0 w ≠ b ∨ (cfg0.win w).isOut = false) :
    W4 m c (Proc.devRef .tc b) = m ((c : Thread nD τ).loc b) := by
  calc W4 m c (Proc.devRef .tc b)
    _ = W3 m c (Proc.devRef .tc b) := StableHlo.after_of_writes_sub hostOps2 _ hostOps2_writes h2
    _ = W2 m c (Proc.devRef .tc b) := W3_of m c b h3
    _ = W1 m c (Proc.devRef .tc b) := StableHlo.after_of_writes_sub hostOps1 _ hostOps1_writes h1
    _ = W0 m c (Proc.devRef .tc b) := by
        by_cases hb : ∀ w, Pipeline.arrRef spec0 w ≠ b
        · exact W1_of_ne m c b hb
        · obtain ⟨w, hw'⟩ := not_forall.mp hb
          obtain rfl := not_not.mp hw'
          have hw : (cfg0.win w).isOut = false := (h0 w).resolve_left (fun h => h rfl)
          exact (W1_arr m c w).trans (((dat0 (V0r m) c).arrAt_in w hw _).trans (A_eq0 (V0r m) c w))
    _ = m ((c : Thread nD τ).loc b) := rfl

end Cert.KernelIdeal.Hand

end
-- ==== Proof.Reg1Kernel.lean ====
import proofs.«166416_j86079734546455_2_alg».proof.Proof.Reg1
import proofs.«166416_j86079734546455_2_alg».proof.Proof.Gen.KernelIdeal.Launch
import proofs.«166416_j86079734546455_2_alg».proof.Proof.Gen.KernelIdeal.Skeleton
import proofs.«166416_j86079734546455_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 1: the body's triple -/

/-- The zero offsets of a rank-2 buffer, however spelt. -/
theorem hz2 : (![0, 0] : Fin 2 → Nat) = fun _ => 0 := funext fun a => by fin_cases a <;> rfl

set_option maxHeartbeats 1000000 in
/-- The kernel body on whole staging memrefs, the ten inputs' at read contents `x0 … x9` and the four outputs' at
    anything, runs to the continuation holding the inputs' as they were and each output's at `out1_W` of the inputs
    and the grid coordinate: the printed functions are their skeletons, run through both part calls; each output is
    stored once through the whole-buffer rectangle, which covers it, and each whole-buffer load reads the buffer's
    contents. -/
theorem sound_kernel1 (c : Dev nD) (E : Set ℕ) (i : grid1.Coords) (arg2 : Memref sig .tc .vmem S1x256x2048 .f32) (harg2 : arg2.IsWhole) (arg3 : Memref sig .tc .vmem S1x256x2048 .f32) (harg3 : arg3.IsWhole) (arg4 : Memref sig .tc .vmem S1x256x1 .f32) (harg4 : arg4.IsWhole) (arg5 : Memref sig .tc .vmem S1x2048x4 .f32) (harg5 : arg5.IsWhole) (arg6 : Memref sig .tc .vmem S1x256x4 .f32) (harg6 : arg6.IsWhole) (arg7 : Memref sig .tc .vmem S1x256x1 .f32) (harg7 : arg7.IsWhole) (arg8 : Memref sig .tc .vmem S1x256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S1x1x1 .f32) (harg11 : arg11.IsWhole) (arg12 : Memref sig .tc .vmem S1x256x6 .f32) (harg12 : arg12.IsWhole) (arg13 : Memref sig .tc .vmem S1x256x4 .f32) (harg13 : arg13.IsWhole) (arg14 : Memref sig .tc .vmem S1x256x2048 .f32) (harg14 : arg14.IsWhole) (arg15 : Memref sig .tc .vmem S1x256x2048 .f32) (harg15 : arg15.IsWhole)
    (x0 : Vec F S1x256x2048 .f32) (x1 : Vec F S1x256x2048 .f32) (x2 : Vec F S1x256x1 .f32) (x3 : Vec F S1x2048x4 .f32) (x4 : Vec F S1x256x4 .f32) (x5 : Vec F S1x256x1 .f32) (x6 : Vec F S1x256x1 .f32) (x7 : Vec F S256x1 .f32) (x8 : Vec F S256x1 .f32) (x9 : Vec F S1x1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
        ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (out1_10 i x0 x1 x2 x3 x4 x5 x6 x7 x8 x9) ∗ owns (c : Thread nD τ) arg13 fullShare (out1_11 i x4 x5 x6 x8 x9) ∗ owns (c : Thread nD τ) arg14 fullShare (out1_12 i x1) ∗ owns (c : Thread nD τ) arg15 fullShare (out1_13 i x0 x2)) -∗ K ⟨⟩))
      ⊢ wp frame (wpE (defs₀ (F := F)) Variants.none c none) E (cc1__main_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %g10, -, H10⟩, ⟨%d11, %g11, -, H11⟩, ⟨%d12, %g12, -, H12⟩, ⟨%d13, %g13, -, H13⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (View.read_writes_eq_canon _ _ _ (fun y => ⟨_, List.mem_singleton_self _, View.mem_set_unit_zero hz3 inb_S1x256x6_S1x256x6_0_0_0 y⟩)).trans ?_
    unfold out1_10
    sl_unfold_run_names
    simp only [View.readAt_eq_ld, View.ld_unit_zero (S := S1x256x2048) hz3, View.ld_unit_zero (S := S1x256x1) hz3, View.ld_unit_zero (S := S1x2048x4) hz3, View.ld_unit_zero (S := S1x256x4) hz3, View.ld_unit_zero (S := S1x1x1) hz3, View.ld_unit_zero (S := S256x1) hz2]
  isplitl [H11]
  · iexists _; isplitr
    swap; · iexact H11
    ipureintro
    refine (View.read_writes_eq_canon _ _ _ (fun y => ⟨_, List.mem_singleton_self _, View.mem_set_unit_zero hz3 inb_S1x256x4_S1x256x4_0_0_0 y⟩)).trans ?_
    unfold out1_11
    sl_unfold_run_names
    simp only [View.readAt_eq_ld, View.ld_unit_zero (S := S1x256x2048) hz3, View.ld_unit_zero (S := S1x256x1) hz3, View.ld_unit_zero (S := S1x2048x4) hz3, View.ld_unit_zero (S := S1x256x4) hz3, View.ld_unit_zero (S := S1x1x1) hz3, View.ld_unit_zero (S := S256x1) hz2]
  isplitl [H12]
  · iexists _; isplitr
    swap; · iexact H12
    ipureintro
    refine (View.read_writes_eq_canon _ _ _ (fun y => ⟨_, List.mem_singleton_self _, View.mem_set_unit_zero hz3 inb_S1x256x2048_S1x256x2048_0_0_0 y⟩)).trans ?_
    unfold out1_12
    sl_unfold_run_names
    simp only [View.readAt_eq_ld, View.ld_unit_zero (S := S1x256x2048) hz3, View.ld_unit_zero (S := S1x256x1) hz3, View.ld_unit_zero (S := S1x2048x4) hz3, View.ld_unit_zero (S := S1x256x4) hz3, View.ld_unit_zero (S := S1x1x1) hz3, View.ld_unit_zero (S := S256x1) hz2]
  · iexists _; isplitr
    swap; · iexact H13
    ipureintro
    refine (View.read_writes_eq_canon _ _ _ (fun y => ⟨_, List.mem_singleton_self _, View.mem_set_unit_zero hz3 inb_S1x256x2048_S1x256x2048_0_0_0 y⟩)).trans ?_
    unfold out1_13
    sl_unfold_run_names
    simp only [View.readAt_eq_ld, View.ld_unit_zero (S := S1x256x2048) hz3, View.ld_unit_zero (S := S1x256x1) hz3, View.ld_unit_zero (S := S1x2048x4) hz3, View.ld_unit_zero (S := S1x256x4) hz3, View.ld_unit_zero (S := S1x1x1) hz3, View.ld_unit_zero (S := S256x1) hz2]

end Cert.KernelIdeal.Hand

end
-- ==== Proof.Reg1Body.lean ====
import proofs.«166416_j86079734546455_2_alg».proof.Proof.Reg1Kernel
import proofs.«166416_j86079734546455_2_alg».proof.Proof.Gen.KernelIdeal.Launch
import proofs.«166416_j86079734546455_2_alg».proof.Proof.Gen.KernelIdeal.Skeleton
import proofs.«166416_j86079734546455_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 1: the inputs' buffers, and the body obligation -/

/-! ## Each input's current staging buffer holds its block at every point

Fetched there or not: where the pipeline does not fetch a window (windows 3 and 9, away from the points ≡ 0 mod 8)
its block index has not moved since the last fetch, and the body leaves the block in place. -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1 V c 0]; try rfl) t d).trans
    (by unfold Dat.fetched Dat.blockOf iblk1; rw [A_eq1 V c 0]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1 V c 1]; try rfl) t d).trans
    (by unfold Dat.fetched Dat.blockOf iblk1; rw [A_eq1 V c 1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1 V c 2]; try rfl) t d).trans
    (by unfold Dat.fetched Dat.blockOf iblk1; rw [A_eq1 V c 2]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1 V c 3]; try rfl) t d).trans
    (by unfold Dat.fetched Dat.blockOf iblk1; rw [A_eq1 V c 3]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1 V c 4]; try rfl) t d).trans
    (by unfold Dat.fetched Dat.blockOf iblk1; rw [A_eq1 V c 4]; try rfl)
theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1 V c 5]; try rfl) t d).trans
    (by unfold Dat.fetched Dat.blockOf iblk1; rw [A_eq1 V c 5]; try rfl)
theorem before1_6 (c : Dev nD) (t : Fin cfg1.N) (d) : (dat1 V c).before 6 t d = iblk1 V c 6 t :=
  ((dat1 V c).before_in_eq_fetched 6 rfl (fun _ => rfl) (fun _ _ _ => rfl)
      (fun t => by rw [after1_6]; unfold Dat.blockOf iblk1; rw [A_eq1 V c 6]; try rfl) t d).trans
    (by unfold Dat.fetched Dat.blockOf iblk1; rw [A_eq1 V c 6]; try rfl)
theorem before1_7 (c : Dev nD) (t : Fin cfg1.N) (d) : (dat1 V c).before 7 t d = iblk1 V c 7 t :=
  ((dat1 V c).before_in_eq_fetched 7 rfl (fun _ => rfl) (fun _ _ _ => rfl)
      (fun t => by rw [after1_7]; unfold Dat.blockOf iblk1; rw [A_eq1 V c 7]; try rfl) t d).trans
    (by unfold Dat.fetched Dat.blockOf iblk1; rw [A_eq1 V c 7]; try rfl)
theorem before1_8 (c : Dev nD) (t : Fin cfg1.N) (d) : (dat1 V c).before 8 t d = iblk1 V c 8 t :=
  ((dat1 V c).before_in_eq_fetched 8 rfl (fun _ => rfl) (fun _ _ _ => rfl)
      (fun t => by rw [after1_8]; unfold Dat.blockOf iblk1; rw [A_eq1 V c 8]; try rfl) t d).trans
    (by unfold Dat.fetched Dat.blockOf iblk1; rw [A_eq1 V c 8]; try rfl)
theorem before1_9 (c : Dev nD) (t : Fin cfg1.N) (d) : (dat1 V c).before 9 t d = iblk1 V c 9 t :=
  ((dat1 V c).before_in_eq_fetched 9 rfl (fun _ => rfl) (fun _ _ _ => rfl)
      (fun t => by rw [after1_9]; unfold Dat.blockOf iblk1; rw [A_eq1 V c 9]; try rfl) t d).trans
    (by unfold Dat.fetched Dat.blockOf iblk1; rw [A_eq1 V c 9]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

set_option maxHeartbeats 1000000 in
/-- The body at any point: the inputs' memrefs hold their blocks, so the body's triple applies at the point's
    coordinates; the invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel1 c Set.univ (grid1.coords t) _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Reg1Arrays.lean ====
import proofs.«166416_j86079734546455_2_alg».proof.Proof.Reg1
import proofs.«166416_j86079734546455_2_alg».proof.Proof.Gen.KernelIdeal.Launch
import proofs.«166416_j86079734546455_2_alg».proof.Proof.Gen.KernelIdeal.Skeleton
import proofs.«166416_j86079734546455_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 1: the windows' arrays out of, and back into, the buffers behind them

Windows 3 and 4 read ONE array. The launch hands the region each distinct buffer whole at the full share; the
proof data hold window 3's array at the left half of that share and window 4's at the right half, every other
window's at the full share. A points-to at a share is the two points-tos at its halves, at the same contents. -/

/-- The distinct buffers behind the windows' arrays, one by one: thirteen, for fourteen windows. -/
theorem arrBufs1_eq (c : Dev nD) (V' : (b : Ref sig .tc) → Buf (Elt F) ((c : Thread nD τ).loc b)) :
    (Pipeline.arrBufs spec1 c V' : sProp 𝕄)
      = iprop((((c : Thread nD τ).loc main_arg2) ↦{fullShare} V' main_arg2) ∗ (((c : Thread nD τ).loc main_arg4) ↦{fullShare} V' main_arg4) ∗ (((c : Thread nD τ).loc main_v1) ↦{fullShare} V' main_v1) ∗ (((c : Thread nD τ).loc main_arg3) ↦{fullShare} V' main_arg3) ∗ (((c : Thread nD τ).loc main_arg0) ↦{fullShare} V' main_arg0) ∗ (((c : Thread nD τ).loc main_arg1) ↦{fullShare} V' main_arg1) ∗ (((c : Thread nD τ).loc main_arg5) ↦{fullShare} V' main_arg5) ∗ (((c : Thread nD τ).loc main_arg6) ↦{fullShare} V' main_arg6) ∗ (((c : Thread nD τ).loc main_v10) ↦{fullShare} V' main_v10) ∗ (((c : Thread nD τ).loc main_v11_0) ↦{fullShare} V' main_v11_0) ∗ (((c : Thread nD τ).loc main_v11_1) ↦{fullShare} V' main_v11_1) ∗ (((c : Thread nD τ).loc main_v11_2) ↦{fullShare} V' main_v11_2) ∗ (((c : Thread nD τ).loc main_v11_3) ↦{fullShare} V' main_v11_3)) := by
  unfold Pipeline.arrBufs
  exact bigSep_eq_bigSepL_of_eq [main_arg2, main_arg4, main_v1, main_arg3, main_arg0, main_arg1, main_arg5, main_arg6, main_v10, main_v11_0, main_v11_1, main_v11_2, main_v11_3] (by decide) (by decide) _

/-- The proof data's arrays, each a whole buffer, as points-tos of the buffers behind them at the windows' shares. -/
theorem arrays1_eq (c : Dev nD) (G : (w : Fin cfg1.W) → Buf (Elt F) ((cfg1.win w).arr.view.loc (c : Thread nD τ))) :
    ((dat1 V c).arrays G : sProp 𝕄)
      = bigSep Finset.univ fun w => (((c : Thread nD τ).loc (Pipeline.arrRef spec1 w)) ↦{(dat1 V c).share w} G w : sProp 𝕄) := by
  unfold Dat.arrays
  exact bigSep_congr fun w _ => by rw [(arr_whole1 w).set_eq_univ]

/-- The same one by one, each window's buffer and share named: windows 3 and 4 on one buffer, at the two halves. -/
theorem arrays1_chain (c : Dev nD) (G : (w : Fin cfg1.W) → Buf (Elt F) ((cfg1.win w).arr.view.loc (c : Thread nD τ))) :
    ((dat1 V c).arrays G : sProp 𝕄)
      = iprop((((c : Thread nD τ).loc main_arg2) ↦{fullShare} G 0) ∗ (((c : Thread nD τ).loc main_arg4) ↦{fullShare} G 1) ∗ (((c : Thread nD τ).loc main_v1) ↦{fullShare} G 2) ∗ (((c : Thread nD τ).loc main_arg3) ↦{fullShare.left} G 3) ∗ (((c : Thread nD τ).loc main_arg3) ↦{fullShare.right} G 4) ∗ (((c : Thread nD τ).loc main_arg0) ↦{fullShare} G 5) ∗ (((c : Thread nD τ).loc main_arg1) ↦{fullShare} G 6) ∗ (((c : Thread nD τ).loc main_arg5) ↦{fullShare} G 7) ∗ (((c : Thread nD τ).loc main_arg6) ↦{fullShare} G 8) ∗ (((c : Thread nD τ).loc main_v10) ↦{fullShare} G 9) ∗ (((c : Thread nD τ).loc main_v11_0) ↦{fullShare} G 10) ∗ (((c : Thread nD τ).loc main_v11_1) ↦{fullShare} G 11) ∗ (((c : Thread nD τ).loc main_v11_2) ↦{fullShare} G 12) ∗ (((c : Thread nD τ).loc main_v11_3) ↦{fullShare} G 13)) := by
  rw [arrays1_eq, bigSep_W1]; rfl

/-- The buffers behind the arrays, whole at the full share at contents `V'`, are the proof data's arrays at any
    contents `G` that are `V'`'s behind each window — the shared array's points-to split into its two halves. -/
theorem arrays1_of_bufs_at (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    (Pipeline.arrBufs spec1 c V' : sProp 𝕄) ⊢ (dat1 V c).arrays G := by
  obtain rfl : G = fun w => V' (Pipeline.arrRef spec1 w) := funext hG
  rw [arrBufs1_eq, arrays1_chain]
  iintro ⟨H0, H1, H2, H3, H5, H6, H7, H8, H9, H10, H11, H12, H13⟩
  ihave H34 := (pointsTo_share (PosShare.mem_left_op_right fullShare)).1 $$ H3
  icases H34 with ⟨H3, H4⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- Conversely the two halves of the shared array, both at its contents under `V'`, join. -/
theorem bufs_of_arrays1_at (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    ((dat1 V c).arrays G : sProp 𝕄) ⊢ Pipeline.arrBufs spec1 c V' := by
  obtain rfl : G = fun w => V' (Pipeline.arrRef spec1 w) := funext hG
  rw [arrBufs1_eq, arrays1_chain]
  iintro ⟨H0, H1, H2, H3, H4, H5, H6, H7, H8, H9, H10, H11, H12, H13⟩
  ihave H34 := (pointsTo_share (PosShare.mem_left_op_right fullShare)).2 $$ [H3 H4]
  · isplitl [H3]; · iexact H3
    iexact H4
  isplitl [H0]; · iexact H0
  isplitl [H1]; · iexact H1
  isplitl [H2]; · iexact H2
  isplitl [H34]; · iexact H34
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- At entry: the buffers behind the arrays at the entry contents are the proof data's arrays there. -/
theorem arrays1_of_bufs (c : Dev nD) :
    (Pipeline.arrBufs spec1 c (V c) : sProp 𝕄) ⊢ (dat1 V c).arrays ((dat1 V c).arrAt · 0) :=
  arrays1_of_bufs_at V c (V c) _ fun w => A_eq1 V c w

/-- At the exit: the proof data's arrays at what the pipeline leaves, which is what `V'` holds behind each
    (`hF`), are the buffers behind them whole at the full share at `V'`. -/
theorem bufs_of_arrays1 (c : Dev nD) (V' : (b : Ref sig .tc) → Buf (Elt F) ((c : Thread nD τ).loc b))
    (hF : ∀ w, (dat1 V c).arrAt w cfg1.N = V' (Pipeline.arrRef spec1 w)) :
    ((dat1 V c).arrays ((dat1 V c).arrAt · cfg1.N) : sProp 𝕄) ⊢ Pipeline.arrBufs spec1 c V' :=
  bufs_of_arrays1_at V c V' _ hF

end Cert.KernelIdeal.Hand

end
-- ==== Proof.Run.lean ====
/-
  The idealized kernel program's run, part two: @main as four segments, and the launch.

  Each region is entered from a thread state that holds every unscoped buffer at the boundary's contents
  beside the generator register and the core's (empty) dues; its arrays are split out of the unscoped
  buffers at the entry and put back at the exit. The main region reads one array (the SIR array) through
  two input windows, so that array's points-to is divided between the two windows at the entry and joined
  at the exit. The conclusion: every weakly fair execution of @main terminates and every unscoped buffer
  ends at the fold's last contents.
-/
import proofs.«166416_j86079734546455_2_alg».proof.Proof.RunVals
import proofs.«166416_j86079734546455_2_alg».proof.Proof.Reg1Body
import proofs.«166416_j86079734546455_2_alg».proof.Proof.Reg1Arrays
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline has a prefetched table. -/
abbrev adm : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0r m) c
  | ⟨1, _⟩ => fun c => dat1 (V2r m) c

abbrev 𝒱₀ : Variants := Variants.none
abbrev L : GSem nD τ sig → Finset Unit := fun _ => ∅
abbrev lv : GSem nD τ sig → Unit → ℕ := fun _ _ => 0

/-- What rides beside the buffers: the generator register at some state and the core's dues, none. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m c) ∗ ∃ r, prngReg c r)

set_option backward.isDefEq.respectTransparency.types false in
/-- The column-sum region as a segment. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0r m c) (V1r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The main region as a segment: the SIR array is divided between its two windows at the entry and
    joined at the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2r m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2r m c)
  hentry c := by
    rw [Pipeline.ownSems0_none]
    have hsplit : (unscopedBufs (Ix := Unit) (Name := ℕ) (U := UR sig nD τ) (Lvl := ℕ) c (V2r m c) : sProp 𝕄)
        ⊢ iprop((pdats m 1 c).arrays ((pdats m 1 c).arrAt · 0) ∗ Pipeline.unscopedRest spec1 c (V2r m c)) := by
      rw [Pipeline.unscopedBufs_split₀ cfgs 1 winFacts₀1.arr_unscoped c (V2r m c)]
      exact sep_mono (arrays1_of_bufs (V2r m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (V2r m c))
        ⊢ (unscopedBufs c (V3r m c) : sProp 𝕄) := by
      rw [Pipeline.unscopedBufs_split₀ cfgs 1 winFacts₀1.arr_unscoped c (V3r m c)]
      refine sep_mono (bufs_of_arrays1 (V2r m) c (V3r m c) (hF1 m c)) (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's four segments in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]

theorem main_run (c : Dev nD) : main (F := F) c = Pipeline.Seg.run (segs m) := (main_chain c).trans (by chain_rfl)

set_option backward.isDefEq.respectTransparency.types false in
/-- THE RUN: from any memory with zero counters every weakly fair execution of @main on the TensorCores
    terminates, nothing faulting, and in every final state each unscoped buffer holds the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := by
      refine ⟨fun _ => .rfl, fun _ => .rfl, fun _ => .rfl, fun _ => .rfl, fun c => ?_⟩
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      · iexact HO)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME, at any float instance: the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W4_arg m c main_arg0 (by decide) (by decide) (by decide) (by decide)),
     (h c _ (mem_uc main_arg1 (by decide))).trans (W4_arg m c main_arg1 (by decide) (by decide) (by decide) (by decide)),
     (h c _ (mem_uc main_arg2 (by decide))).trans (W4_arg m c main_arg2 (by decide) (by decide) (by decide) (by decide)),
     (h c _ (mem_uc main_arg3 (by decide))).trans (W4_arg m c main_arg3 (by decide) (by decide) (by decide) (by decide)),
     (h c _ (mem_uc main_arg4 (by decide))).trans (W4_arg m c main_arg4 (by decide) (by decide) (by decide) (by decide)),
     (h c _ (mem_uc main_arg5 (by decide))).trans (W4_arg m c main_arg5 (by decide) (by decide) (by decide) (by decide)),
     (h c _ (mem_uc main_arg6 (by decide))).trans (W4_arg m c main_arg6 (by decide) (by decide) (by decide) (by decide))⟩)
    (run_all m ρ)

end Cert.KernelIdeal.Hand

end
-- ==== Proof.Val0A.lean ====
/-
  The column-sum pass, the two cases read as values.

  In the carry case the accumulator block ends at the block it held plus the tile's masked column sums; in the
  reset case it ends at the zero block plus them. Both are the body's one arithmetic term applied to the tile
  and to what the block held (the zero block after a reset).
-/
import proofs.«166416_j86079734546455_2_alg».proof.Proof.Reg0
import Idealize.ShloMosaic.Lib.Pipeline.Value
import Idealize.ShloMosaic.Lib.Tactic
set_option maxRecDepth 16384

noncomputable section

namespace Cert.KernelIdeal.Val0

open Cert.KernelIdeal Cert.KernelIdeal.Gen Cert.KernelIdeal.Hand
open Idealize.ShloMosaic Idealize.ShloMosaic.TcCoe Idealize.ShloMosaic.Tactic
open Idealize.SL.Sem
open Idealize.ShloMosaic.Pipeline (Dat)

variable {F : FTy → Type} [FloatOps F]

theorem hz3 : (![0, 0, 0] : Fin 3 → Nat) = fun _ => 0 := funext fun a => by fin_cases a <;> rfl

/-- The carry case: the block that held `xo` ends at the body's term of the tile `x` and `xo`. -/
theorem out_B (c : Dev nD) (i : grid0.Coords) (a2 : Memref sig .tc .vmem S1x512x2048 .f32) (h2 : a2.IsWhole)
    (a3 : Memref sig .tc .vmem S1x1x2048 .f32) (h3 : a3.IsWhole) (hc : ¬cond0_0 i)
    (x : Vec F S1x512x2048 .f32) (xo : Vec F S1x1x2048 .f32) :
    out0_B_1 c i a2 h2 a3 h3 hc x xo = k0_pay2 i x xo := by
  unfold out0_B_1
  rw [View.read_writes_eq_canon _ _ _ (cover0_B_1 c i a2 h2 a3 h3 hc x xo)]
  unfold kernelRun0_B
  dsimp only
  rw [View.canon_unit_zero hz3]
  simp only [View.readAt_eq_ld, h2.read_unread, h3.read_unread, View.ld_unit_zero (S := S1x512x2048) hz3,
    View.ld_unit_zero (S := S1x1x2048) hz3]

/-- The reset case: the block is first filled with zeros, read back, and ends at the body's term of the tile
    `x` and the zero block. -/
theorem out_A (c : Dev nD) (i : grid0.Coords) (a2 : Memref sig .tc .vmem S1x512x2048 .f32) (h2 : a2.IsWhole)
    (a3 : Memref sig .tc .vmem S1x1x2048 .f32) (h3 : a3.IsWhole) (hc : cond0_0 i)
    (x : Vec F S1x512x2048 .f32) :
    out0_A_1 c i a2 h2 a3 h3 hc x = k0_pay2 i x k0_pay1 := by
  unfold out0_A_1
  rw [View.read_writes_eq_canon _ _ _ (cover0_A_1 c i a2 h2 a3 h3 hc x)]
  unfold kernelRun0_A
  dsimp only
  sl_unfold_words
  rw [View.canon_cons_unit_zero (S := S1x1x2048) hz3, View.readCov_unit_zero (S := S1x1x2048) _ hz3]
  simp only [View.readAt_eq_ld, h2.read_unread, View.ld_unit_zero (S := S1x512x2048) hz3]

end Cert.KernelIdeal.Val0

end
-- ==== Proof.Val0B.lean ====
/-
  The body's arithmetic at one column, over the extended reals.

  The tile of row-tile index k holds rows 512 k .. 512 k + 511. The body compares, as 32-bit words, the row
  number 512 k + r with the column number q; both are below 2048, so the words are equal exactly when the
  numbers are. Where they are equal the entry is replaced by the zero word. The block's entry at column q is
  then what the block held there plus the sum over the tile's 512 rows of the masked entries.
-/
import proofs.«166416_j86079734546455_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
set_option maxRecDepth 16384

noncomputable section

namespace Cert.KernelIdeal.Val0

open Cert.KernelIdeal Cert.KernelIdeal.Gen
open Idealize.ShloMosaic Idealize.ShloMosaic.TcCoe Idealize.ShloMosaic.Tactic
open Idealize.SL.Sem
open Idealize.ShloMosaic.Pipeline (Dat)

open Idealize.ShloMosaic.ValueIdx
open scoped BigOperators

/-- Row 512 k + r against column q, as words: the comparison bit is set exactly when the numbers agree. -/
theorem mask_bit (k r q : Nat) (hk : k < 4) (hr : r < 512) (hq : q < 2048) :
    IntOp.cmpi .eq (IntOp.addi (Scalar.muli (BitVec.ofNat 32 k) 512#32) (BitVec.ofNat 32 r)) (BitVec.ofNat 32 q) = 1#1
      ↔ k * 512 + r = q := by
  have e : IntOp.addi (Scalar.muli (BitVec.ofNat 32 k) 512#32) (BitVec.ofNat 32 r) = BitVec.ofNat 32 (k * 512 + r) := by
    apply BitVec.eq_of_toNat_eq
    show ((BitVec.ofNat 32 k * 512#32) + BitVec.ofNat 32 r).toNat = _
    rw [BitVec.toNat_add, BitVec.toNat_mul, BitVec.toNat_ofNat, BitVec.toNat_ofNat, BitVec.toNat_ofNat]
    show ((k % 2 ^ 32 * 512 % 2 ^ 32) + r % 2 ^ 32) % 2 ^ 32 = (k * 512 + r) % 2 ^ 32
    omega
  rw [e]
  show BitVec.ofBool (BitVec.ofNat 32 (k * 512 + r) == BitVec.ofNat 32 q) = 1#1 ↔ _
  constructor
  · intro h
    have hb : (BitVec.ofNat 32 (k * 512 + r) == BitVec.ofNat 32 q) = true := by
      cases hbb : (BitVec.ofNat 32 (k * 512 + r) == BitVec.ofNat 32 q) with
      | true => rfl
      | false => rw [hbb] at h; exact absurd h (by decide)
    have h2 := congrArg BitVec.toNat (beq_iff_eq.mp hb)
    rw [BitVec.toNat_ofNat, BitVec.toNat_ofNat] at h2
    omega
  · intro h
    rw [h, beq_self_eq_true]
    rfl

/-- Inserting row r into the column index q of the reduced vector names entry (r, q) of the tile. -/
theorem lift_rq (r : Fin 512) (q : Fin 2048) :
    reduces_S512x2048_S2048.lift (ix1 q) r = ix2 r q :=
  funext fun a => Fin.ext (match a with | ⟨0, _⟩ => rfl | ⟨1, _⟩ => rfl)

/-- The masked tile at (r, q): the zero word on the diagonal of the whole matrix, the tile's entry off it. -/
theorem masked_apply (i : grid0.Coords) (x : FVec Ideal S1x512x2048 .f32) (r : Fin 512) (q : Fin 2048)
    (j : S512x2048.Idx) (hj : j = ix2 r q) :
    select (cmpi .eq (addi (broadcast S512x2048 (Scalar.muli (BitVec.ofNat 32 (i 1).val) 512#32))
          (iota .tc S512x2048 32 [0] iota_S512x2048_d0_w32)) (iota .tc S512x2048 32 [1] iota_S512x2048_d1_w32))
        (broadcast S512x2048 (Scalar.ofBits (F := Ideal) .f32 0x00000000#32))
        (shapeCast S512x2048 x shapeCasts_S1x512x2048_S512x2048) j
      = if (i 1).val * 512 + r.val = q.val then Ideal.ofBits .f32 0x00000000#32 else x (ix3 (0 : Fin 1) r q) := by
  subst hj
  have hk : (i 1).val < 4 := (i 1).isLt
  rw [select_apply]
  have hb := mask_bit (i 1).val r.val q.val hk r.isLt q.isLt
  have e0 : iota .tc S512x2048 32 [0] iota_S512x2048_d0_w32 (ix2 r q) = BitVec.ofNat 32 r.val :=
    iota_single_apply .tc S512x2048 32 0 iota_S512x2048_d0_w32 (ix2 r q)
  have e1 : iota .tc S512x2048 32 [1] iota_S512x2048_d1_w32 (ix2 r q) = BitVec.ofNat 32 q.val :=
    iota_single_apply .tc S512x2048 32 1 iota_S512x2048_d1_w32 (ix2 r q)
  have ec : cmpi .eq (addi (broadcast S512x2048 (Scalar.muli (BitVec.ofNat 32 (i 1).val) 512#32))
          (iota .tc S512x2048 32 [0] iota_S512x2048_d0_w32)) (iota .tc S512x2048 32 [1] iota_S512x2048_d1_w32) (ix2 r q)
      = IntOp.cmpi .eq (IntOp.addi (Scalar.muli (BitVec.ofNat 32 (i 1).val) 512#32) (BitVec.ofNat 32 r.val)) (BitVec.ofNat 32 q.val) := by
    show IntOp.cmpi .eq (IntOp.addi _ (iota .tc S512x2048 32 [0] iota_S512x2048_d0_w32 (ix2 r q)))
      (iota .tc S512x2048 32 [1] iota_S512x2048_d1_w32 (ix2 r q)) = _
    rw [e0, e1]
    rfl
  rw [ec]
  have ex : shapeCast S512x2048 x shapeCasts_S1x512x2048_S512x2048 (ix2 r q) = x (ix3 (0 : Fin 1) r q) :=
    shapeCast_1ab_ab_apply x shapeCasts_S1x512x2048_S512x2048 r q
  rw [ex]
  by_cases h : (i 1).val * 512 + r.val = q.val
  · rw [if_pos h, hb.mpr h, select_one]; rfl
  · rw [if_neg h, eq_zero_of_ne_one (fun h1 => h (hb.mp h1)), select_zero]

/-- THE BODY'S TERM AT A COLUMN: what the block held there plus the sum over the tile's rows of the masked
    entries. -/
theorem pay2_apply (i : grid0.Coords) (x : FVec Ideal S1x512x2048 .f32) (xo : FVec Ideal S1x1x2048 .f32) (q : Fin 2048) :
    k0_pay2 (F := Ideal) i x xo (ix3 (0 : Fin 1) (0 : Fin 1) q)
      = xo (ix3 (0 : Fin 1) (0 : Fin 1) q)
        + ∑ r : Fin 512, (if (i 1).val * 512 + r.val = q.val then Ideal.ofBits .f32 0x00000000#32 else x (ix3 (0 : Fin 1) r q)) := by
  unfold k0_pay2
  refine (shapeCast_ab_1ab_apply _ shapeCasts_S1x2048_S1x1x2048 (0 : Fin 1) (0 : Fin 1) q).trans ?_
  refine (addf_apply _ _ _).trans (congrArg₂ (· + ·) ?_ ?_)
  · exact shapeCast_1ab_ab_apply xo shapeCasts_S1x1x2048_S1x2048 (0 : Fin 1) q
  · refine (shapeCast_a_1a_apply _ shapeCasts_S2048_S1x2048 (0 : Fin 1) q).trans ?_
    refine (Ideal.multiReduction_add_single _ 0x00000000#32 reduces_S512x2048_S2048 (.inl rfl) rfl (ix1 q)).trans ?_
    refine Finset.sum_congr rfl fun (r : Fin 512) _ => ?_
    exact masked_apply i x r q (reduces_S512x2048_S2048.lift (ix1 q) r) (lift_rq r q)

/-- The zero block at a column is the zero word. -/
theorem pay1_apply (q : Fin 2048) :
    k0_pay1 (F := Ideal) (ix3 (0 : Fin 1) (0 : Fin 1) q) = Ideal.ofBits .f32 0x00000000#32 := by
  unfold k0_pay1
  refine (shapeCast_ab_1ab_apply _ shapeCasts_S1x2048_S1x1x2048 (0 : Fin 1) (0 : Fin 1) q).trans ?_
  rfl

end Cert.KernelIdeal.Val0

end
-- ==== Proof.Spec.lean ====
import Idealize.ShloMosaic.PureOps.Ideal
import Idealize.ShloMosaic.PureOps.Ideal.Laws
import Idealize.ShloMosaic.Lib.ValueIdx

/-!
# The specification: one epidemic step on a mobility graph, index by index

Four batches, 2048 regions. Inputs: the infection parameter and the contact rate per batch and region, a
mobility matrix and a second matrix per batch, the compartments S, I, R, ΣI per batch and region, and
a birth and a death rate per region. All values are extended reals and every operation is the exact one.

* F is the mobility matrix with its diagonal replaced by the zero word, sm the second matrix likewise;
* cs b q = ∑ i, F b i q is a column sum, P b p q = F b p q / cs b p the transition weight,
  fai b = ∑ i, ∑ q, F b i q the total flow;
* pop = (S + I) + R, tau b = ∑ p, pop b p, mm b = fai b / tau b the mobility rate of the batch;
* Inew = ((S / pop) · β) · c · I the new infections, flux k b p = mm b · ∑ j, P b p j · X_k b j the inflow
  of compartment k;
* the six columns of the first result are R0, Inew, S', I', R', ΣI', the four of the second
  W, mm, I, pop, and the third result holds sm and P side by side on its last axis.

The three float literals stay words: the same word stands on both sides of every comparison and is never
evaluated, except that the zero word is the extended real 0 (zeroW_eq).
-/

noncomputable section

namespace Cert.Spec

open Idealize.ShloMosaic Idealize.ShloMosaic.ValueIdx
open scoped BigOperators

/-! ## Shapes -/

abbrev A41 : Shape := ⟨3, ![4, 2048, 1]⟩
abbrev A422 : Shape := ⟨3, ![4, 2048, 2048]⟩
abbrev A44 : Shape := ⟨3, ![4, 2048, 4]⟩
abbrev A46 : Shape := ⟨3, ![4, 2048, 6]⟩
abbrev B21 : Shape := ⟨2, ![2048, 1]⟩
abbrev A4222 : Shape := ⟨4, ![4, 2048, 2048, 2]⟩

/-! ## The three literals, as words -/

/-- The float zero. -/
abbrev zeroW : EReal := Ideal.ofBits .f32 0x00000000#32
/-- The recovery rate, one eighth. -/
abbrev gW : EReal := Ideal.ofBits .f32 0x3E000000#32
/-- The disease-induced death rate. -/
abbrev vdW : EReal := Ideal.ofBits .f32 0x38A7C5AC#32

/-- The zero word is the extended real zero. -/
theorem zeroW_eq : zeroW = 0 := Ideal.ofBits_zero_f32

/-! ## The mobility side -/

/-- The mobility matrix without self-mobility. -/
def F (a2 : FVec Ideal A422 .f32) (b : Fin 4) (p q : Fin 2048) : EReal :=
  if p = q then zeroW else a2 (ix3 b p q)

/-- The second matrix without its diagonal. -/
def sm (a4 : FVec Ideal A422 .f32) (b : Fin 4) (p q : Fin 2048) : EReal :=
  if p = q then zeroW else a4 (ix3 b p q)

/-- Column sum of F: everything that flows into region q. -/
def cs (a2 : FVec Ideal A422 .f32) (b : Fin 4) (q : Fin 2048) : EReal :=
  ∑ i : Fin 2048, F a2 b i q

/-- Transition weight: entry (p, q) over the column sum at p. -/
def P (a2 : FVec Ideal A422 .f32) (b : Fin 4) (p q : Fin 2048) : EReal :=
  Ideal.div (F a2 b p q) (cs a2 b p)

/-- Total flow of a batch. -/
def fai (a2 : FVec Ideal A422 .f32) (b : Fin 4) : EReal :=
  ∑ i : Fin 2048, ∑ q : Fin 2048, F a2 b i q

/-! ## The compartments -/

/-- Susceptible. -/
def Sv (a3 : FVec Ideal A44 .f32) (b : Fin 4) (p : Fin 2048) : EReal := a3 (ix3 b p (0 : Fin 4))
/-- Infected. -/
def Iv (a3 : FVec Ideal A44 .f32) (b : Fin 4) (p : Fin 2048) : EReal := a3 (ix3 b p (1 : Fin 4))
/-- Recovered. -/
def Rv (a3 : FVec Ideal A44 .f32) (b : Fin 4) (p : Fin 2048) : EReal := a3 (ix3 b p (2 : Fin 4))
/-- Cumulative infections. -/
def Isv (a3 : FVec Ideal A44 .f32) (b : Fin 4) (p : Fin 2048) : EReal := a3 (ix3 b p (3 : Fin 4))

/-- Population of a region: (S + I) + R. -/
def pop (a3 : FVec Ideal A44 .f32) (b : Fin 4) (p : Fin 2048) : EReal :=
  (Sv a3 b p + Iv a3 b p) + Rv a3 b p

/-- Population of a batch. -/
def tau (a3 : FVec Ideal A44 .f32) (b : Fin 4) : EReal :=
  ∑ p : Fin 2048, pop a3 b p

/-- Mobility rate of a batch: total flow over total population. -/
def mm (a2 : FVec Ideal A422 .f32) (a3 : FVec Ideal A44 .f32) (b : Fin 4) : EReal :=
  Ideal.div (fai a2 b) (tau a3 b)

/-- The infection parameter. -/
def pb (a0 : FVec Ideal A41 .f32) (b : Fin 4) (p : Fin 2048) : EReal := a0 (ix3 b p (0 : Fin 1))
/-- The contact rate. -/
def ct (a1 : FVec Ideal A41 .f32) (b : Fin 4) (p : Fin 2048) : EReal := a1 (ix3 b p (0 : Fin 1))
/-- The natural birth rate of a region. -/
def birth (a5 : FVec Ideal B21 .f32) (p : Fin 2048) : EReal := a5 (ix2 p (0 : Fin 1))
/-- The natural death rate of a region. -/
def death (a6 : FVec Ideal B21 .f32) (p : Fin 2048) : EReal := a6 (ix2 p (0 : Fin 1))

/-- New infections: ((S / pop) · β) · c · I. -/
def Inew (a0 a1 : FVec Ideal A41 .f32) (a3 : FVec Ideal A44 .f32) (b : Fin 4) (p : Fin 2048) : EReal :=
  ((Ideal.div (Sv a3 b p) (pop a3 b p) * pb a0 b p) * ct a1 b p) * Iv a3 b p

/-- Inflow of compartment k (a column of the compartments' array) into region p. -/
def flux (a2 : FVec Ideal A422 .f32) (a3 : FVec Ideal A44 .f32) (k : Fin 4) (b : Fin 4) (p : Fin 2048) : EReal :=
  mm a2 a3 b * ∑ j : Fin 2048, P a2 b p j * a3 (ix3 b j k)

/-! ## The update -/

/-- Recovered after the step. -/
def Rt (a2 : FVec Ideal A422 .f32) (a3 : FVec Ideal A44 .f32) (a6 : FVec Ideal B21 .f32) (b : Fin 4) (p : Fin 2048) : EReal :=
  (((Rv a3 b p + gW * Iv a3 b p) - death a6 p * Rv a3 b p) - mm a2 a3 b * Rv a3 b p) + flux a2 a3 2 b p

/-- Infected after the step. -/
def It (a0 a1 : FVec Ideal A41 .f32) (a2 : FVec Ideal A422 .f32) (a3 : FVec Ideal A44 .f32) (a6 : FVec Ideal B21 .f32)
    (b : Fin 4) (p : Fin 2048) : EReal :=
  (((((Iv a3 b p + Inew a0 a1 a3 b p) - death a6 p * Iv a3 b p) - gW * Iv a3 b p) - vdW * Iv a3 b p)
    - mm a2 a3 b * Iv a3 b p) + flux a2 a3 1 b p

/-- Susceptible after the step. -/
def St (a0 a1 : FVec Ideal A41 .f32) (a2 : FVec Ideal A422 .f32) (a3 : FVec Ideal A44 .f32) (a5 a6 : FVec Ideal B21 .f32)
    (b : Fin 4) (p : Fin 2048) : EReal :=
  ((((Sv a3 b p - Inew a0 a1 a3 b p) - death a6 p * Sv a3 b p) + birth a5 p * pop a3 b p)
    - mm a2 a3 b * Sv a3 b p) + flux a2 a3 0 b p

/-- Cumulative infections after the step. -/
def Ist (a0 a1 : FVec Ideal A41 .f32) (a3 : FVec Ideal A44 .f32) (b : Fin 4) (p : Fin 2048) : EReal :=
  Isv a3 b p + Inew a0 a1 a3 b p

/-- The reproduction number: β c / (((δ + γ) + ν) + mm). -/
def R0 (a0 a1 : FVec Ideal A41 .f32) (a2 : FVec Ideal A422 .f32) (a3 : FVec Ideal A44 .f32) (a6 : FVec Ideal B21 .f32)
    (b : Fin 4) (p : Fin 2048) : EReal :=
  Ideal.div (pb a0 b p * ct a1 b p) (((death a6 p + gW) + vdW) + mm a2 a3 b)

/-- The arrival weight: ((β c − δ) − γ) − ν. -/
def Wa (a0 a1 : FVec Ideal A41 .f32) (a6 : FVec Ideal B21 .f32) (b : Fin 4) (p : Fin 2048) : EReal :=
  ((pb a0 b p * ct a1 b p - death a6 p) - gW) - vdW

/-! ## The three results -/

/-- The first result by coordinates: columns R0, Inew, S', I', R', ΣI'. -/
def htAt (a0 a1 : FVec Ideal A41 .f32) (a2 : FVec Ideal A422 .f32) (a3 : FVec Ideal A44 .f32) (a5 a6 : FVec Ideal B21 .f32)
    (b : Fin 4) (p : Fin 2048) : Fin 6 → EReal
  | ⟨0, _⟩ => R0 a0 a1 a2 a3 a6 b p
  | ⟨1, _⟩ => Inew a0 a1 a3 b p
  | ⟨2, _⟩ => St a0 a1 a2 a3 a5 a6 b p
  | ⟨3, _⟩ => It a0 a1 a2 a3 a6 b p
  | ⟨4, _⟩ => Rt a2 a3 a6 b p
  | ⟨5, _⟩ => Ist a0 a1 a3 b p

/-- The first result. -/
def ht (a0 a1 : FVec Ideal A41 .f32) (a2 : FVec Ideal A422 .f32) (a3 : FVec Ideal A44 .f32) (a5 a6 : FVec Ideal B21 .f32) :
    FVec Ideal A46 .f32 :=
  fun j => htAt a0 a1 a2 a3 a5 a6 (j 0) (j 1) (j 2)

/-- The second result by coordinates: columns W, mm, I, pop. -/
def ar1At (a0 a1 : FVec Ideal A41 .f32) (a2 : FVec Ideal A422 .f32) (a3 : FVec Ideal A44 .f32) (a6 : FVec Ideal B21 .f32)
    (b : Fin 4) (p : Fin 2048) : Fin 4 → EReal
  | ⟨0, _⟩ => Wa a0 a1 a6 b p
  | ⟨1, _⟩ => mm a2 a3 b
  | ⟨2, _⟩ => Iv a3 b p
  | ⟨3, _⟩ => pop a3 b p

/-- The second result. (It does not depend on the birth rate; the argument is kept so that the results take
    their arguments alike.) -/
def ar1 (a0 a1 : FVec Ideal A41 .f32) (a2 : FVec Ideal A422 .f32) (a3 : FVec Ideal A44 .f32) (_a5 a6 : FVec Ideal B21 .f32) :
    FVec Ideal A44 .f32 :=
  fun j => ar1At a0 a1 a2 a3 a6 (j 0) (j 1) (j 2)

/-- The third result by coordinates: sm and P side by side. -/
def ar2At (a2 a4 : FVec Ideal A422 .f32) (b : Fin 4) (p q : Fin 2048) : Fin 2 → EReal
  | ⟨0, _⟩ => sm a4 b p q
  | ⟨1, _⟩ => P a2 b p q

/-- The third result. -/
def ar2 (a2 a4 : FVec Ideal A422 .f32) : FVec Ideal A4222 .f32 :=
  fun j => ar2At a2 a4 (j 0) (j 1) (j 2) (j 3)

/-! ## The results at an index built from coordinates -/

section Apply
variable (a0 a1 : FVec Ideal A41 .f32) (a2 a4 : FVec Ideal A422 .f32) (a3 : FVec Ideal A44 .f32) (a5 a6 : FVec Ideal B21 .f32)
  (b : Fin 4) (p q : Fin 2048)

theorem ht_apply (k : Fin 6) : ht a0 a1 a2 a3 a5 a6 (ix3 b p k) = htAt a0 a1 a2 a3 a5 a6 b p k := rfl
theorem ht_apply_0 : ht a0 a1 a2 a3 a5 a6 (ix3 b p (0 : Fin 6)) = R0 a0 a1 a2 a3 a6 b p := rfl
theorem ht_apply_1 : ht a0 a1 a2 a3 a5 a6 (ix3 b p (1 : Fin 6)) = Inew a0 a1 a3 b p := rfl
theorem ht_apply_2 : ht a0 a1 a2 a3 a5 a6 (ix3 b p (2 : Fin 6)) = St a0 a1 a2 a3 a5 a6 b p := rfl
theorem ht_apply_3 : ht a0 a1 a2 a3 a5 a6 (ix3 b p (3 : Fin 6)) = It a0 a1 a2 a3 a6 b p := rfl
theorem ht_apply_4 : ht a0 a1 a2 a3 a5 a6 (ix3 b p (4 : Fin 6)) = Rt a2 a3 a6 b p := rfl
theorem ht_apply_5 : ht a0 a1 a2 a3 a5 a6 (ix3 b p (5 : Fin 6)) = Ist a0 a1 a3 b p := rfl

theorem ar1_apply (k : Fin 4) : ar1 a0 a1 a2 a3 a5 a6 (ix3 b p k) = ar1At a0 a1 a2 a3 a6 b p k := rfl
theorem ar1_apply_0 : ar1 a0 a1 a2 a3 a5 a6 (ix3 b p (0 : Fin 4)) = Wa a0 a1 a6 b p := rfl
theorem ar1_apply_1 : ar1 a0 a1 a2 a3 a5 a6 (ix3 b p (1 : Fin 4)) = mm a2 a3 b := rfl
theorem ar1_apply_2 : ar1 a0 a1 a2 a3 a5 a6 (ix3 b p (2 : Fin 4)) = Iv a3 b p := rfl
theorem ar1_apply_3 : ar1 a0 a1 a2 a3 a5 a6 (ix3 b p (3 : Fin 4)) = pop a3 b p := rfl

theorem ar2_apply (k : Fin 2) : ar2 a2 a4 (ix4 b p q k) = ar2At a2 a4 b p q k := rfl
theorem ar2_apply_0 : ar2 a2 a4 (ix4 b p q (0 : Fin 2)) = sm a4 b p q := rfl
theorem ar2_apply_1 : ar2 a2 a4 (ix4 b p q (1 : Fin 2)) = P a2 b p q := rfl

/-- On the diagonal F is zero, off it the matrix. -/
theorem F_diag : F a2 b p p = 0 := by rw [F, if_pos rfl, zeroW_eq]
theorem F_off (h : p ≠ q) : F a2 b p q = a2 (ix3 b p q) := by rw [F, if_neg h]
theorem sm_diag : sm a4 b p p = 0 := by rw [sm, if_pos rfl, zeroW_eq]
theorem sm_off (h : p ≠ q) : sm a4 b p q = a4 (ix3 b p q) := by rw [sm, if_neg h]

end Apply

end Cert.Spec

end
-- ==== Proof.LibTileSum.lean ====
/-
  A sum over K·T consecutive positions taken tile by tile, and a running total over the tiles.

  A kernel that walks a long axis in K tiles of T positions keeps a running total: it starts from a value z and at
  tile k adds that tile's own sum.  On any commutative monoid the total after the last tile is z plus the sum over all
  K·T positions: position k·T + q is position q of tile k, and this is a bijection between pairs (k, q) and positions.
-/
import Mathlib.Algebra.BigOperators.Fin
import Mathlib.Logic.Equiv.Fin.Basic

namespace Cert.Lib.TileSum

open scoped BigOperators

variable {M : Type*} [AddCommMonoid M]

/-- Position `q` of tile `k` lies below `K·T`. -/
theorem pos_lt {K T : ℕ} (k : Fin K) (q : Fin T) : k.val * T + q.val < K * T := by
  have hk := k.isLt
  have hq := q.isLt
  calc k.val * T + q.val < k.val * T + T := by omega
    _ = (k.val + 1) * T := by rw [Nat.add_mul, Nat.one_mul]
    _ ≤ K * T := Nat.mul_le_mul_right T (by omega)

/-- The sum over `K·T` positions is the sum over the tiles of each tile's sum. -/
theorem sum_tiles {K T : ℕ} (g : Fin (K * T) → M) :
    ∑ j, g j = ∑ k : Fin K, ∑ q : Fin T, g ⟨k.val * T + q.val, pos_lt k q⟩ := by
  rw [← Equiv.sum_comp finProdFinEquiv g, Fintype.sum_prod_type]
  refine Finset.sum_congr rfl fun k _ => Finset.sum_congr rfl fun q _ => congrArg g (Fin.ext ?_)
  show q.val + T * k.val = k.val * T + q.val
  rw [Nat.mul_comm, Nat.add_comm]

/-- The same for an extent `N` known to be `K·T` (a literal such as 4096 = 4·1024). -/
theorem sum_tiles_of_eq {N K T : ℕ} (h : N = K * T) (g : Fin N → M) :
    ∑ j, g j = ∑ k : Fin K, ∑ q : Fin T, g ⟨k.val * T + q.val, h ▸ pos_lt k q⟩ := by
  subst h
  exact sum_tiles g

/-- A running total that starts at `z` and at step `k` adds `t k`: after step `k` it is `z` plus the first `k + 1`
    terms. -/
theorem running_total {K : ℕ} (z : M) (t : Fin K → M) (a : (k : ℕ) → k < K → M)
    (h0 : ∀ h : 0 < K, a 0 h = z + t ⟨0, h⟩)
    (hs : ∀ (k : ℕ) (h : k + 1 < K), a (k + 1) h = a k (Nat.lt_of_succ_lt h) + t ⟨k + 1, h⟩) :
    ∀ (k : ℕ) (h : k < K), a k h = z + ∑ i : Fin (k + 1), t ⟨i.val, by have := i.isLt; omega⟩ := by
  intro k
  induction k with
  | zero =>
    intro h
    rw [h0 h]
    exact congrArg (z + ·) (Fin.sum_univ_one fun i : Fin 1 => t ⟨i.val, by have := i.isLt; omega⟩).symm
  | succ k ih =>
    intro h
    rw [hs k h, ih (Nat.lt_of_succ_lt h), add_assoc]
    exact congrArg (z + ·)
      (Fin.sum_univ_castSucc fun i : Fin (k + 1 + 1) => t ⟨i.val, by have := i.isLt; omega⟩).symm

/-- After the last step the running total is `z` plus every term. -/
theorem running_total_last {K : ℕ} (z : M) (t : Fin K → M) (a : (k : ℕ) → k < K → M)
    (h0 : ∀ h : 0 < K, a 0 h = z + t ⟨0, h⟩)
    (hs : ∀ (k : ℕ) (h : k + 1 < K), a (k + 1) h = a k (Nat.lt_of_succ_lt h) + t ⟨k + 1, h⟩)
    (k : ℕ) (hk : k + 1 = K) : a k (by omega) = z + ∑ i : Fin K, t i := by
  subst hk
  exact running_total z t a h0 hs k (by omega)

end Cert.Lib.TileSum
-- ==== Proof.Val0C.lean ====
/-
  The column-sum pass, point by point: the accumulator block after each grid point.

  Point t = 4 b + k reads rows 512 k .. 512 k + 511 of batch b. At a reset point (k = 0) the block's column q
  ends at the zero word plus the tile's masked column sum; at a carry point it ends at what the point before
  left plus it. The tile's masked column sum is the sum over the tile's rows of the matrix without its
  diagonal.
-/
import proofs.«166416_j86079734546455_2_alg».proof.Proof.Val0A
import proofs.«166416_j86079734546455_2_alg».proof.Proof.Val0B
import proofs.«166416_j86079734546455_2_alg».proof.Proof.Spec
import proofs.«166416_j86079734546455_2_alg».proof.Proof.LibTileSum
set_option maxRecDepth 16384

noncomputable section

namespace Cert.KernelIdeal.Val0

open Cert.KernelIdeal Cert.KernelIdeal.Gen Cert.KernelIdeal.Hand
open Idealize.ShloMosaic Idealize.ShloMosaic.TcCoe Idealize.ShloMosaic.Tactic
open Idealize.SL.Sem
open Idealize.ShloMosaic.Pipeline (Dat)

open Idealize.ShloMosaic.ValueIdx
open scoped BigOperators

variable (V : (c : Dev nD) → (b : Ref sig .tc) → Buf (Elt Ideal) ((c : Thread nD τ).loc b))

/-- The printed index maps over the 16 points, row-major in (batch, tile). -/
theorem grid_facts : ∀ t : Fin cfg0.N, (grid0.coords t 1).val = t.val % 4
    ∧ win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0 :=
  (by decide +kernel : ∀ t : Fin grid0.N, _)

/-- The tile at point t, entry (r, q): the matrix at batch t / 4, row 512 (t % 4) + r, column q. -/
theorem iblk0_apply (c : Dev nD) (t : Fin cfg0.N) (r : Fin 512) (q : Fin 2048) (b : Fin 4) (p : Fin 2048)
    (hb : b.val = t.val / 4) (hp : p.val = (t.val % 4) * 512 + r.val) :
    iblk0 V c 0 t (ix3 (0 : Fin 1) r q) = V c main_arg2 (ix3 b p q) := by
  obtain ⟨-, e0, e1, e2, -⟩ := grid_facts t
  unfold iblk0
  rw [View.read_apply]
  show V c main_arg2 (((cfg0.win 0).blk t).view.emb (ix3 (0 : Fin 1) r q)) = V c main_arg2 (ix3 b p q)
  refine congrArg (V c main_arg2) (funext fun a => Fin.ext ?_)
  match a with
  | ⟨0, _⟩ => show win0_0.index t (0 : Fin 3) * 1 + 1 * 0 = b.val; omega
  | ⟨1, _⟩ => show win0_0.index t (1 : Fin 3) * 512 + 1 * r.val = p.val; omega
  | ⟨2, _⟩ => show win0_0.index t (2 : Fin 3) * 2048 + 1 * q.val = q.val; omega

/-- The masked column sum of the tile at point t = 4 b + k, at column q: the sum over the tile's rows of the
    matrix without its diagonal. -/
theorem tile_sum (c : Dev nD) (t : Fin cfg0.N) (q : Fin 2048) (b k : Fin 4) (ht : t.val = 4 * b.val + k.val) :
    (∑ r : Fin 512, (if (grid0.coords t 1).val * 512 + r.val = q.val then Ideal.ofBits .f32 0x00000000#32
        else iblk0 V c 0 t (ix3 (0 : Fin 1) r q)))
      = ∑ r : Fin 512, Cert.Spec.F (V c main_arg2) b ⟨k.val * 512 + r.val, Cert.Lib.TileSum.pos_lt k r⟩ q := by
  obtain ⟨ec, -⟩ := grid_facts t
  have hk : t.val % 4 = k.val := by have := k.isLt; omega
  have hbv : b.val = t.val / 4 := by have := k.isLt; omega
  refine Finset.sum_congr rfl fun r _ => ?_
  rw [iblk0_apply V c t r q b ⟨k.val * 512 + r.val, Cert.Lib.TileSum.pos_lt k r⟩ hbv (by rw [hk]), ec, hk]
  unfold Cert.Spec.F
  by_cases h : k.val * 512 + r.val = q.val
  · rw [if_pos h, if_pos (Fin.ext h)]
  · rw [if_neg h, if_neg (fun e => h (congrArg Fin.val e))]

end Cert.KernelIdeal.Val0

end
-- ==== Proof.Val0D.lean ====
/-
  The column-sum pass as a value: the result array after the region.

  Within batch b the accumulator block runs through the four row tiles: it starts from the zero word and adds
  one tile's masked column sum per point, so after the batch's last tile its column q holds the sum over all
  2048 rows of the matrix without its diagonal: the column sum. That point writes the block back to row b of
  the result, and the four batches' last points cover the result array.
-/
import proofs.«166416_j86079734546455_2_alg».proof.Proof.Val0C
import proofs.«166416_j86079734546455_2_alg».proof.Proof.RunVals0
set_option maxRecDepth 16384

noncomputable section

namespace Cert.KernelIdeal.Val0

open Cert.KernelIdeal Cert.KernelIdeal.Gen Cert.KernelIdeal.Hand
open Idealize.ShloMosaic Idealize.ShloMosaic.TcCoe Idealize.ShloMosaic.Tactic
open Idealize.SL.Sem
open Idealize.ShloMosaic.Pipeline (Dat)

open Idealize.ShloMosaic.ValueIdx
open scoped BigOperators

variable (V : (c : Dev nD) → (b : Ref sig .tc) → Buf (Elt Ideal) ((c : Thread nD τ).loc b))

/-- At a reset point the block's column q ends at the zero word plus the tile's masked column sum. -/
theorem outs_reset (c : Dev nD) (t : Fin cfg0.N) (h0 : t.val % 4 = 0) (q : Fin 2048) :
    outsAt0 V c t.val t.isLt (ix3 (0 : Fin 1) (0 : Fin 1) q)
      = Ideal.ofBits .f32 0x00000000#32
        + ∑ r : Fin 512, (if (grid0.coords t 1).val * 512 + r.val = q.val then Ideal.ofBits .f32 0x00000000#32
            else iblk0 V c 0 t (ix3 (0 : Fin 1) r q)) := by
  rw [outsAt0_A V c t h0]
  refine (congrFun (out_A c (grid0.coords t) (ms0_0 t) (hs0_0 t) (ms0_1 t) (hs0_1 t) ((hcond0_0 t).mpr h0) (iblk0 V c 0 t))
    (ix3 (0 : Fin 1) (0 : Fin 1) q)).trans ?_
  refine (pay2_apply (grid0.coords t) (iblk0 V c 0 t) k0_pay1 q).trans ?_
  rw [pay1_apply]

/-- At a carry point it ends at what the point before left plus the tile's masked column sum. -/
theorem outs_carry (c : Dev nD) (t : Fin cfg0.N) (h0 : ¬t.val % 4 = 0) (q : Fin 2048) :
    outsAt0 V c t.val t.isLt (ix3 (0 : Fin 1) (0 : Fin 1) q)
      = outsAt0 V c (t.val - 1) (Nat.lt_of_le_of_lt (Nat.sub_le _ _) t.isLt) (ix3 (0 : Fin 1) (0 : Fin 1) q)
        + ∑ r : Fin 512, (if (grid0.coords t 1).val * 512 + r.val = q.val then Ideal.ofBits .f32 0x00000000#32
            else iblk0 V c 0 t (ix3 (0 : Fin 1) r q)) := by
  rw [outsAt0_B V c t h0]
  refine (congrFun (out_B c (grid0.coords t) (ms0_0 t) (hs0_0 t) (ms0_1 t) (hs0_1 t) (fun h => h0 ((hcond0_0 t).mp h))
    (iblk0 V c 0 t) (outsAt0 V c (t.val - 1) (Nat.lt_of_le_of_lt (Nat.sub_le _ _) t.isLt))) (ix3 (0 : Fin 1) (0 : Fin 1) q)).trans ?_
  exact pay2_apply (grid0.coords t) (iblk0 V c 0 t) (outsAt0 V c (t.val - 1) (Nat.lt_of_le_of_lt (Nat.sub_le _ _) t.isLt)) q

/-- After the last tile of batch b the block's column q holds the column sum. -/
theorem outs_last (c : Dev nD) (b : Fin 4) (q : Fin 2048) (h : 4 * b.val + 3 < cfg0.N) :
    outsAt0 V c (4 * b.val + 3) h (ix3 (0 : Fin 1) (0 : Fin 1) q) = Cert.Spec.cs (V c main_arg2) b q := by
  have hN : cfg0.N = 16 := N_0
  have hlt : ∀ k, k < 4 → 4 * b.val + k < cfg0.N := fun k hk => by rw [hN]; have := b.isLt; omega
  have key := Cert.Lib.TileSum.running_total_last (K := 4) (Ideal.ofBits .f32 0x00000000#32)
    (fun k : Fin 4 => ∑ r : Fin 512, Cert.Spec.F (V c main_arg2) b ⟨k.val * 512 + r.val, Cert.Lib.TileSum.pos_lt k r⟩ q)
    (fun k hk => outsAt0 V c (4 * b.val + k) (hlt k hk) (ix3 (0 : Fin 1) (0 : Fin 1) q))
    (fun h0 => (outs_reset V c ⟨4 * b.val + 0, hlt 0 h0⟩ (by show (4 * b.val + 0) % 4 = 0; omega) q).trans
      (congrArg (Ideal.ofBits .f32 0x00000000#32 + ·) (tile_sum V c ⟨4 * b.val + 0, hlt 0 h0⟩ q b ⟨0, h0⟩ rfl)))
    (fun k hk => (outs_carry V c ⟨4 * b.val + (k + 1), hlt (k + 1) hk⟩ (by show ¬(4 * b.val + (k + 1)) % 4 = 0; omega) q).trans
      (congrArg (outsAt0 V c (4 * b.val + k) (hlt k (Nat.lt_of_succ_lt hk)) (ix3 (0 : Fin 1) (0 : Fin 1) q) + ·)
        (tile_sum V c ⟨4 * b.val + (k + 1), hlt (k + 1) hk⟩ q b ⟨k + 1, hk⟩ rfl)))
    3 rfl
  refine key.trans ?_
  unfold Cert.Spec.cs
  rw [Cert.Lib.TileSum.sum_tiles_of_eq (N := 2048) (K := 4) (T := 512) rfl (fun p => Cert.Spec.F (V c main_arg2) b p q),
    Ideal.ofBits_zero_f32, zero_add]

end Cert.KernelIdeal.Val0

end
-- ==== Proof.Val0Cs.lean ====
/-
  The result array of the column-sum pass, as one function of the mobility matrix.
-/
import proofs.«166416_j86079734546455_2_alg».proof.Proof.Gen.KernelIdeal
import proofs.«166416_j86079734546455_2_alg».proof.Proof.Spec
import Idealize.ShloMosaic.Lib.ValueIdx
set_option maxRecDepth 16384

noncomputable section

namespace Cert.KernelIdeal.Val0

open Cert.KernelIdeal Cert.KernelIdeal.Gen
open Idealize.ShloMosaic

open Idealize.ShloMosaic.ValueIdx

/-- Entry (b, 0, q) is the column sum of column q in batch b: everything that flows into region q. -/
def colsums (a2 : FVec Ideal Cert.Spec.A422 .f32) : S4x1x2048.Idx → EReal :=
  fun j => Cert.Spec.cs a2 (j 0) (j 2)

theorem colsums_apply (a2 : FVec Ideal Cert.Spec.A422 .f32) (b : Fin 4) (u : Fin 1) (q : Fin 2048) :
    colsums a2 (ix3 b u q) = Cert.Spec.cs a2 b q := rfl

end Cert.KernelIdeal.Val0

end
-- ==== Proof.Val0E.lean ====
/-
  The column-sum pass as a value, the result array: row b of the result holds the column sums of batch b.

  The block is written back only at a batch's last point, 4 b + 3, to block (b, 0, 0) of the result; what it
  then holds is the batch's column sums, and the four write-backs cover the result.
-/
import proofs.«166416_j86079734546455_2_alg».proof.Proof.Val0D
import proofs.«166416_j86079734546455_2_alg».proof.Proof.Val0Cs
set_option maxRecDepth 16384

noncomputable section

namespace Cert.KernelIdeal.Val0

open Cert.KernelIdeal Cert.KernelIdeal.Gen Cert.KernelIdeal.Hand
open Idealize.ShloMosaic Idealize.ShloMosaic.TcCoe Idealize.ShloMosaic.Tactic
open Idealize.SL.Sem
open Idealize.ShloMosaic.Pipeline (Dat)

open Idealize.ShloMosaic.ValueIdx
open scoped BigOperators

variable (V : (c : Dev nD) → (b : Ref sig .tc) → Buf (Elt Ideal) ((c : Thread nD τ).loc b))

theorem outsAt0_congr (c : Dev nD) (n n' : Nat) (h : n < cfg0.N) (h' : n' < cfg0.N) (e : n = n') :
    outsAt0 V c n h = outsAt0 V c n' h' := by subst e; rfl

/-- What a batch's last point writes back is its block of the column sums. -/
theorem flushed_eq (c : Dev nD) (t : Fin cfg0.N) (hf : (cfg0.win 1).flush t = true) :
    (dat0 V c).flushed 1 t = ((cfg0.win 1).blk t).view.read (Elt Ideal) (colsums (V c main_arg2)) := by
  have hN : cfg0.N = 16 := N_0
  have h3 : t.val % 4 = 3 := (flush0_1 t).mp hf
  have htl : t.val < 16 := lt_of_lt_of_eq t.isLt hN
  obtain ⟨-, -, -, -, e0, e1, e2⟩ := grid_facts t
  have hb : t.val / 4 < 4 := by omega
  show (cfg0.win 1).cut (grid0.coords t) ((dat0 V c).after 1 t) = _
  rw [after0_1]
  funext j
  obtain ⟨u, v, q, rfl⟩ : ∃ (u v : Fin 1) (q : Fin 2048), j = ix3 u v q :=
    ⟨j 0, j 1, j 2, eq_ix3 (n0 := 1) (n1 := 1) (n2 := 2048) j⟩
  obtain rfl : u = 0 := Subsingleton.elim _ _
  obtain rfl : v = 0 := Subsingleton.elim _ _
  rw [View.read_apply]
  have e : ((cfg0.win 1).blk t).view.emb (ix3 (0 : Fin 1) (0 : Fin 1) q) = ix3 (⟨t.val / 4, hb⟩ : Fin 4) (0 : Fin 1) q :=
    funext fun a => Fin.ext (match a with
      | ⟨0, _⟩ => (show win0_1.index t (0 : Fin 3) * 1 + 1 * 0 = t.val / 4 by omega)
      | ⟨1, _⟩ => (show win0_1.index t (1 : Fin 3) * 1 + 1 * 0 = 0 by omega)
      | ⟨2, _⟩ => (show win0_1.index t (2 : Fin 3) * 2048 + 1 * q.val = q.val by omega))
  rw [e]
  show outsAt0 V c t.val t.isLt (ix3 (0 : Fin 1) (0 : Fin 1) q) = Cert.Spec.cs (V c main_arg2) ⟨t.val / 4, hb⟩ q
  have hlast : 4 * (t.val / 4) + 3 < cfg0.N := lt_of_lt_of_eq (by omega : 4 * (t.val / 4) + 3 < 16) hN.symm
  rw [outsAt0_congr V c t.val (4 * (t.val / 4) + 3) t.isLt hlast (by omega)]
  exact outs_last V c ⟨t.val / 4, hb⟩ q hlast

/-- Every entry of the result lies in the block some batch's last point writes back. -/
theorem covered (i : S4x1x2048.Idx) :
    ∃ t : Fin cfg0.N, (cfg0.win 1).flush t = true ∧ i ∈ ((cfg0.win 1).blk t).view.set := by
  have hN : cfg0.N = 16 := N_0
  have h0 : (i 0).val < 4 := (i 0).isLt
  have h1 : (i 1).val < 1 := (i 1).isLt
  have h2 : (i 2).val < 2048 := (i 2).isLt
  have hlt : 4 * (i 0).val + 3 < cfg0.N := by rw [hN]; omega
  refine ⟨⟨4 * (i 0).val + 3, hlt⟩, (flush0_1 _).mpr (by show (4 * (i 0).val + 3) % 4 = 3; omega), ?_⟩
  obtain ⟨-, -, -, -, e0, e1, e2⟩ := grid_facts ⟨4 * (i 0).val + 3, hlt⟩
  have tv : (⟨4 * (i 0).val + 3, hlt⟩ : Fin cfg0.N).val = 4 * (i 0).val + 3 := rfl
  rw [tv] at e0
  show i ∈ ((View.whole main_v0).slice (win0_1.rect ⟨4 * (i 0).val + 3, hlt⟩)).set
  rw [View.set_slice_whole, Rect.mem_set_unit]
  intro a
  match a with
  | ⟨0, _⟩ => show win0_1.index ⟨4 * (i 0).val + 3, hlt⟩ (0 : Fin 3) * 1 ≤ (i 0).val ∧ (i 0).val < win0_1.index ⟨4 * (i 0).val + 3, hlt⟩ (0 : Fin 3) * 1 + 1; omega
  | ⟨1, _⟩ => show win0_1.index ⟨4 * (i 0).val + 3, hlt⟩ (1 : Fin 3) * 1 ≤ (i 1).val ∧ (i 1).val < win0_1.index ⟨4 * (i 0).val + 3, hlt⟩ (1 : Fin 3) * 1 + 1; omega
  | ⟨2, _⟩ => show win0_1.index ⟨4 * (i 0).val + 3, hlt⟩ (2 : Fin 3) * 2048 ≤ (i 2).val ∧ (i 2).val < win0_1.index ⟨4 * (i 0).val + 3, hlt⟩ (2 : Fin 3) * 2048 + 2048; omega

/-- THE RESULT ARRAY after the region, from any entry contents `V`: the column sums of the matrix as entered. -/
theorem colsum_final_of (c : Dev nD) : (dat0 V c).arrAt 1 cfg0.N = colsums (V c main_arg2) :=
  (dat0 V c).arrAt_eq_of_cover 1 (colsums (V c main_arg2)) (flushed_eq V c) covered

variable (m : (ℓ : Loc nD τ sig) → Buf (Elt Ideal) ℓ)

/-- THE RESULT ARRAY after the region, from the launch memory: entry (b, 0, q) is the sum over the rows i of the
    matrix without its diagonal at (b, i, q). -/
theorem colsum_final (c : Dev nD) :
    (dat0 (F := Ideal) (V0r m) c).arrAt 1 cfg0.N
      = fun j => Cert.Spec.cs (m ((c : Thread nD τ).loc main_arg2)) (j 0) (j 2) :=
  colsum_final_of (V0r m) c

end Cert.KernelIdeal.Val0

end
-- ==== Proof.Val0F.lean ====
/-
  The host operations between the two regions, read at an index over the extended reals.

  The host sums an array of shape [4, 2048, 1] over its middle axis starting from the zero word: entry (b, 0)
  of the result is the plain sum of the 2048 entries (b, p, 0). The transposed column sums summed this way give
  the total flow of a batch (the sum over rows and columns in the other order); the populations (S + I) + R
  summed this way give the population of the batch; their quotient is the mobility rate.
-/
import proofs.«166416_j86079734546455_2_alg».proof.Proof.Gen.KernelIdeal.Launch
import proofs.«166416_j86079734546455_2_alg».proof.Proof.Spec
import proofs.«166416_j86079734546455_2_alg».proof.Proof.Val0Cs
import Idealize.ShloMosaic.PureOps.Ideal.Laws
import Idealize.ShloMosaic.Lib.ValueIdx
import Idealize.ShloMosaic.Lib.ValueLayout
import Idealize.ShloMosaic.Lib.Pipeline.Value
set_option maxRecDepth 16384

noncomputable section

namespace Cert.KernelIdeal.Val0

open Cert.KernelIdeal Cert.KernelIdeal.Gen
open Idealize.ShloMosaic Idealize.ShloMosaic.TcCoe Idealize.ShloMosaic.Tactic
open Idealize.SL.Sem
open Idealize.ShloMosaic.Pipeline (Dat)

open Idealize.ShloMosaic.ValueIdx
open scoped BigOperators

/-- The host's sum over the middle axis from the zero word, at (b, 0): the sum of the entries (b, p, 0). -/
theorem hostSum_apply (x : FVec Ideal S4x2048x1 .f32) (b : Fin 4) :
    Host.reduceAdd (F := Ideal) x (constant (F := Ideal) S_ .f32 0x00000000#32) reducesTo_S4x2048x1_S4x1_d1 h_S_ (ix2 b (0 : Fin 1))
      = ∑ p : Fin 2048, x (ix3 b p (0 : Fin 1)) := by
  simp only [Host.reduceAdd, Ideal.hostReduceAdd_def]
  rw [Ideal.hostReduceAdd_single reducesTo_S4x2048x1_S4x1_d1 (by decide)]
  rw [constant_apply, Ideal.ofBits_zero_f32, zero_add]
  refine Finset.sum_congr rfl fun (p : Fin 2048) _ => ?_
  exact congrArg x (funext fun a => Fin.ext (by match a with | ⟨0, _⟩ => rfl | ⟨1, _⟩ => rfl | ⟨2, _⟩ => rfl))

/-- The transposed column sums at (b, p, 0): the column sum of column p. -/
theorem transposed_apply (a2 : FVec Ideal Cert.Spec.A422 .f32) (b : Fin 4) (p : Fin 2048) :
    transpose S4x2048x1 [0, 2, 1] (colsums a2) transposes_S4x1x2048_S4x2048x1_0_2_1 (ix3 b p (0 : Fin 1))
      = Cert.Spec.cs a2 b p :=
  (transpose_ix3_021_apply (colsums a2) transposes_S4x1x2048_S4x2048x1_0_2_1 b p (0 : Fin 1)).trans (colsums_apply a2 b 0 p)

/-- Column k of the compartments' array, sliced out, at (b, p, 0). -/
theorem slice_apply (a3 : FVec Ideal S4x2048x4 .f32) (k : Fin 4) (h : S4x2048x4.Slices ![0, 0, k.val] S4x2048x1)
    (b : Fin 4) (p : Fin 2048) :
    extractStridedSlice S4x2048x1 ![0, 0, k.val] a3 h (ix3 b p (0 : Fin 1)) = a3 (ix3 b p k) :=
  extractStridedSlice_apply _ a3 h _ (ix3 b p k) fun a => match a with
    | ⟨0, _⟩ => (Nat.zero_add _).symm
    | ⟨1, _⟩ => (Nat.zero_add _).symm
    | ⟨2, _⟩ => rfl

/-- THE MOBILITY RATE as the host computes it from the column sums and the compartments, at (b, 0, 0). -/
theorem rate_apply (a2 : FVec Ideal Cert.Spec.A422 .f32) (a3 : FVec Ideal S4x2048x4 .f32) (b : Fin 4) :
    broadcastInDim S4x1x1 ![0, 1] bcast_S4x1_S4x1x1_0_1
      (Host.divf (F := Ideal)
        (Host.reduceAdd (F := Ideal)
          (transpose S4x2048x1 [0, 2, 1] (colsums a2) transposes_S4x1x2048_S4x2048x1_0_2_1)
          (constant (F := Ideal) S_ .f32 0x00000000#32) reducesTo_S4x2048x1_S4x1_d1 h_S_)
        (Host.reduceAdd (F := Ideal)
          (addf
            (addf
              (extractStridedSlice S4x2048x1 ![0, 0, 0] a3 slices_S4x2048x4_S4x2048x1_0_0_0)
              (extractStridedSlice S4x2048x1 ![0, 0, 1] a3 slices_S4x2048x4_S4x2048x1_0_0_1))
            (extractStridedSlice S4x2048x1 ![0, 0, 2] a3 slices_S4x2048x4_S4x2048x1_0_0_2))
          (constant (F := Ideal) S_ .f32 0x00000000#32) reducesTo_S4x2048x1_S4x1_d1 h_S_))
      (ix3 b (0 : Fin 1) (0 : Fin 1))
      = Cert.Spec.mm a2 a3 b := by
  refine (broadcastInDim_apply _ bcast_S4x1_S4x1x1_0_1 _ (ix3 b (0 : Fin 1) (0 : Fin 1)) (ix2 b (0 : Fin 1)) (fun a => match a with
    | ⟨0, _⟩ => by show b.val = if (4 : Nat) = 1 then 0 else b.val; rw [if_neg (by decide)]
    | ⟨1, _⟩ => by show 0 = if (1 : Nat) = 1 then 0 else (0 : Fin 1).val; rw [if_pos rfl])).trans ?_
  unfold Cert.Spec.mm
  refine congrArg₂ Ideal.div ?_ ?_
  · refine (hostSum_apply _ b).trans ?_
    unfold Cert.Spec.fai
    rw [Finset.sum_comm]
    exact Finset.sum_congr rfl fun p _ => transposed_apply a2 b p
  · refine (hostSum_apply _ b).trans ?_
    unfold Cert.Spec.tau
    refine Finset.sum_congr rfl fun p _ => ?_
    unfold Cert.Spec.pop Cert.Spec.Sv Cert.Spec.Iv Cert.Spec.Rv
    refine (addf_apply _ _ _).trans (congrArg₂ (· + ·) ((addf_apply _ _ _).trans (congrArg₂ (· + ·) ?_ ?_)) ?_)
    · exact slice_apply a3 0 slices_S4x2048x4_S4x2048x1_0_0_0 b p
    · exact slice_apply a3 1 slices_S4x2048x4_S4x2048x1_0_0_1 b p
    · exact slice_apply a3 2 slices_S4x2048x4_S4x2048x1_0_0_2 b p

end Cert.KernelIdeal.Val0

end
-- ==== Proof.Val0G.lean ====
/-
  What the main region finds: the buffers after the column-sum pass and the twelve host operations.

  The transposed column sums hold, at (b, p, 0), the column sum of column p of batch b; the rate array holds, at
  (b, 0, 0), the batch's total flow over its total population; the seven arguments are as at launch, since the
  first region writes only its result and the host operations write only their own results.
-/
import proofs.«166416_j86079734546455_2_alg».proof.Proof.Val0E
import proofs.«166416_j86079734546455_2_alg».proof.Proof.Val0F
import Idealize.ShloMosaic.Lib.StableHlo.Run
set_option maxRecDepth 16384

noncomputable section

namespace Cert.KernelIdeal.Val0

open Cert.KernelIdeal Cert.KernelIdeal.Gen Cert.KernelIdeal.Hand
open Idealize.ShloMosaic Idealize.ShloMosaic.TcCoe Idealize.ShloMosaic.Tactic
open Idealize.SL.Sem
open Idealize.ShloMosaic.Pipeline (Dat)

open Idealize.ShloMosaic.ValueIdx Idealize.ShloMosaic.StableHlo
open scoped BigOperators

variable (m : (ℓ : Loc nD τ sig) → Buf (Elt Ideal) ℓ)

/-- After the first region the result array holds the column sums of the matrix at launch. -/
theorem W1_v0 (c : Dev nD) :
    W1 m c (Proc.devRef .tc main_v0) = colsums (m ((c : Thread nD τ).loc main_arg2)) :=
  (W1_arr m c 1).trans (colsum_final_of (V0r m) c)

/-- The transposed column sums, as the main region finds them. -/
theorem W2_v1 (c : Dev nD) (b : Fin 4) (p : Fin 2048) :
    W2 m c (Proc.devRef .tc main_v1) (ix3 b p (0 : Fin 1)) = Cert.Spec.cs (m ((c : Thread nD τ).loc main_arg2)) b p := by
  show StableHlo.after hostOps1 (W1 m c) (Proc.devRef .tc main_v1) (ix3 b p (0 : Fin 1)) = _
  after_results
  rw [W1_v0]
  exact transposed_apply (m ((c : Thread nD τ).loc main_arg2)) b p

/-- The mobility rate, as the main region finds it. -/
theorem W2_v10 (c : Dev nD) (b : Fin 4) :
    W2 m c (Proc.devRef .tc main_v10) (ix3 b (0 : Fin 1) (0 : Fin 1))
      = Cert.Spec.mm (m ((c : Thread nD τ).loc main_arg2)) (m ((c : Thread nD τ).loc main_arg3)) b := by
  show StableHlo.after hostOps1 (W1 m c) (Proc.devRef .tc main_v10) (ix3 b (0 : Fin 1) (0 : Fin 1)) = _
  after_results
  rw [W1_v0, show W1 m c (Proc.devRef .tc main_arg3) = m ((c : Thread nD τ).loc main_arg3) from W1_of_ne m c main_arg3 (by decide)]
  exact rate_apply (m ((c : Thread nD τ).loc main_arg2)) (m ((c : Thread nD τ).loc main_arg3)) b

/-! The arguments are as at launch. -/

theorem W2_arg0 (c : Dev nD) : W2 m c (Proc.devRef .tc main_arg0) = m ((c : Thread nD τ).loc main_arg0) :=
  (StableHlo.after_of_writes_sub hostOps1 _ hostOps1_writes (by decide)).trans (W1_of_ne m c main_arg0 (by decide))
theorem W2_arg1 (c : Dev nD) : W2 m c (Proc.devRef .tc main_arg1) = m ((c : Thread nD τ).loc main_arg1) :=
  (StableHlo.after_of_writes_sub hostOps1 _ hostOps1_writes (by decide)).trans (W1_of_ne m c main_arg1 (by decide))
/-- The matrix is the first region's input window: an input array is never written. -/
theorem W2_arg2 (c : Dev nD) : W2 m c (Proc.devRef .tc main_arg2) = m ((c : Thread nD τ).loc main_arg2) :=
  (StableHlo.after_of_writes_sub hostOps1 _ hostOps1_writes (by decide)).trans
    ((W1_arr m c 0).trans ((dat0 (V0r m) c).arrAt_in 0 rfl _))
theorem W2_arg3 (c : Dev nD) : W2 m c (Proc.devRef .tc main_arg3) = m ((c : Thread nD τ).loc main_arg3) :=
  (StableHlo.after_of_writes_sub hostOps1 _ hostOps1_writes (by decide)).trans (W1_of_ne m c main_arg3 (by decide))
theorem W2_arg4 (c : Dev nD) : W2 m c (Proc.devRef .tc main_arg4) = m ((c : Thread nD τ).loc main_arg4) :=
  (StableHlo.after_of_writes_sub hostOps1 _ hostOps1_writes (by decide)).trans (W1_of_ne m c main_arg4 (by decide))
theorem W2_arg5 (c : Dev nD) : W2 m c (Proc.devRef .tc main_arg5) = m ((c : Thread nD τ).loc main_arg5) :=
  (StableHlo.after_of_writes_sub hostOps1 _ hostOps1_writes (by decide)).trans (W1_of_ne m c main_arg5 (by decide))
theorem W2_arg6 (c : Dev nD) : W2 m c (Proc.devRef .tc main_arg6) = m ((c : Thread nD τ).loc main_arg6) :=
  (StableHlo.after_of_writes_sub hostOps1 _ hostOps1_writes (by decide)).trans (W1_of_ne m c main_arg6 (by decide))

end Cert.KernelIdeal.Val0

end
-- ==== Proof.Val1Idx.lean ====
/-
  The main region at the ideal instance: where a point's blocks sit in their arrays.

  The grid is 4 batches by 8 row tiles of 256 rows, row-major: point t is batch t / 8, tile t % 8. Every
  row-tiled window's block at t is rows 256 (t % 8) .. of batch t / 8; the whole-batch windows (the SIR
  array read whole, the mobility rate) sit at batch t / 8; the birth and death columns at tile t % 8.
-/
import proofs.«166416_j86079734546455_2_alg».proof.Proof.Reg1
import Idealize.ShloMosaic.Lib.Pipeline.Value
import Idealize.ShloMosaic.Lib.ValueIdx

set_option maxRecDepth 16384

noncomputable section

namespace Cert.KernelIdeal.Val1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-- The tile coordinate and the printed index maps, decided over the 32 grid points. -/
theorem coord1 : ∀ t : Fin cfg1.N, ((grid1.coords t) 1).val = t.val % 8 :=
  (by decide +kernel : ∀ t : Fin grid1.N, _)
theorem idxw0 : ∀ t : Fin cfg1.N, win1_0.index t (0 : Fin 3) = t.val / 8 ∧ win1_0.index t (1 : Fin 3) = t.val % 8 ∧ win1_0.index t (2 : Fin 3) = 0 :=
  (by decide +kernel : ∀ t : Fin grid1.N, _)
theorem idxw1 : ∀ t : Fin cfg1.N, win1_1.index t (0 : Fin 3) = t.val / 8 ∧ win1_1.index t (1 : Fin 3) = t.val % 8 ∧ win1_1.index t (2 : Fin 3) = 0 :=
  (by decide +kernel : ∀ t : Fin grid1.N, _)
theorem idxw2 : ∀ t : Fin cfg1.N, win1_2.index t (0 : Fin 3) = t.val / 8 ∧ win1_2.index t (1 : Fin 3) = t.val % 8 ∧ win1_2.index t (2 : Fin 3) = 0 :=
  (by decide +kernel : ∀ t : Fin grid1.N, _)
theorem idxw3 : ∀ t : Fin cfg1.N, win1_3.index t (0 : Fin 3) = t.val / 8 ∧ win1_3.index t (1 : Fin 3) = 0 ∧ win1_3.index t (2 : Fin 3) = 0 :=
  (by decide +kernel : ∀ t : Fin grid1.N, _)
theorem idxw4 : ∀ t : Fin cfg1.N, win1_4.index t (0 : Fin 3) = t.val / 8 ∧ win1_4.index t (1 : Fin 3) = t.val % 8 ∧ win1_4.index t (2 : Fin 3) = 0 :=
  (by decide +kernel : ∀ t : Fin grid1.N, _)
theorem idxw5 : ∀ t : Fin cfg1.N, win1_5.index t (0 : Fin 3) = t.val / 8 ∧ win1_5.index t (1 : Fin 3) = t.val % 8 ∧ win1_5.index t (2 : Fin 3) = 0 :=
  (by decide +kernel : ∀ t : Fin grid1.N, _)
theorem idxw6 : ∀ t : Fin cfg1.N, win1_6.index t (0 : Fin 3) = t.val / 8 ∧ win1_6.index t (1 : Fin 3) = t.val % 8 ∧ win1_6.index t (2 : Fin 3) = 0 :=
  (by decide +kernel : ∀ t : Fin grid1.N, _)
theorem idxw7 : ∀ t : Fin cfg1.N, win1_7.index t (0 : Fin 2) = t.val % 8 ∧ win1_7.index t (1 : Fin 2) = 0 :=
  (by decide +kernel : ∀ t : Fin grid1.N, _)
theorem idxw8 : ∀ t : Fin cfg1.N, win1_8.index t (0 : Fin 2) = t.val % 8 ∧ win1_8.index t (1 : Fin 2) = 0 :=
  (by decide +kernel : ∀ t : Fin grid1.N, _)
theorem idxw9 : ∀ t : Fin cfg1.N, win1_9.index t (0 : Fin 3) = t.val / 8 ∧ win1_9.index t (1 : Fin 3) = 0 ∧ win1_9.index t (2 : Fin 3) = 0 :=
  (by decide +kernel : ∀ t : Fin grid1.N, _)
theorem idxw10 : ∀ t : Fin cfg1.N, win1_10.index t (0 : Fin 3) = t.val / 8 ∧ win1_10.index t (1 : Fin 3) = t.val % 8 ∧ win1_10.index t (2 : Fin 3) = 0 :=
  (by decide +kernel : ∀ t : Fin grid1.N, _)
theorem idxw11 : ∀ t : Fin cfg1.N, win1_11.index t (0 : Fin 3) = t.val / 8 ∧ win1_11.index t (1 : Fin 3) = t.val % 8 ∧ win1_11.index t (2 : Fin 3) = 0 :=
  (by decide +kernel : ∀ t : Fin grid1.N, _)
theorem idxw12 : ∀ t : Fin cfg1.N, win1_12.index t (0 : Fin 3) = t.val / 8 ∧ win1_12.index t (1 : Fin 3) = t.val % 8 ∧ win1_12.index t (2 : Fin 3) = 0 :=
  (by decide +kernel : ∀ t : Fin grid1.N, _)
theorem idxw13 : ∀ t : Fin cfg1.N, win1_13.index t (0 : Fin 3) = t.val / 8 ∧ win1_13.index t (1 : Fin 3) = t.val % 8 ∧ win1_13.index t (2 : Fin 3) = 0 :=
  (by decide +kernel : ∀ t : Fin grid1.N, _)

theorem N1 : cfg1.N = 32 := N_1

/-- The batch of a point, and the matrix row of a tile row at a point. -/
theorem t_lt (t : Fin cfg1.N) : t.val < 32 := lt_of_lt_of_eq t.isLt N1

def bOf (t : Fin cfg1.N) : Fin 4 := ⟨t.val / 8, by have := t_lt t; omega⟩
def iOf (t : Fin cfg1.N) : Fin 8 := ⟨t.val % 8, by omega⟩
def pOf (t : Fin cfg1.N) (r : Fin 256) : Fin 2048 := ⟨256 * (t.val % 8) + r.val, by have := r.isLt; omega⟩

theorem coord1_lt (t : Fin cfg1.N) : ((grid1.coords t) 1).val < 8 := by rw [coord1]; omega

end Cert.KernelIdeal.Val1

end
-- ==== Proof.Val1Rd.lean ====
/-
  The main region at the ideal instance: each window's block entry is an entry of its array.

  Entry (0, r, k) of a row-tiled block at point t is entry (t / 8, 256 (t % 8) + r, k) of the array; the
  whole-batch SIR block's entry (0, j, k) is entry (t / 8, j, k); the rate block's one entry is entry
  (t / 8, 0, 0); entry (r, 0) of a birth or death block is entry (256 (t % 8) + r, 0).
-/
import proofs.«166416_j86079734546455_2_alg».proof.Proof.Val1Idx

set_option maxRecDepth 16384

noncomputable section

namespace Cert.KernelIdeal.Val1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

theorem emb0 (t : Fin cfg1.N) (r : Fin 256) (k : Fin 2048) :
    ((cfg1.win 0).blk t).view.emb (ix3 (0 : Fin 1) r k) = ix3 (bOf t) (pOf t r) k := by
  obtain ⟨e0, e1, e2⟩ := idxw0 t
  funext a; apply Fin.ext
  match a with
  | ⟨0, _⟩ => show win1_0.index t (0 : Fin 3) * 1 + 1 * 0 = t.val / 8; omega
  | ⟨1, _⟩ => show win1_0.index t (1 : Fin 3) * 256 + 1 * r.val = 256 * (t.val % 8) + r.val; omega
  | ⟨2, _⟩ => show win1_0.index t (2 : Fin 3) * 2048 + 1 * k.val = k.val; omega
theorem emb1 (t : Fin cfg1.N) (r : Fin 256) (k : Fin 2048) :
    ((cfg1.win 1).blk t).view.emb (ix3 (0 : Fin 1) r k) = ix3 (bOf t) (pOf t r) k := by
  obtain ⟨e0, e1, e2⟩ := idxw1 t
  funext a; apply Fin.ext
  match a with
  | ⟨0, _⟩ => show win1_1.index t (0 : Fin 3) * 1 + 1 * 0 = t.val / 8; omega
  | ⟨1, _⟩ => show win1_1.index t (1 : Fin 3) * 256 + 1 * r.val = 256 * (t.val % 8) + r.val; omega
  | ⟨2, _⟩ => show win1_1.index t (2 : Fin 3) * 2048 + 1 * k.val = k.val; omega
theorem emb2 (t : Fin cfg1.N) (r : Fin 256) (k : Fin 1) :
    ((cfg1.win 2).blk t).view.emb (ix3 (0 : Fin 1) r k) = ix3 (bOf t) (pOf t r) k := by
  obtain ⟨e0, e1, e2⟩ := idxw2 t
  funext a; apply Fin.ext
  match a with
  | ⟨0, _⟩ => show win1_2.index t (0 : Fin 3) * 1 + 1 * 0 = t.val / 8; omega
  | ⟨1, _⟩ => show win1_2.index t (1 : Fin 3) * 256 + 1 * r.val = 256 * (t.val % 8) + r.val; omega
  | ⟨2, _⟩ => show win1_2.index t (2 : Fin 3) * 1 + 1 * k.val = k.val; omega
theorem emb4 (t : Fin cfg1.N) (r : Fin 256) (k : Fin 4) :
    ((cfg1.win 4).blk t).view.emb (ix3 (0 : Fin 1) r k) = ix3 (bOf t) (pOf t r) k := by
  obtain ⟨e0, e1, e2⟩ := idxw4 t
  funext a; apply Fin.ext
  match a with
  | ⟨0, _⟩ => show win1_4.index t (0 : Fin 3) * 1 + 1 * 0 = t.val / 8; omega
  | ⟨1, _⟩ => show win1_4.index t (1 : Fin 3) * 256 + 1 * r.val = 256 * (t.val % 8) + r.val; omega
  | ⟨2, _⟩ => show win1_4.index t (2 : Fin 3) * 4 + 1 * k.val = k.val; omega
theorem emb5 (t : Fin cfg1.N) (r : Fin 256) (k : Fin 1) :
    ((cfg1.win 5).blk t).view.emb (ix3 (0 : Fin 1) r k) = ix3 (bOf t) (pOf t r) k := by
  obtain ⟨e0, e1, e2⟩ := idxw5 t
  funext a; apply Fin.ext
  match a with
  | ⟨0, _⟩ => show win1_5.index t (0 : Fin 3) * 1 + 1 * 0 = t.val / 8; omega
  | ⟨1, _⟩ => show win1_5.index t (1 : Fin 3) * 256 + 1 * r.val = 256 * (t.val % 8) + r.val; omega
  | ⟨2, _⟩ => show win1_5.index t (2 : Fin 3) * 1 + 1 * k.val = k.val; omega
theorem emb6 (t : Fin cfg1.N) (r : Fin 256) (k : Fin 1) :
    ((cfg1.win 6).blk t).view.emb (ix3 (0 : Fin 1) r k) = ix3 (bOf t) (pOf t r) k := by
  obtain ⟨e0, e1, e2⟩ := idxw6 t
  funext a; apply Fin.ext
  match a with
  | ⟨0, _⟩ => show win1_6.index t (0 : Fin 3) * 1 + 1 * 0 = t.val / 8; omega
  | ⟨1, _⟩ => show win1_6.index t (1 : Fin 3) * 256 + 1 * r.val = 256 * (t.val % 8) + r.val; omega
  | ⟨2, _⟩ => show win1_6.index t (2 : Fin 3) * 1 + 1 * k.val = k.val; omega
theorem emb10 (t : Fin cfg1.N) (r : Fin 256) (k : Fin 6) :
    ((cfg1.win 10).blk t).view.emb (ix3 (0 : Fin 1) r k) = ix3 (bOf t) (pOf t r) k := by
  obtain ⟨e0, e1, e2⟩ := idxw10 t
  funext a; apply Fin.ext
  match a with
  | ⟨0, _⟩ => show win1_10.index t (0 : Fin 3) * 1 + 1 * 0 = t.val / 8; omega
  | ⟨1, _⟩ => show win1_10.index t (1 : Fin 3) * 256 + 1 * r.val = 256 * (t.val % 8) + r.val; omega
  | ⟨2, _⟩ => show win1_10.index t (2 : Fin 3) * 6 + 1 * k.val = k.val; omega
theorem emb11 (t : Fin cfg1.N) (r : Fin 256) (k : Fin 4) :
    ((cfg1.win 11).blk t).view.emb (ix3 (0 : Fin 1) r k) = ix3 (bOf t) (pOf t r) k := by
  obtain ⟨e0, e1, e2⟩ := idxw11 t
  funext a; apply Fin.ext
  match a with
  | ⟨0, _⟩ => show win1_11.index t (0 : Fin 3) * 1 + 1 * 0 = t.val / 8; omega
  | ⟨1, _⟩ => show win1_11.index t (1 : Fin 3) * 256 + 1 * r.val = 256 * (t.val % 8) + r.val; omega
  | ⟨2, _⟩ => show win1_11.index t (2 : Fin 3) * 4 + 1 * k.val = k.val; omega
theorem emb12 (t : Fin cfg1.N) (r : Fin 256) (k : Fin 2048) :
    ((cfg1.win 12).blk t).view.emb (ix3 (0 : Fin 1) r k) = ix3 (bOf t) (pOf t r) k := by
  obtain ⟨e0, e1, e2⟩ := idxw12 t
  funext a; apply Fin.ext
  match a with
  | ⟨0, _⟩ => show win1_12.index t (0 : Fin 3) * 1 + 1 * 0 = t.val / 8; omega
  | ⟨1, _⟩ => show win1_12.index t (1 : Fin 3) * 256 + 1 * r.val = 256 * (t.val % 8) + r.val; omega
  | ⟨2, _⟩ => show win1_12.index t (2 : Fin 3) * 2048 + 1 * k.val = k.val; omega
theorem emb13 (t : Fin cfg1.N) (r : Fin 256) (k : Fin 2048) :
    ((cfg1.win 13).blk t).view.emb (ix3 (0 : Fin 1) r k) = ix3 (bOf t) (pOf t r) k := by
  obtain ⟨e0, e1, e2⟩ := idxw13 t
  funext a; apply Fin.ext
  match a with
  | ⟨0, _⟩ => show win1_13.index t (0 : Fin 3) * 1 + 1 * 0 = t.val / 8; omega
  | ⟨1, _⟩ => show win1_13.index t (1 : Fin 3) * 256 + 1 * r.val = 256 * (t.val % 8) + r.val; omega
  | ⟨2, _⟩ => show win1_13.index t (2 : Fin 3) * 2048 + 1 * k.val = k.val; omega
theorem emb3 (t : Fin cfg1.N) (j : Fin 2048) (k : Fin 4) :
    ((cfg1.win 3).blk t).view.emb (ix3 (0 : Fin 1) j k) = ix3 (bOf t) j k := by
  obtain ⟨e0, e1, e2⟩ := idxw3 t
  funext a; apply Fin.ext
  match a with
  | ⟨0, _⟩ => show win1_3.index t (0 : Fin 3) * 1 + 1 * 0 = t.val / 8; omega
  | ⟨1, _⟩ => show win1_3.index t (1 : Fin 3) * 2048 + 1 * j.val = j.val; omega
  | ⟨2, _⟩ => show win1_3.index t (2 : Fin 3) * 4 + 1 * k.val = k.val; omega
theorem emb9 (t : Fin cfg1.N) :
    ((cfg1.win 9).blk t).view.emb (ix3 (0 : Fin 1) (0 : Fin 1) (0 : Fin 1)) = ix3 (bOf t) (0 : Fin 1) (0 : Fin 1) := by
  obtain ⟨e0, e1, e2⟩ := idxw9 t
  funext a; apply Fin.ext
  match a with
  | ⟨0, _⟩ => show win1_9.index t (0 : Fin 3) * 1 + 1 * 0 = t.val / 8; omega
  | ⟨1, _⟩ => show win1_9.index t (1 : Fin 3) * 1 + 1 * 0 = 0; omega
  | ⟨2, _⟩ => show win1_9.index t (2 : Fin 3) * 1 + 1 * 0 = 0; omega
theorem emb7 (t : Fin cfg1.N) (r : Fin 256) :
    ((cfg1.win 7).blk t).view.emb (ix2 r (0 : Fin 1)) = ix2 (pOf t r) (0 : Fin 1) := by
  obtain ⟨e0, e1⟩ := idxw7 t
  funext a; apply Fin.ext
  match a with
  | ⟨0, _⟩ => show win1_7.index t (0 : Fin 2) * 256 + 1 * r.val = 256 * (t.val % 8) + r.val; omega
  | ⟨1, _⟩ => show win1_7.index t (1 : Fin 2) * 1 + 1 * 0 = 0; omega
theorem emb8 (t : Fin cfg1.N) (r : Fin 256) :
    ((cfg1.win 8).blk t).view.emb (ix2 r (0 : Fin 1)) = ix2 (pOf t r) (0 : Fin 1) := by
  obtain ⟨e0, e1⟩ := idxw8 t
  funext a; apply Fin.ext
  match a with
  | ⟨0, _⟩ => show win1_8.index t (0 : Fin 2) * 256 + 1 * r.val = 256 * (t.val % 8) + r.val; omega
  | ⟨1, _⟩ => show win1_8.index t (1 : Fin 2) * 1 + 1 * 0 = 0; omega

variable (V : (c : Dev nD) → (b : Ref sig .tc) → Buf (Elt Ideal) ((c : Thread nD τ).loc b))

theorem rd0 (c : Dev nD) (t : Fin cfg1.N) (r : Fin 256) (k : Fin 2048) :
    iblk1 V c 0 t (ix3 (0 : Fin 1) r k) = V c main_arg2 (ix3 (bOf t) (pOf t r) k) := by
  unfold iblk1; rw [View.read_apply, emb0]; rfl
theorem rd1 (c : Dev nD) (t : Fin cfg1.N) (r : Fin 256) (k : Fin 2048) :
    iblk1 V c 1 t (ix3 (0 : Fin 1) r k) = V c main_arg4 (ix3 (bOf t) (pOf t r) k) := by
  unfold iblk1; rw [View.read_apply, emb1]; rfl
theorem rd2 (c : Dev nD) (t : Fin cfg1.N) (r : Fin 256) (k : Fin 1) :
    iblk1 V c 2 t (ix3 (0 : Fin 1) r k) = V c main_v1 (ix3 (bOf t) (pOf t r) k) := by
  unfold iblk1; rw [View.read_apply, emb2]; rfl
theorem rd4 (c : Dev nD) (t : Fin cfg1.N) (r : Fin 256) (k : Fin 4) :
    iblk1 V c 4 t (ix3 (0 : Fin 1) r k) = V c main_arg3 (ix3 (bOf t) (pOf t r) k) := by
  unfold iblk1; rw [View.read_apply, emb4]; rfl
theorem rd5 (c : Dev nD) (t : Fin cfg1.N) (r : Fin 256) (k : Fin 1) :
    iblk1 V c 5 t (ix3 (0 : Fin 1) r k) = V c main_arg0 (ix3 (bOf t) (pOf t r) k) := by
  unfold iblk1; rw [View.read_apply, emb5]; rfl
theorem rd6 (c : Dev nD) (t : Fin cfg1.N) (r : Fin 256) (k : Fin 1) :
    iblk1 V c 6 t (ix3 (0 : Fin 1) r k) = V c main_arg1 (ix3 (bOf t) (pOf t r) k) := by
  unfold iblk1; rw [View.read_apply, emb6]; rfl
theorem rd3 (c : Dev nD) (t : Fin cfg1.N) (j : Fin 2048) (k : Fin 4) :
    iblk1 V c 3 t (ix3 (0 : Fin 1) j k) = V c main_arg3 (ix3 (bOf t) j k) := by
  unfold iblk1; rw [View.read_apply, emb3]; rfl
theorem rd9 (c : Dev nD) (t : Fin cfg1.N) :
    iblk1 V c 9 t (ix3 (0 : Fin 1) (0 : Fin 1) (0 : Fin 1)) = V c main_v10 (ix3 (bOf t) (0 : Fin 1) (0 : Fin 1)) := by
  unfold iblk1; rw [View.read_apply, emb9]; rfl
theorem rd7 (c : Dev nD) (t : Fin cfg1.N) (r : Fin 256) :
    iblk1 V c 7 t (ix2 r (0 : Fin 1)) = V c main_arg5 (ix2 (pOf t r) (0 : Fin 1)) := by
  unfold iblk1; rw [View.read_apply, emb7]; rfl
theorem rd8 (c : Dev nD) (t : Fin cfg1.N) (r : Fin 256) :
    iblk1 V c 8 t (ix2 r (0 : Fin 1)) = V c main_arg6 (ix2 (pOf t r) (0 : Fin 1)) := by
  unfold iblk1; rw [View.read_apply, emb8]; rfl

end Cert.KernelIdeal.Val1

end
-- ==== Proof.Val1Rows.lean ====
/-
  The main region's body at the ideal instance, read entry by entry: the per-row quantities.

  For a row r of the point's 256-row tile the body computes, from the row's entries of the SIR tile
  (S, I, R, the running total), of the rate and contact columns, of the birth and death columns and from
  the batch's mobility rate m: the population (S + I) + R, the new infections ((S / pop) b) c I, and the
  updated S, I, R and total, each update ending with the row's flux entry added. Every step here is the
  same extended-real operation, in the same order, as the printed body's.
-/
import proofs.«166416_j86079734546455_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val1

open Cert.KernelIdeal Cert.KernelIdeal.Gen
open Idealize.ShloMosaic Idealize.ShloMosaic.ValueIdx

/-- The three literals of the body, as extended reals (never evaluated: the same words stand on both sides). -/
abbrev zW : EReal := Ideal.ofBits .f32 0x00000000#32
abbrev gW : EReal := Ideal.ofBits .f32 0x3E000000#32
abbrev vdW : EReal := Ideal.ofBits .f32 0x38A7C5AC#32

/-- The batch's mobility rate, as the body reads it from its 1 x 1 x 1 block. -/
theorem pay8_apply (x9 : Vec Ideal S1x1x1 .f32) : k1_pay8 x9 (ix2 (0 : Fin 1) (0 : Fin 1)) = x9 (ix3 (0 : Fin 1) (0 : Fin 1) (0 : Fin 1)) := by
  unfold k1_pay8
  exact shapeCast_1ab_ab_apply x9 _ 0 0

/-- The SIR tile with its leading unit axis dropped. -/
theorem pay13_apply (x4 : Vec Ideal S1x256x4 .f32) (r : Fin 256) (k : Fin 4) : k1_pay13 x4 (ix2 r k) = x4 (ix3 (0 : Fin 1) r k) := by
  unfold k1_pay13
  exact shapeCast_1ab_ab_apply x4 _ r k

theorem pay14_apply (x4 : Vec Ideal S1x256x4 .f32) (r : Fin 256) : k1_pay14 x4 (ix2 r (0 : Fin 1)) = x4 (ix3 (0 : Fin 1) r (0 : Fin 4)) := by
  unfold k1_pay14
  exact (slice2_axis1_apply 0 (k1_pay13 x4) _ r 0 (0 : Fin 4) rfl).trans (pay13_apply x4 r 0)

theorem pay15_apply (x4 : Vec Ideal S1x256x4 .f32) (r : Fin 256) : k1_pay15 x4 (ix2 r (0 : Fin 1)) = x4 (ix3 (0 : Fin 1) r (1 : Fin 4)) := by
  unfold k1_pay15
  exact (slice2_axis1_apply 1 (k1_pay13 x4) _ r 0 (1 : Fin 4) rfl).trans (pay13_apply x4 r 1)

theorem pay16_apply (v33 : FVec Ideal S256x4 .f32) (r : Fin 256) : k1_pay16 v33 (ix2 r (0 : Fin 1)) = v33 (ix2 r (2 : Fin 4)) := by
  unfold k1_pay16
  exact slice2_axis1_apply 2 v33 _ r 0 (2 : Fin 4) rfl

theorem pay18_apply (x5 : Vec Ideal S1x256x1 .f32) (r : Fin 256) : k1_pay18 x5 (ix2 r (0 : Fin 1)) = x5 (ix3 (0 : Fin 1) r (0 : Fin 1)) := by
  unfold k1_pay18
  exact shapeCast_1ab_ab_apply x5 _ r 0

theorem pay19_apply (x6 : Vec Ideal S1x256x1 .f32) (r : Fin 256) : k1_pay19 x6 (ix2 r (0 : Fin 1)) = x6 (ix3 (0 : Fin 1) r (0 : Fin 1)) := by
  unfold k1_pay19
  exact shapeCast_1ab_ab_apply x6 _ r 0

/-- The one-entry rate block spread over the tile's rows reads the one entry. -/
theorem bcast11_apply (v26 : FVec Ideal S1x1 .f32) (r : Fin 256) :
    broadcastTo S256x1 v26 broadcasts_S1x1_S256x1 (ix2 r (0 : Fin 1)) = v26 (ix2 (0 : Fin 1) (0 : Fin 1)) :=
  broadcastTo_apply v26 _ _ _ fun ax => by
    match ax with
    | ⟨0, _⟩ => rfl
    | ⟨1, _⟩ => rfl

/-- The row's population. -/
theorem pay17_apply (v33 : FVec Ideal S256x4 .f32) (v34 v35 : FVec Ideal S256x1 .f32) (r : Fin 256) :
    k1_pay17 v33 v34 v35 (ix2 r (0 : Fin 1)) = (v34 (ix2 r 0) + v35 (ix2 r 0)) + v33 (ix2 r (2 : Fin 4)) := by
  unfold k1_pay17
  show (v34 (ix2 r 0) + v35 (ix2 r 0)) + k1_pay16 v33 (ix2 r 0) = _
  rw [pay16_apply]

/-- The row's new infections. -/
theorem pay20_apply (v33 : FVec Ideal S256x4 .f32) (v34 v35 : FVec Ideal S256x1 .f32) (x5 x6 : Vec Ideal S1x256x1 .f32) (r : Fin 256) :
    k1_pay20 v33 v34 v35 x5 x6 (ix2 r (0 : Fin 1))
      = ((Ideal.div (v34 (ix2 r 0)) ((v34 (ix2 r 0) + v35 (ix2 r 0)) + v33 (ix2 r (2 : Fin 4))) * x5 (ix3 (0 : Fin 1) r (0 : Fin 1))) * x6 (ix3 (0 : Fin 1) r (0 : Fin 1))) * v35 (ix2 r 0) := by
  unfold k1_pay20
  show ((Ideal.div (v34 (ix2 r 0)) (k1_pay17 v33 v34 v35 (ix2 r 0)) * k1_pay18 x5 (ix2 r 0)) * k1_pay19 x6 (ix2 r 0)) * v35 (ix2 r 0) = _
  rw [pay17_apply, pay18_apply, pay19_apply]

theorem pay25_apply (x5 x6 : Vec Ideal S1x256x1 .f32) (r : Fin 256) :
    k1_pay25 x5 x6 (ix2 r (0 : Fin 1)) = x5 (ix3 (0 : Fin 1) r (0 : Fin 1)) * x6 (ix3 (0 : Fin 1) r (0 : Fin 1)) := by
  unfold k1_pay25
  show k1_pay18 x5 (ix2 r 0) * k1_pay19 x6 (ix2 r 0) = _
  rw [pay18_apply, pay19_apply]

end Cert.KernelIdeal.Val1

end
-- ==== Proof.Val1Flux.lean ====
/-
  The main region's body at the ideal instance, read entry by entry: the masked tiles, the transition
  weights and the flux.

  Row r of the tile at row-tile coordinate i is row 256 i + r of the matrix, so the diagonal mask at (r, q)
  is the bit 1 exactly when 256 i + r = q (all numbers far below 2^32). The transition weights divide the
  masked mobility tile by the row's column-sum entry; the flux is the weights' product with the three
  columns S, I, R of the batch's whole SIR array — a matrix product into a zero accumulator, at the ideal
  instance the sum over the 2048 regions — times the batch's mobility rate.
-/
import proofs.«166416_j86079734546455_2_alg».proof.Proof.Val1Rows

set_option maxRecDepth 16384

noncomputable section

namespace Cert.KernelIdeal.Val1

open Cert.KernelIdeal Cert.KernelIdeal.Gen
open Idealize.ShloMosaic Idealize.ShloMosaic.ValueIdx
open scoped BigOperators

/-- Numbers below 2^32 are equal as 32-bit words exactly when they are equal. -/
theorem ofNat32_eq_iff (a b : Nat) (ha : a < 4294967296) (hb : b < 4294967296) : BitVec.ofNat 32 a = BitVec.ofNat 32 b ↔ a = b := by
  constructor
  · intro h
    have h' := congrArg BitVec.toNat h
    simp only [BitVec.toNat_ofNat] at h'
    omega
  · rintro rfl; rfl

/-- The diagonal mask of the tile at (r, q). -/
theorem pay5_apply (i : grid1.Coords) (hi : (i 1).val < 8) (r : Fin 256) (q : Fin 2048) :
    k1_pay5 i (ix2 r q) = if 256 * (i 1).val + r.val = q.val then 1#1 else 0#1 := by
  unfold k1_pay5
  show IntOp.cmpi .eq (IntOp.addi (Scalar.muli (BitVec.ofNat 32 (i 1).val) 256#32) (iota .tc S256x2048 32 [0] iota_S256x2048_d0_w32 (ix2 r q)))
      (iota .tc S256x2048 32 [1] iota_S256x2048_d1_w32 (ix2 r q)) = _
  rw [iota_single_apply, iota_single_apply]
  show IntOp.cmpi .eq (IntOp.addi (IntOp.muli (BitVec.ofNat 32 (i 1).val) 256#32) (BitVec.ofNat 32 r.val)) (BitVec.ofNat 32 q.val) = _
  unfold IntOp.cmpi IntOp.addi IntOp.muli
  have hr := r.isLt; have hq := q.isLt
  have e : BitVec.ofNat 32 (i 1).val * 256#32 + BitVec.ofNat 32 r.val = BitVec.ofNat 32 (256 * (i 1).val + r.val) := by
    apply BitVec.eq_of_toNat_eq
    simp only [BitVec.toNat_add, BitVec.toNat_mul, BitVec.toNat_ofNat]
    omega
  rw [e]
  by_cases h : 256 * (i 1).val + r.val = q.val
  · rw [if_pos h, h]; simp
  · rw [if_neg h]
    have : ¬ BitVec.ofNat 32 (256 * (i 1).val + r.val) = BitVec.ofNat 32 q.val := fun e' => h ((ofNat32_eq_iff _ _ (by omega) (by omega)).1 e')
    rw [show (BitVec.ofNat 32 (256 * (i 1).val + r.val) == BitVec.ofNat 32 q.val) = false from beq_eq_false_iff_ne.2 this]; rfl

/-- A select on that bit is the if on the diagonal. -/
theorem select_diag {α : Type} (P : Prop) [Decidable P] (A B : α) :
    Scalar.select (if P then 1#1 else 0#1) A B = if P then A else B := by
  by_cases h : P
  · rw [if_pos h, if_pos h, select_one]
  · rw [if_neg h, if_neg h, select_zero]

/-- The second matrix with its diagonal zeroed, at (r, q) of the tile. -/
theorem pay6_apply (i : grid1.Coords) (hi : (i 1).val < 8) (x1 : Vec Ideal S1x256x2048 .f32) (r : Fin 256) (q : Fin 2048) :
    k1_pay6 i x1 (ix2 r q) = if 256 * (i 1).val + r.val = q.val then zW else x1 (ix3 (0 : Fin 1) r q) := by
  unfold k1_pay6
  show Scalar.select (k1_pay5 i (ix2 r q)) zW (shapeCast S256x2048 x1 shapeCasts_S1x256x2048_S256x2048 (ix2 r q)) = _
  rw [pay5_apply i hi, select_diag, shapeCast_1ab_ab_apply]

/-- The transition weights at (r, q) of the tile: the masked mobility entry over the row's column-sum entry. -/
theorem pay7_apply (i : grid1.Coords) (hi : (i 1).val < 8) (x0 : Vec Ideal S1x256x2048 .f32) (x2 : Vec Ideal S1x256x1 .f32) (r : Fin 256) (q : Fin 2048) :
    k1_pay7 i x0 x2 (ix2 r q)
      = Ideal.div (if 256 * (i 1).val + r.val = q.val then zW else x0 (ix3 (0 : Fin 1) r q)) (x2 (ix3 (0 : Fin 1) r (0 : Fin 1))) := by
  unfold k1_pay7
  show Ideal.div (Scalar.select (k1_pay5 i (ix2 r q)) zW (shapeCast S256x2048 x0 shapeCasts_S1x256x2048_S256x2048 (ix2 r q)))
      (broadcastTo S256x2048 (shapeCast S256x1 x2 shapeCasts_S1x256x1_S256x1) broadcasts_S256x1_S256x2048 (ix2 r q)) = _
  rw [pay5_apply i hi, select_diag, shapeCast_1ab_ab_apply]
  congr 1
  refine (broadcastTo_apply _ _ (ix2 r q) (ix2 r (0 : Fin 1)) fun ax => ?_).trans (shapeCast_1ab_ab_apply x2 _ r 0)
  match ax with
  | ⟨0, _⟩ => rfl
  | ⟨1, _⟩ => rfl

/-- The product's dimension record: a 256 x 2048 matrix times a 2048 x 3 matrix. -/
abbrev DD := dot_S256x2048_S2048x3_S256x3_1_0_0_1_n_n

theorem lhsDD_0 (j : S256x3.Idx) (k : DD.contr.Idx) : (DD.lhsIdx j k 0).val = (j 0).val := by
  unfold DotDims.lhsIdx
  rw [dif_neg (show ¬(0 : Fin S256x2048.rank) ∈ DD.lhsBatch by decide), dif_pos (show (0 : Fin S256x2048.rank) ∈ DD.lhsNonContracting by decide)]
  rfl
theorem lhsDD_1 (j : S256x3.Idx) (k : DD.contr.Idx) : (DD.lhsIdx j k 1).val = (k ⟨0, by decide⟩).val :=
  DD.lhsIdx_val_of_single rfl j k
theorem rhsDD_0 (j : S256x3.Idx) (k : DD.contr.Idx) : (DD.rhsIdx j k 0).val = (k ⟨0, by decide⟩).val :=
  DD.rhsIdx_val_of_single rfl j k
theorem rhsDD_1 (j : S256x3.Idx) (k : DD.contr.Idx) : (DD.rhsIdx j k 1).val = (j 1).val := by
  unfold DotDims.rhsIdx
  rw [dif_neg (show ¬(1 : Fin S2048x3.rank) ∈ DD.rhsBatch by decide), dif_pos (show (1 : Fin S2048x3.rank) ∈ DD.rhsNonContracting by decide)]
  rfl

/-- The matrix product into a zero accumulator, at (r, k): the sum over the 2048 regions. -/
theorem matmul_at (L : FVec Ideal S256x2048 .f32) (X : FVec Ideal S2048x3 .f32) (r : Fin 256) (k : Fin 3) :
    matmul DD none L X (constant (F := Ideal) S256x3 .f32 0x00000000#32) (ix2 r k) = ∑ j : Fin 2048, L (ix2 r j) * X (ix2 j k) := by
  refine (Ideal.matmul_constant_zero_apply DD none L X (ix2 r k)).trans ?_
  rw [← Equiv.sum_comp (ValueIdx.contrEquiv1 DD 2048 rfl rfl).symm]
  refine Finset.sum_congr rfl fun j _ => ?_
  have hk := ValueIdx.contrEquiv1_symm_val DD 2048 rfl rfl j
  have el : DD.lhsIdx (ix2 r k) ((ValueIdx.contrEquiv1 DD 2048 rfl rfl).symm j) = ix2 r j := funext fun a => Fin.ext (by
    match a with
    | ⟨0, _⟩ => exact lhsDD_0 _ _
    | ⟨1, _⟩ => exact (lhsDD_1 _ _).trans hk)
  have er : DD.rhsIdx (ix2 r k) ((ValueIdx.contrEquiv1 DD 2048 rfl rfl).symm j) = ix2 j k := funext fun a => Fin.ext (by
    match a with
    | ⟨0, _⟩ => exact (rhsDD_0 _ _).trans hk
    | ⟨1, _⟩ => exact rhsDD_1 _ _)
  rw [el, er]

/-- The three columns S, I, R of the batch's whole SIR array, joined: column k of the join is column k of the array. -/
theorem x3cols_apply (x3 : Vec Ideal S1x2048x4 .f32) (j : Fin 2048) :
    ∀ k : Fin 3, concatenate S2048x3 1
        [⟨S2048x1, extractStridedSlice S2048x1 ![0, 0] (shapeCast S2048x4 x3 shapeCasts_S1x2048x4_S2048x4) slices_S2048x4_o0_0_S2048x1⟩,
         ⟨S2048x1, extractStridedSlice S2048x1 ![0, 1] (shapeCast S2048x4 x3 shapeCasts_S1x2048x4_S2048x4) slices_S2048x4_o0_1_S2048x1⟩,
         ⟨S2048x1, extractStridedSlice S2048x1 ![0, 2] (shapeCast S2048x4 x3 shapeCasts_S1x2048x4_S2048x4) slices_S2048x4_o0_2_S2048x1⟩]
        concatenates_S2048x1_S2048x1_S2048x1_S2048x3_d1 (ix2 j k)
      = x3 (ix3 (0 : Fin 1) j (Fin.castLE (by decide) k : Fin 4))
  | ⟨0, _⟩ => (concatenate_apply_piece (t := S2048x3) (1 : Fin 2) _ _ _ 0 (by simp) S2048x1 _ rfl rfl 0 rfl (ix2 j 0) (fun b hb => by match b with | ⟨0, _⟩ => rfl | ⟨1, _⟩ => exact absurd rfl hb) rfl).trans
      ((slice2_axis1_apply 0 _ _ j 0 (0 : Fin 4) rfl).trans (shapeCast_1ab_ab_apply x3 _ j 0))
  | ⟨1, _⟩ => (concatenate_apply_piece (t := S2048x3) (1 : Fin 2) _ _ _ 1 (by simp) S2048x1 _ rfl rfl 1 rfl (ix2 j 0) (fun b hb => by match b with | ⟨0, _⟩ => rfl | ⟨1, _⟩ => exact absurd rfl hb) rfl).trans
      ((slice2_axis1_apply 1 _ _ j 0 (1 : Fin 4) rfl).trans (shapeCast_1ab_ab_apply x3 _ j 1))
  | ⟨2, _⟩ => (concatenate_apply_piece (t := S2048x3) (1 : Fin 2) _ _ _ 2 (by simp) S2048x1 _ rfl rfl 2 rfl (ix2 j 0) (fun b hb => by match b with | ⟨0, _⟩ => rfl | ⟨1, _⟩ => exact absurd rfl hb) rfl).trans
      ((slice2_axis1_apply 2 _ _ j 0 (2 : Fin 4) rfl).trans (shapeCast_1ab_ab_apply x3 _ j 2))

/-- The flux block at (r, k), k = 0, 1, 2 for S, I, R: the weights' row times the column, times the rate. -/
theorem pay9_apply (i : grid1.Coords) (hi : (i 1).val < 8) (x0 : Vec Ideal S1x256x2048 .f32) (x2 : Vec Ideal S1x256x1 .f32)
    (x3 : Vec Ideal S1x2048x4 .f32) (x9 : Vec Ideal S1x1x1 .f32) (r : Fin 256) (k : Fin 3) :
    k1_pay9 i x0 x2 x3 x9 (ix2 r k)
      = (∑ j : Fin 2048, k1_pay7 i x0 x2 (ix2 r j) * x3 (ix3 (0 : Fin 1) j (Fin.castLE (by decide) k : Fin 4))) * x9 (ix3 (0 : Fin 1) (0 : Fin 1) (0 : Fin 1)) := by
  unfold k1_pay9
  show matmul DD none (k1_pay7 i x0 x2) _ (constant (F := Ideal) S256x3 .f32 0x00000000#32) (ix2 r k)
      * broadcastTo S256x3 (k1_pay8 x9) broadcasts_S1x1_S256x3 (ix2 r k) = _
  rw [matmul_at]
  congr 1
  · exact Finset.sum_congr rfl fun j _ => by rw [x3cols_apply x3 j k]
  · refine (broadcastTo_apply _ _ (ix2 r k) (ix2 (0 : Fin 1) (0 : Fin 1)) fun ax => ?_).trans (pay8_apply x9)
    match ax with
    | ⟨0, _⟩ => rfl
    | ⟨1, _⟩ => rfl

theorem pay10_apply (i : grid1.Coords) (x0 : Vec Ideal S1x256x2048 .f32) (x2 : Vec Ideal S1x256x1 .f32) (x3 : Vec Ideal S1x2048x4 .f32) (x9 : Vec Ideal S1x1x1 .f32) (r : Fin 256) :
    k1_pay10 i x0 x2 x3 x9 (ix2 r (0 : Fin 1)) = k1_pay9 i x0 x2 x3 x9 (ix2 r (0 : Fin 3)) := by
  unfold k1_pay10
  exact slice2_axis1_apply 0 _ _ r 0 (0 : Fin 3) rfl
theorem pay11_apply (i : grid1.Coords) (x0 : Vec Ideal S1x256x2048 .f32) (x2 : Vec Ideal S1x256x1 .f32) (x3 : Vec Ideal S1x2048x4 .f32) (x9 : Vec Ideal S1x1x1 .f32) (r : Fin 256) :
    k1_pay11 i x0 x2 x3 x9 (ix2 r (0 : Fin 1)) = k1_pay9 i x0 x2 x3 x9 (ix2 r (1 : Fin 3)) := by
  unfold k1_pay11
  exact slice2_axis1_apply 1 _ _ r 0 (1 : Fin 3) rfl
theorem pay12_apply (i : grid1.Coords) (x0 : Vec Ideal S1x256x2048 .f32) (x2 : Vec Ideal S1x256x1 .f32) (x3 : Vec Ideal S1x2048x4 .f32) (x9 : Vec Ideal S1x1x1 .f32) (r : Fin 256) :
    k1_pay12 i x0 x2 x3 x9 (ix2 r (0 : Fin 1)) = k1_pay9 i x0 x2 x3 x9 (ix2 r (2 : Fin 3)) := by
  unfold k1_pay12
  exact slice2_axis1_apply 2 _ _ r 0 (2 : Fin 3) rfl

end Cert.KernelIdeal.Val1

end
-- ==== Proof.Val1Cols.lean ====
/-
  The main region's body at the ideal instance, read entry by entry: the updates and the two packed results.

  The row's updated R, I, S and running total in terms of its flux entries, and the two results the body
  packs column by column: six columns (the reproduction number, the new infections, S, I, R and the total,
  updated) and four (the arrival weight, the mobility rate, I, the population).
-/
import proofs.«166416_j86079734546455_2_alg».proof.Proof.Val1Rows

set_option maxRecDepth 16384

noncomputable section

namespace Cert.KernelIdeal.Val1

open Cert.KernelIdeal Cert.KernelIdeal.Gen
open Idealize.ShloMosaic Idealize.ShloMosaic.ValueIdx

/-- The updated R of row r: ((R + g I) - d R) - m R, plus the row's flux entry. -/
theorem pay21_apply (v26 : FVec Ideal S1x1 .f32) (v31 : FVec Ideal S256x1 .f32) (v33 : FVec Ideal S256x4 .f32) (v35 : FVec Ideal S256x1 .f32)
    (x8 : Vec Ideal S256x1 .f32) (r : Fin 256) :
    k1_pay21 v26 v31 v33 v35 x8 (ix2 r (0 : Fin 1))
      = (((v33 (ix2 r (2 : Fin 4)) + gW * v35 (ix2 r 0)) - x8 (ix2 r 0) * v33 (ix2 r (2 : Fin 4))) - v26 (ix2 (0 : Fin 1) (0 : Fin 1)) * v33 (ix2 r (2 : Fin 4))) + v31 (ix2 r 0) := by
  unfold k1_pay21
  show (((k1_pay16 v33 (ix2 r 0) + gW * v35 (ix2 r 0)) - x8 (ix2 r 0) * k1_pay16 v33 (ix2 r 0))
      - broadcastTo S256x1 v26 broadcasts_S1x1_S256x1 (ix2 r 0) * k1_pay16 v33 (ix2 r 0)) + v31 (ix2 r 0) = _
  rw [pay16_apply, bcast11_apply]

/-- The updated I of row r. -/
theorem pay22_apply (v26 : FVec Ideal S1x1 .f32) (v30 : FVec Ideal S256x1 .f32) (v33 : FVec Ideal S256x4 .f32) (v34 v35 : FVec Ideal S256x1 .f32)
    (x5 x6 : Vec Ideal S1x256x1 .f32) (x8 : Vec Ideal S256x1 .f32) (r : Fin 256) :
    k1_pay22 v26 v30 v33 v34 v35 x5 x6 x8 (ix2 r (0 : Fin 1))
      = (((((v35 (ix2 r 0) + k1_pay20 v33 v34 v35 x5 x6 (ix2 r 0)) - x8 (ix2 r 0) * v35 (ix2 r 0)) - gW * v35 (ix2 r 0)) - vdW * v35 (ix2 r 0))
          - v26 (ix2 (0 : Fin 1) (0 : Fin 1)) * v35 (ix2 r 0)) + v30 (ix2 r 0) := by
  unfold k1_pay22
  show (((((v35 (ix2 r 0) + k1_pay20 v33 v34 v35 x5 x6 (ix2 r 0)) - x8 (ix2 r 0) * v35 (ix2 r 0)) - gW * v35 (ix2 r 0)) - vdW * v35 (ix2 r 0))
          - broadcastTo S256x1 v26 broadcasts_S1x1_S256x1 (ix2 r 0) * v35 (ix2 r 0)) + v30 (ix2 r 0) = _
  rw [bcast11_apply]

/-- The updated S of row r. -/
theorem pay23_apply (v26 : FVec Ideal S1x1 .f32) (v29 : FVec Ideal S256x1 .f32) (v33 : FVec Ideal S256x4 .f32) (v34 v35 : FVec Ideal S256x1 .f32)
    (x5 x6 : Vec Ideal S1x256x1 .f32) (x7 x8 : Vec Ideal S256x1 .f32) (r : Fin 256) :
    k1_pay23 v26 v29 v33 v34 v35 x5 x6 x7 x8 (ix2 r (0 : Fin 1))
      = ((((v34 (ix2 r 0) - k1_pay20 v33 v34 v35 x5 x6 (ix2 r 0)) - x8 (ix2 r 0) * v34 (ix2 r 0)) + x7 (ix2 r 0) * k1_pay17 v33 v34 v35 (ix2 r 0))
          - v26 (ix2 (0 : Fin 1) (0 : Fin 1)) * v34 (ix2 r 0)) + v29 (ix2 r 0) := by
  unfold k1_pay23
  show ((((v34 (ix2 r 0) - k1_pay20 v33 v34 v35 x5 x6 (ix2 r 0)) - x8 (ix2 r 0) * v34 (ix2 r 0)) + x7 (ix2 r 0) * k1_pay17 v33 v34 v35 (ix2 r 0))
          - broadcastTo S256x1 v26 broadcasts_S1x1_S256x1 (ix2 r 0) * v34 (ix2 r 0)) + v29 (ix2 r 0) = _
  rw [bcast11_apply]

/-- The updated running total of row r. -/
theorem pay24_apply (v33 : FVec Ideal S256x4 .f32) (v34 v35 : FVec Ideal S256x1 .f32) (x5 x6 : Vec Ideal S1x256x1 .f32) (r : Fin 256) :
    k1_pay24 v33 v34 v35 x5 x6 (ix2 r (0 : Fin 1)) = v33 (ix2 r (3 : Fin 4)) + k1_pay20 v33 v34 v35 x5 x6 (ix2 r 0) := by
  unfold k1_pay24
  show extractStridedSlice S256x1 ![0, 3] v33 slices_S256x4_o0_3_S256x1 (ix2 r 0) + k1_pay20 v33 v34 v35 x5 x6 (ix2 r 0) = _
  rw [slice2_axis1_apply 3 v33 _ r 0 (3 : Fin 4) rfl]

/-- Six one-column pieces joined along the columns, read at column `k`: the `k`-th piece's entry. -/
theorem concat6_apply (p0 p1 p2 p3 p4 p5 : FVec Ideal S256x1 .f32) (r : Fin 256) :
    ∀ k : Fin 6, concatenate S256x6 1 [⟨S256x1, p0⟩, ⟨S256x1, p1⟩, ⟨S256x1, p2⟩, ⟨S256x1, p3⟩, ⟨S256x1, p4⟩, ⟨S256x1, p5⟩]
        concatenates_S256x1_S256x1_S256x1_S256x1_S256x1_S256x1_S256x6_d1 (ix2 r k)
      = (![p0, p1, p2, p3, p4, p5] k) (ix2 r (0 : Fin 1))
  | ⟨0, _⟩ => concatenate_apply_piece (t := S256x6) (1 : Fin 2) _ _ _ 0 (by simp) S256x1 p0 rfl rfl 0 rfl (ix2 r 0) (fun b hb => by match b with | ⟨0, _⟩ => rfl | ⟨1, _⟩ => exact absurd rfl hb) rfl
  | ⟨1, _⟩ => concatenate_apply_piece (t := S256x6) (1 : Fin 2) _ _ _ 1 (by simp) S256x1 p1 rfl rfl 1 rfl (ix2 r 0) (fun b hb => by match b with | ⟨0, _⟩ => rfl | ⟨1, _⟩ => exact absurd rfl hb) rfl
  | ⟨2, _⟩ => concatenate_apply_piece (t := S256x6) (1 : Fin 2) _ _ _ 2 (by simp) S256x1 p2 rfl rfl 2 rfl (ix2 r 0) (fun b hb => by match b with | ⟨0, _⟩ => rfl | ⟨1, _⟩ => exact absurd rfl hb) rfl
  | ⟨3, _⟩ => concatenate_apply_piece (t := S256x6) (1 : Fin 2) _ _ _ 3 (by simp) S256x1 p3 rfl rfl 3 rfl (ix2 r 0) (fun b hb => by match b with | ⟨0, _⟩ => rfl | ⟨1, _⟩ => exact absurd rfl hb) rfl
  | ⟨4, _⟩ => concatenate_apply_piece (t := S256x6) (1 : Fin 2) _ _ _ 4 (by simp) S256x1 p4 rfl rfl 4 rfl (ix2 r 0) (fun b hb => by match b with | ⟨0, _⟩ => rfl | ⟨1, _⟩ => exact absurd rfl hb) rfl
  | ⟨5, _⟩ => concatenate_apply_piece (t := S256x6) (1 : Fin 2) _ _ _ 5 (by simp) S256x1 p5 rfl rfl 5 rfl (ix2 r 0) (fun b hb => by match b with | ⟨0, _⟩ => rfl | ⟨1, _⟩ => exact absurd rfl hb) rfl

/-- Four one-column pieces joined along the columns, read at column `k`. -/
theorem concat4_apply (p0 p1 p2 p3 : FVec Ideal S256x1 .f32) (r : Fin 256) :
    ∀ k : Fin 4, concatenate S256x4 1 [⟨S256x1, p0⟩, ⟨S256x1, p1⟩, ⟨S256x1, p2⟩, ⟨S256x1, p3⟩]
        concatenates_S256x1_S256x1_S256x1_S256x1_S256x4_d1 (ix2 r k)
      = (![p0, p1, p2, p3] k) (ix2 r (0 : Fin 1))
  | ⟨0, _⟩ => concatenate_apply_piece (t := S256x4) (1 : Fin 2) _ _ _ 0 (by simp) S256x1 p0 rfl rfl 0 rfl (ix2 r 0) (fun b hb => by match b with | ⟨0, _⟩ => rfl | ⟨1, _⟩ => exact absurd rfl hb) rfl
  | ⟨1, _⟩ => concatenate_apply_piece (t := S256x4) (1 : Fin 2) _ _ _ 1 (by simp) S256x1 p1 rfl rfl 1 rfl (ix2 r 0) (fun b hb => by match b with | ⟨0, _⟩ => rfl | ⟨1, _⟩ => exact absurd rfl hb) rfl
  | ⟨2, _⟩ => concatenate_apply_piece (t := S256x4) (1 : Fin 2) _ _ _ 2 (by simp) S256x1 p2 rfl rfl 2 rfl (ix2 r 0) (fun b hb => by match b with | ⟨0, _⟩ => rfl | ⟨1, _⟩ => exact absurd rfl hb) rfl
  | ⟨3, _⟩ => concatenate_apply_piece (t := S256x4) (1 : Fin 2) _ _ _ 3 (by simp) S256x1 p3 rfl rfl 3 rfl (ix2 r 0) (fun b hb => by match b with | ⟨0, _⟩ => rfl | ⟨1, _⟩ => exact absurd rfl hb) rfl

/-- The first packed result at (0, r, k): its k-th column's entry of row r; column 0 is the reproduction
    number (b c) / (((d + g) + v) + m). -/
theorem pay1_apply (v26 : FVec Ideal S1x1 .f32) (x8 : Vec Ideal S256x1 .f32) (v49 v58 v71 v80 v81 v82 : FVec Ideal S256x1 .f32) (r : Fin 256) (k : Fin 6) :
    k1_pay1 v26 x8 v49 v58 v71 v80 v81 v82 (ix3 (0 : Fin 1) r k)
      = (![(fun _ => Ideal.div (v82 (ix2 r 0)) (((x8 (ix2 r 0) + gW) + vdW) + v26 (ix2 (0 : Fin 1) (0 : Fin 1)))), v49, v80, v71, v58, v81] k) (ix2 r (0 : Fin 1)) := by
  unfold k1_pay1
  refine (shapeCast_ab_1ab_apply _ _ 0 r k).trans ?_
  refine (concat6_apply _ _ _ _ _ _ r k).trans ?_
  match k with
  | ⟨0, _⟩ =>
    show Ideal.div (v82 (ix2 r 0)) (((x8 (ix2 r 0) + gW) + vdW) + broadcastTo S256x1 v26 broadcasts_S1x1_S256x1 (ix2 r 0)) = _
    rw [bcast11_apply]; rfl
  | ⟨1, _⟩ => rfl
  | ⟨2, _⟩ => rfl
  | ⟨3, _⟩ => rfl
  | ⟨4, _⟩ => rfl
  | ⟨5, _⟩ => rfl

/-- The second packed result at (0, r, k): the arrival weight ((b c - d) - g) - v, the mobility rate, I, the population. -/
theorem pay2_apply (v26 : FVec Ideal S1x1 .f32) (v35 v39 v41 v43 : FVec Ideal S256x1 .f32) (x8 : Vec Ideal S256x1 .f32) (r : Fin 256) (k : Fin 4) :
    k1_pay2 v26 v35 v39 v41 v43 x8 (ix3 (0 : Fin 1) r k)
      = (![(fun _ => ((v41 (ix2 r 0) * v43 (ix2 r 0) - x8 (ix2 r 0)) - gW) - vdW), (fun _ => v26 (ix2 (0 : Fin 1) (0 : Fin 1))), v35, v39] k) (ix2 r (0 : Fin 1)) := by
  unfold k1_pay2
  refine (shapeCast_ab_1ab_apply _ _ 0 r k).trans ?_
  refine (concat4_apply _ _ _ _ r k).trans ?_
  match k with
  | ⟨0, _⟩ => rfl
  | ⟨1, _⟩ =>
    show broadcastTo S256x1 (shapeCast S1x1 v26 shapeCasts_S1x1_S1x1) broadcasts_S1x1_S256x1 (ix2 r 0) = v26 (ix2 0 0)
    rw [bcast11_apply, shapeCast_self]
  | ⟨2, _⟩ => rfl
  | ⟨3, _⟩ => rfl

/-- The two matrix results: a tile with a leading unit axis added. -/
theorem pay3_apply (v13 : FVec Ideal S256x2048 .f32) (r : Fin 256) (q : Fin 2048) : k1_pay3 v13 (ix3 (0 : Fin 1) r q) = v13 (ix2 r q) := by
  unfold k1_pay3
  exact shapeCast_ab_1ab_apply _ _ 0 r q

theorem pay4_apply (v17 : FVec Ideal S256x2048 .f32) (r : Fin 256) (q : Fin 2048) : k1_pay4 v17 (ix3 (0 : Fin 1) r q) = v17 (ix2 r q) := by
  unfold k1_pay4
  exact shapeCast_ab_1ab_apply _ _ 0 r q

end Cert.KernelIdeal.Val1

end
-- ==== Proof.Val1Pt.lean ====
/-
  The main region at the ideal instance: a point's row quantities are the specification's.

  With the blocks' entries read as entries of the arrays the region finds, row r of the tile at point t
  carries the specification's compartments, population, new infections, transition weights, flux and
  updates at batch t / 8 and region 256 (t % 8) + r — given that the transposed column sums the region
  finds are the specification's column sums and the rate array it finds is the specification's mobility
  rate. The only reordering is the flux's product with the rate, which the body takes on the right.
-/
import proofs.«166416_j86079734546455_2_alg».proof.Proof.Val1Rd
import proofs.«166416_j86079734546455_2_alg».proof.Proof.Val1Flux
import proofs.«166416_j86079734546455_2_alg».proof.Proof.Val1Cols
import proofs.«166416_j86079734546455_2_alg».proof.Proof.Spec

set_option maxRecDepth 16384

noncomputable section

namespace Cert.KernelIdeal.Val1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))
variable (c : Dev nD) (t : Fin cfg1.N) (r : Fin 256)

/-- A tile row's matrix row equals a column number exactly when the numbers agree. -/
theorem pOf_eq_iff (q : Fin 2048) : (256 * ((grid1.coords t) 1).val + r.val = q.val) ↔ pOf t r = q := by
  rw [coord1]; exact ⟨fun h => Fin.ext h, fun h => congrArg Fin.val h⟩

theorem SIR_at (k : Fin 4) : k1_pay13 (iblk1 V c 4 t) (ix2 r k) = V c main_arg3 (ix3 (bOf t) (pOf t r) k) := by
  rw [pay13_apply, rd4]

theorem S_at : k1_pay14 (iblk1 V c 4 t) (ix2 r (0 : Fin 1)) = Cert.Spec.Sv (V c main_arg3) (bOf t) (pOf t r) := by
  rw [pay14_apply, rd4]; rfl

theorem I_at : k1_pay15 (iblk1 V c 4 t) (ix2 r (0 : Fin 1)) = Cert.Spec.Iv (V c main_arg3) (bOf t) (pOf t r) := by
  rw [pay15_apply, rd4]; rfl

theorem pop_at : k1_pay17 (k1_pay13 (iblk1 V c 4 t)) (k1_pay14 (iblk1 V c 4 t)) (k1_pay15 (iblk1 V c 4 t)) (ix2 r (0 : Fin 1))
    = Cert.Spec.pop (V c main_arg3) (bOf t) (pOf t r) := by
  rw [pay17_apply, S_at, I_at, SIR_at]; rfl

theorem Inew_at : k1_pay20 (k1_pay13 (iblk1 V c 4 t)) (k1_pay14 (iblk1 V c 4 t)) (k1_pay15 (iblk1 V c 4 t)) (iblk1 V c 5 t) (iblk1 V c 6 t) (ix2 r (0 : Fin 1))
    = Cert.Spec.Inew (V c main_arg0) (V c main_arg1) (V c main_arg3) (bOf t) (pOf t r) := by
  rw [pay20_apply, S_at, I_at, SIR_at, rd5, rd6]; rfl

section
variable (hcs : ∀ (b : Fin 4) (p : Fin 2048), V c main_v1 (ix3 b p (0 : Fin 1)) = Cert.Spec.cs (V c main_arg2) b p)
variable (hmm : ∀ b : Fin 4, V c main_v10 (ix3 b (0 : Fin 1) (0 : Fin 1)) = Cert.Spec.mm (V c main_arg2) (V c main_arg3) b)

include hmm in
theorem m_at : k1_pay8 (iblk1 V c 9 t) (ix2 (0 : Fin 1) (0 : Fin 1)) = Cert.Spec.mm (V c main_arg2) (V c main_arg3) (bOf t) := by
  rw [pay8_apply, rd9, hmm]

include hcs in
theorem P_at (j : Fin 2048) : k1_pay7 (grid1.coords t) (iblk1 V c 0 t) (iblk1 V c 2 t) (ix2 r j)
    = Cert.Spec.P (V c main_arg2) (bOf t) (pOf t r) j := by
  rw [pay7_apply _ (coord1_lt t), rd0, rd2, hcs]
  unfold Cert.Spec.P Cert.Spec.F
  congr 1
  exact if_congr (pOf_eq_iff t r j) rfl rfl

include hcs hmm in
theorem flux_at (k : Fin 3) : k1_pay9 (grid1.coords t) (iblk1 V c 0 t) (iblk1 V c 2 t) (iblk1 V c 3 t) (iblk1 V c 9 t) (ix2 r k)
    = Cert.Spec.flux (V c main_arg2) (V c main_arg3) (Fin.castLE (by decide) k : Fin 4) (bOf t) (pOf t r) := by
  rw [pay9_apply _ (coord1_lt t), rd9, hmm]
  unfold Cert.Spec.flux
  rw [mul_comm]
  congr 1
  exact Finset.sum_congr rfl fun j _ => by rw [P_at V c t r hcs j, rd3]

end

end Cert.KernelIdeal.Val1

end
-- ==== Proof.Val1Col.lean ====
/-
  The main region at the ideal instance: the packed results' columns are the specification's.

  Column by column, row r of the two packed blocks a point stores is the specification's reproduction
  number, new infections, updated S, I, R and running total, and its arrival weight, mobility rate, I and
  population, at batch t / 8 and region 256 (t % 8) + r.
-/
import proofs.«166416_j86079734546455_2_alg».proof.Proof.Val1Pt

set_option maxRecDepth 16384

noncomputable section

namespace Cert.KernelIdeal.Val1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-- A block entry, as the extended real it is. -/
abbrev er (x : EReal) : EReal := x

variable (V : (c : Dev nD) → (b : Ref sig .tc) → Buf (Elt Ideal) ((c : Thread nD τ).loc b))
variable (c : Dev nD) (t : Fin cfg1.N) (r : Fin 256)
variable (hcs : ∀ (b : Fin 4) (p : Fin 2048), V c main_v1 (ix3 b p (0 : Fin 1)) = Cert.Spec.cs (V c main_arg2) b p)
variable (hmm : ∀ b : Fin 4, V c main_v10 (ix3 b (0 : Fin 1) (0 : Fin 1)) = Cert.Spec.mm (V c main_arg2) (V c main_arg3) b)

include hmm in
theorem R0_at : Ideal.div (k1_pay25 (iblk1 V c 5 t : Vec Ideal S1x256x1 .f32) (iblk1 V c 6 t : Vec Ideal S1x256x1 .f32) (ix2 r (0 : Fin 1))) (((er ((iblk1 V c 8 t : Vec Ideal S256x1 .f32) (ix2 r (0 : Fin 1))) + gW) + vdW) + k1_pay8 (iblk1 V c 9 t : Vec Ideal S1x1x1 .f32) (ix2 (0 : Fin 1) (0 : Fin 1)))
    = Cert.Spec.R0 (V c main_arg0) (V c main_arg1) (V c main_arg2) (V c main_arg3) (V c main_arg6) (bOf t) (pOf t r) := by
  rw [pay25_apply, rd5, rd6, rd8, m_at V c t hmm]; rfl

include hcs hmm in
theorem St_at : k1_pay23 (k1_pay8 (iblk1 V c 9 t : Vec Ideal S1x1x1 .f32)) (k1_pay10 (grid1.coords t) (iblk1 V c 0 t : Vec Ideal S1x256x2048 .f32) (iblk1 V c 2 t : Vec Ideal S1x256x1 .f32) (iblk1 V c 3 t : Vec Ideal S1x2048x4 .f32) (iblk1 V c 9 t : Vec Ideal S1x1x1 .f32)) (k1_pay13 (iblk1 V c 4 t : Vec Ideal S1x256x4 .f32)) (k1_pay14 (iblk1 V c 4 t : Vec Ideal S1x256x4 .f32)) (k1_pay15 (iblk1 V c 4 t : Vec Ideal S1x256x4 .f32)) (iblk1 V c 5 t : Vec Ideal S1x256x1 .f32) (iblk1 V c 6 t : Vec Ideal S1x256x1 .f32) (iblk1 V c 7 t : Vec Ideal S256x1 .f32) (iblk1 V c 8 t : Vec Ideal S256x1 .f32) (ix2 r (0 : Fin 1))
    = Cert.Spec.St (V c main_arg0) (V c main_arg1) (V c main_arg2) (V c main_arg3) (V c main_arg5) (V c main_arg6) (bOf t) (pOf t r) := by
  rw [pay23_apply, S_at, Inew_at, rd8, rd7, pop_at, m_at V c t hmm, pay10_apply, flux_at V c t r hcs hmm 0]; rfl

include hcs hmm in
theorem It_at : k1_pay22 (k1_pay8 (iblk1 V c 9 t : Vec Ideal S1x1x1 .f32)) (k1_pay11 (grid1.coords t) (iblk1 V c 0 t : Vec Ideal S1x256x2048 .f32) (iblk1 V c 2 t : Vec Ideal S1x256x1 .f32) (iblk1 V c 3 t : Vec Ideal S1x2048x4 .f32) (iblk1 V c 9 t : Vec Ideal S1x1x1 .f32)) (k1_pay13 (iblk1 V c 4 t : Vec Ideal S1x256x4 .f32)) (k1_pay14 (iblk1 V c 4 t : Vec Ideal S1x256x4 .f32)) (k1_pay15 (iblk1 V c 4 t : Vec Ideal S1x256x4 .f32)) (iblk1 V c 5 t : Vec Ideal S1x256x1 .f32) (iblk1 V c 6 t : Vec Ideal S1x256x1 .f32) (iblk1 V c 8 t : Vec Ideal S256x1 .f32) (ix2 r (0 : Fin 1))
    = Cert.Spec.It (V c main_arg0) (V c main_arg1) (V c main_arg2) (V c main_arg3) (V c main_arg6) (bOf t) (pOf t r) := by
  rw [pay22_apply, I_at, Inew_at, rd8, m_at V c t hmm, pay11_apply, flux_at V c t r hcs hmm 1]; rfl

include hcs hmm in
theorem Rt_at : k1_pay21 (k1_pay8 (iblk1 V c 9 t : Vec Ideal S1x1x1 .f32)) (k1_pay12 (grid1.coords t) (iblk1 V c 0 t : Vec Ideal S1x256x2048 .f32) (iblk1 V c 2 t : Vec Ideal S1x256x1 .f32) (iblk1 V c 3 t : Vec Ideal S1x2048x4 .f32) (iblk1 V c 9 t : Vec Ideal S1x1x1 .f32)) (k1_pay13 (iblk1 V c 4 t : Vec Ideal S1x256x4 .f32)) (k1_pay15 (iblk1 V c 4 t : Vec Ideal S1x256x4 .f32)) (iblk1 V c 8 t : Vec Ideal S256x1 .f32) (ix2 r (0 : Fin 1))
    = Cert.Spec.Rt (V c main_arg2) (V c main_arg3) (V c main_arg6) (bOf t) (pOf t r) := by
  rw [pay21_apply, I_at, SIR_at, rd8, m_at V c t hmm, pay12_apply, flux_at V c t r hcs hmm 2]; rfl

theorem Ist_at : k1_pay24 (k1_pay13 (iblk1 V c 4 t : Vec Ideal S1x256x4 .f32)) (k1_pay14 (iblk1 V c 4 t : Vec Ideal S1x256x4 .f32)) (k1_pay15 (iblk1 V c 4 t : Vec Ideal S1x256x4 .f32)) (iblk1 V c 5 t : Vec Ideal S1x256x1 .f32) (iblk1 V c 6 t : Vec Ideal S1x256x1 .f32) (ix2 r (0 : Fin 1))
    = Cert.Spec.Ist (V c main_arg0) (V c main_arg1) (V c main_arg3) (bOf t) (pOf t r) := by
  rw [pay24_apply, SIR_at, Inew_at]; rfl

theorem Wa_at : ((k1_pay18 (iblk1 V c 5 t : Vec Ideal S1x256x1 .f32) (ix2 r (0 : Fin 1)) * k1_pay19 (iblk1 V c 6 t : Vec Ideal S1x256x1 .f32) (ix2 r (0 : Fin 1)) - er ((iblk1 V c 8 t : Vec Ideal S256x1 .f32) (ix2 r (0 : Fin 1)))) - gW) - vdW
    = Cert.Spec.Wa (V c main_arg0) (V c main_arg1) (V c main_arg6) (bOf t) (pOf t r) := by
  rw [pay18_apply, pay19_apply, rd5, rd6, rd8]; rfl

include hcs hmm in
/-- The first packed block a point stores, at (0, r, k): the specification's first result at the block's place. -/
theorem ht_block (k : Fin 6) :
    k1_pay1 (k1_pay8 (iblk1 V c 9 t : Vec Ideal S1x1x1 .f32)) (iblk1 V c 8 t : Vec Ideal S256x1 .f32) (k1_pay20 (k1_pay13 (iblk1 V c 4 t : Vec Ideal S1x256x4 .f32)) (k1_pay14 (iblk1 V c 4 t : Vec Ideal S1x256x4 .f32)) (k1_pay15 (iblk1 V c 4 t : Vec Ideal S1x256x4 .f32)) (iblk1 V c 5 t : Vec Ideal S1x256x1 .f32) (iblk1 V c 6 t : Vec Ideal S1x256x1 .f32))
        (k1_pay21 (k1_pay8 (iblk1 V c 9 t : Vec Ideal S1x1x1 .f32)) (k1_pay12 (grid1.coords t) (iblk1 V c 0 t : Vec Ideal S1x256x2048 .f32) (iblk1 V c 2 t : Vec Ideal S1x256x1 .f32) (iblk1 V c 3 t : Vec Ideal S1x2048x4 .f32) (iblk1 V c 9 t : Vec Ideal S1x1x1 .f32)) (k1_pay13 (iblk1 V c 4 t : Vec Ideal S1x256x4 .f32)) (k1_pay15 (iblk1 V c 4 t : Vec Ideal S1x256x4 .f32)) (iblk1 V c 8 t : Vec Ideal S256x1 .f32))
        (k1_pay22 (k1_pay8 (iblk1 V c 9 t : Vec Ideal S1x1x1 .f32)) (k1_pay11 (grid1.coords t) (iblk1 V c 0 t : Vec Ideal S1x256x2048 .f32) (iblk1 V c 2 t : Vec Ideal S1x256x1 .f32) (iblk1 V c 3 t : Vec Ideal S1x2048x4 .f32) (iblk1 V c 9 t : Vec Ideal S1x1x1 .f32)) (k1_pay13 (iblk1 V c 4 t : Vec Ideal S1x256x4 .f32)) (k1_pay14 (iblk1 V c 4 t : Vec Ideal S1x256x4 .f32)) (k1_pay15 (iblk1 V c 4 t : Vec Ideal S1x256x4 .f32)) (iblk1 V c 5 t : Vec Ideal S1x256x1 .f32) (iblk1 V c 6 t : Vec Ideal S1x256x1 .f32) (iblk1 V c 8 t : Vec Ideal S256x1 .f32))
        (k1_pay23 (k1_pay8 (iblk1 V c 9 t : Vec Ideal S1x1x1 .f32)) (k1_pay10 (grid1.coords t) (iblk1 V c 0 t : Vec Ideal S1x256x2048 .f32) (iblk1 V c 2 t : Vec Ideal S1x256x1 .f32) (iblk1 V c 3 t : Vec Ideal S1x2048x4 .f32) (iblk1 V c 9 t : Vec Ideal S1x1x1 .f32)) (k1_pay13 (iblk1 V c 4 t : Vec Ideal S1x256x4 .f32)) (k1_pay14 (iblk1 V c 4 t : Vec Ideal S1x256x4 .f32)) (k1_pay15 (iblk1 V c 4 t : Vec Ideal S1x256x4 .f32)) (iblk1 V c 5 t : Vec Ideal S1x256x1 .f32) (iblk1 V c 6 t : Vec Ideal S1x256x1 .f32) (iblk1 V c 7 t : Vec Ideal S256x1 .f32) (iblk1 V c 8 t : Vec Ideal S256x1 .f32))
        (k1_pay24 (k1_pay13 (iblk1 V c 4 t : Vec Ideal S1x256x4 .f32)) (k1_pay14 (iblk1 V c 4 t : Vec Ideal S1x256x4 .f32)) (k1_pay15 (iblk1 V c 4 t : Vec Ideal S1x256x4 .f32)) (iblk1 V c 5 t : Vec Ideal S1x256x1 .f32) (iblk1 V c 6 t : Vec Ideal S1x256x1 .f32)) (k1_pay25 (iblk1 V c 5 t : Vec Ideal S1x256x1 .f32) (iblk1 V c 6 t : Vec Ideal S1x256x1 .f32)) (ix3 (0 : Fin 1) r k)
      = Cert.Spec.ht (V c main_arg0) (V c main_arg1) (V c main_arg2) (V c main_arg3) (V c main_arg5) (V c main_arg6) (ix3 (bOf t) (pOf t r) k) := by
  rw [pay1_apply, Cert.Spec.ht_apply]
  match k with
  | ⟨0, _⟩ => exact R0_at V c t r hmm
  | ⟨1, _⟩ => exact Inew_at V c t r
  | ⟨2, _⟩ => exact St_at V c t r hcs hmm
  | ⟨3, _⟩ => exact It_at V c t r hcs hmm
  | ⟨4, _⟩ => exact Rt_at V c t r hcs hmm
  | ⟨5, _⟩ => exact Ist_at V c t r

include hmm in
/-- The second packed block a point stores, at (0, r, k). -/
theorem ar1_block (k : Fin 4) :
    k1_pay2 (k1_pay8 (iblk1 V c 9 t : Vec Ideal S1x1x1 .f32)) (k1_pay15 (iblk1 V c 4 t : Vec Ideal S1x256x4 .f32)) (k1_pay17 (k1_pay13 (iblk1 V c 4 t : Vec Ideal S1x256x4 .f32)) (k1_pay14 (iblk1 V c 4 t : Vec Ideal S1x256x4 .f32)) (k1_pay15 (iblk1 V c 4 t : Vec Ideal S1x256x4 .f32))) (k1_pay18 (iblk1 V c 5 t : Vec Ideal S1x256x1 .f32)) (k1_pay19 (iblk1 V c 6 t : Vec Ideal S1x256x1 .f32)) (iblk1 V c 8 t : Vec Ideal S256x1 .f32) (ix3 (0 : Fin 1) r k)
      = Cert.Spec.ar1 (V c main_arg0) (V c main_arg1) (V c main_arg2) (V c main_arg3) (V c main_arg5) (V c main_arg6) (ix3 (bOf t) (pOf t r) k) := by
  rw [pay2_apply, Cert.Spec.ar1_apply]
  match k with
  | ⟨0, _⟩ => exact Wa_at V c t r
  | ⟨1, _⟩ => exact m_at V c t hmm
  | ⟨2, _⟩ => exact I_at V c t r
  | ⟨3, _⟩ => exact pop_at V c t r

end Cert.KernelIdeal.Val1

end
-- ==== Proof.Val1Fin.lean ====
/-
  The main region at the ideal instance: its four result arrays.

  Each point writes back, into each result, its block of the specification's function of the arrays the
  region finds; the 32 blocks of a result tile it (the block of batch b and row tile i holds the rows
  256 i .. 256 i + 255 of batch b); so each result array ends holding the specification's function — given
  that the transposed column sums and the rate array the region finds are the specification's.
-/
import proofs.«166416_j86079734546455_2_alg».proof.Proof.Val1Col

set_option maxRecDepth 16384

noncomputable section

namespace Cert.KernelIdeal.Val1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-- An entry is in a point's block of this result iff each coordinate is in the block's range on its axis. -/
theorem mem_blk10 (t : Fin cfg1.N) (i : S4x2048x6.Idx) :
    i ∈ ((cfg1.win 10).blk t).view.set ↔ ∀ a : Fin 3, win1_10.index t a * S1x256x6.size a ≤ (i a).val ∧ (i a).val < win1_10.index t a * S1x256x6.size a + S1x256x6.size a := by
  show i ∈ ((View.whole main_v11_0).slice (win1_10.rect t)).set ↔ _
  rw [View.set_slice_whole, Rect.mem_set_unit]
  exact Iff.rfl

/-- Every entry of the result is in the block of the point of its batch and row tile. -/
theorem cover10 (i : S4x2048x6.Idx) : ∃ t : Fin cfg1.N, (cfg1.win 10).flush t = true ∧ i ∈ ((cfg1.win 10).blk t).view.set := by
  have h0 : (i 0).val < 4 := (i 0).isLt
  have h1 : (i 1).val < 2048 := (i 1).isLt
  have h2 : (i 2).val < 6 := (i 2).isLt
  obtain ⟨t, ht⟩ : ∃ t : Fin cfg1.N, t.val = 8 * (i 0).val + (i 1).val / 256 := ⟨⟨8 * (i 0).val + (i 1).val / 256, by rw [N1]; omega⟩, rfl⟩
  obtain ⟨e0, e1, e2⟩ := idxw10 t
  refine ⟨t, flush1_10 t, ?_⟩
  rw [mem_blk10]
  intro a
  match a with
  | ⟨0, _⟩ =>
    show win1_10.index t (0 : Fin 3) * 1 ≤ (i 0).val ∧ (i 0).val < win1_10.index t (0 : Fin 3) * 1 + 1
    omega
  | ⟨1, _⟩ =>
    show win1_10.index t (1 : Fin 3) * 256 ≤ (i 1).val ∧ (i 1).val < win1_10.index t (1 : Fin 3) * 256 + 256
    omega
  | ⟨2, _⟩ =>
    show win1_10.index t (2 : Fin 3) * 6 ≤ (i 2).val ∧ (i 2).val < win1_10.index t (2 : Fin 3) * 6 + 6
    omega

/-- An entry is in a point's block of this result iff each coordinate is in the block's range on its axis. -/
theorem mem_blk11 (t : Fin cfg1.N) (i : S4x2048x4.Idx) :
    i ∈ ((cfg1.win 11).blk t).view.set ↔ ∀ a : Fin 3, win1_11.index t a * S1x256x4.size a ≤ (i a).val ∧ (i a).val < win1_11.index t a * S1x256x4.size a + S1x256x4.size a := by
  show i ∈ ((View.whole main_v11_1).slice (win1_11.rect t)).set ↔ _
  rw [View.set_slice_whole, Rect.mem_set_unit]
  exact Iff.rfl

/-- Every entry of the result is in the block of the point of its batch and row tile. -/
theorem cover11 (i : S4x2048x4.Idx) : ∃ t : Fin cfg1.N, (cfg1.win 11).flush t = true ∧ i ∈ ((cfg1.win 11).blk t).view.set := by
  have h0 : (i 0).val < 4 := (i 0).isLt
  have h1 : (i 1).val < 2048 := (i 1).isLt
  have h2 : (i 2).val < 4 := (i 2).isLt
  obtain ⟨t, ht⟩ : ∃ t : Fin cfg1.N, t.val = 8 * (i 0).val + (i 1).val / 256 := ⟨⟨8 * (i 0).val + (i 1).val / 256, by rw [N1]; omega⟩, rfl⟩
  obtain ⟨e0, e1, e2⟩ := idxw11 t
  refine ⟨t, flush1_11 t, ?_⟩
  rw [mem_blk11]
  intro a
  match a with
  | ⟨0, _⟩ =>
    show win1_11.index t (0 : Fin 3) * 1 ≤ (i 0).val ∧ (i 0).val < win1_11.index t (0 : Fin 3) * 1 + 1
    omega
  | ⟨1, _⟩ =>
    show win1_11.index t (1 : Fin 3) * 256 ≤ (i 1).val ∧ (i 1).val < win1_11.index t (1 : Fin 3) * 256 + 256
    omega
  | ⟨2, _⟩ =>
    show win1_11.index t (2 : Fin 3) * 4 ≤ (i 2).val ∧ (i 2).val < win1_11.index t (2 : Fin 3) * 4 + 4
    omega

/-- An entry is in a point's block of this result iff each coordinate is in the block's range on its axis. -/
theorem mem_blk12 (t : Fin cfg1.N) (i : S4x2048x2048.Idx) :
    i ∈ ((cfg1.win 12).blk t).view.set ↔ ∀ a : Fin 3, win1_12.index t a * S1x256x2048.size a ≤ (i a).val ∧ (i a).val < win1_12.index t a * S1x256x2048.size a + S1x256x2048.size a := by
  show i ∈ ((View.whole main_v11_2).slice (win1_12.rect t)).set ↔ _
  rw [View.set_slice_whole, Rect.mem_set_unit]
  exact Iff.rfl

/-- Every entry of the result is in the block of the point of its batch and row tile. -/
theorem cover12 (i : S4x2048x2048.Idx) : ∃ t : Fin cfg1.N, (cfg1.win 12).flush t = true ∧ i ∈ ((cfg1.win 12).blk t).view.set := by
  have h0 : (i 0).val < 4 := (i 0).isLt
  have h1 : (i 1).val < 2048 := (i 1).isLt
  have h2 : (i 2).val < 2048 := (i 2).isLt
  obtain ⟨t, ht⟩ : ∃ t : Fin cfg1.N, t.val = 8 * (i 0).val + (i 1).val / 256 := ⟨⟨8 * (i 0).val + (i 1).val / 256, by rw [N1]; omega⟩, rfl⟩
  obtain ⟨e0, e1, e2⟩ := idxw12 t
  refine ⟨t, flush1_12 t, ?_⟩
  rw [mem_blk12]
  intro a
  match a with
  | ⟨0, _⟩ =>
    show win1_12.index t (0 : Fin 3) * 1 ≤ (i 0).val ∧ (i 0).val < win1_12.index t (0 : Fin 3) * 1 + 1
    omega
  | ⟨1, _⟩ =>
    show win1_12.index t (1 : Fin 3) * 256 ≤ (i 1).val ∧ (i 1).val < win1_12.index t (1 : Fin 3) * 256 + 256
    omega
  | ⟨2, _⟩ =>
    show win1_12.index t (2 : Fin 3) * 2048 ≤ (i 2).val ∧ (i 2).val < win1_12.index t (2 : Fin 3) * 2048 + 2048
    omega

/-- An entry is in a point's block of this result iff each coordinate is in the block's range on its axis. -/
theorem mem_blk13 (t : Fin cfg1.N) (i : S4x2048x2048.Idx) :
    i ∈ ((cfg1.win 13).blk t).view.set ↔ ∀ a : Fin 3, win1_13.index t a * S1x256x2048.size a ≤ (i a).val ∧ (i a).val < win1_13.index t a * S1x256x2048.size a + S1x256x2048.size a := by
  show i ∈ ((View.whole main_v11_3).slice (win1_13.rect t)).set ↔ _
  rw [View.set_slice_whole, Rect.mem_set_unit]
  exact Iff.rfl

/-- Every entry of the result is in the block of the point of its batch and row tile. -/
theorem cover13 (i : S4x2048x2048.Idx) : ∃ t : Fin cfg1.N, (cfg1.win 13).flush t = true ∧ i ∈ ((cfg1.win 13).blk t).view.set := by
  have h0 : (i 0).val < 4 := (i 0).isLt
  have h1 : (i 1).val < 2048 := (i 1).isLt
  have h2 : (i 2).val < 2048 := (i 2).isLt
  obtain ⟨t, ht⟩ : ∃ t : Fin cfg1.N, t.val = 8 * (i 0).val + (i 1).val / 256 := ⟨⟨8 * (i 0).val + (i 1).val / 256, by rw [N1]; omega⟩, rfl⟩
  obtain ⟨e0, e1, e2⟩ := idxw13 t
  refine ⟨t, flush1_13 t, ?_⟩
  rw [mem_blk13]
  intro a
  match a with
  | ⟨0, _⟩ =>
    show win1_13.index t (0 : Fin 3) * 1 ≤ (i 0).val ∧ (i 0).val < win1_13.index t (0 : Fin 3) * 1 + 1
    omega
  | ⟨1, _⟩ =>
    show win1_13.index t (1 : Fin 3) * 256 ≤ (i 1).val ∧ (i 1).val < win1_13.index t (1 : Fin 3) * 256 + 256
    omega
  | ⟨2, _⟩ =>
    show win1_13.index t (2 : Fin 3) * 2048 ≤ (i 2).val ∧ (i 2).val < win1_13.index t (2 : Fin 3) * 2048 + 2048
    omega

variable (V : (c : Dev nD) → (b : Ref sig .tc) → Buf (Elt Ideal) ((c : Thread nD τ).loc b))
variable (c : Dev nD)

/-- The four results as functions of the arrays the region finds. -/
def G10 : S4x2048x6.Idx → EReal := Cert.Spec.ht (V c main_arg0) (V c main_arg1) (V c main_arg2) (V c main_arg3) (V c main_arg5) (V c main_arg6)
def G11 : S4x2048x4.Idx → EReal := Cert.Spec.ar1 (V c main_arg0) (V c main_arg1) (V c main_arg2) (V c main_arg3) (V c main_arg5) (V c main_arg6)
def G12 : S4x2048x2048.Idx → EReal := fun j => Cert.Spec.sm (V c main_arg4) (j 0) (j 1) (j 2)
def G13 : S4x2048x2048.Idx → EReal := fun j => Cert.Spec.P (V c main_arg2) (j 0) (j 1) (j 2)

section
variable (hcs : ∀ (b : Fin 4) (p : Fin 2048), V c main_v1 (ix3 b p (0 : Fin 1)) = Cert.Spec.cs (V c main_arg2) b p)
variable (hmm : ∀ b : Fin 4, V c main_v10 (ix3 b (0 : Fin 1) (0 : Fin 1)) = Cert.Spec.mm (V c main_arg2) (V c main_arg3) b)

include hcs hmm in
theorem flushed10_eq (t : Fin cfg1.N) :
    (dat1 V c).flushed 10 t = ((cfg1.win 10).blk t).view.read (Elt Ideal) (G10 V c) := by
  show (cfg1.win 10).cut (grid1.coords t) ((dat1 V c).after 10 t) = _
  rw [after1_10]
  unfold out1_10
  rw [View.canon_unit_zero hz3]
  funext y
  obtain ⟨u, r, k, rfl⟩ : ∃ (u : Fin 1) (r : Fin 256) (k : Fin 6), y = ix3 u r k := ⟨y 0, y 1, y 2, eq_ix3 y⟩
  obtain rfl : u = 0 := Subsingleton.elim _ _
  rw [View.read_apply, emb10]
  exact ht_block V c t r hcs hmm k

include hmm in
theorem flushed11_eq (t : Fin cfg1.N) :
    (dat1 V c).flushed 11 t = ((cfg1.win 11).blk t).view.read (Elt Ideal) (G11 V c) := by
  show (cfg1.win 11).cut (grid1.coords t) ((dat1 V c).after 11 t) = _
  rw [after1_11]
  unfold out1_11
  rw [View.canon_unit_zero hz3]
  funext y
  obtain ⟨u, r, k, rfl⟩ : ∃ (u : Fin 1) (r : Fin 256) (k : Fin 4), y = ix3 u r k := ⟨y 0, y 1, y 2, eq_ix3 y⟩
  obtain rfl : u = 0 := Subsingleton.elim _ _
  rw [View.read_apply, emb11]
  exact ar1_block V c t r hmm k

theorem flushed12_eq (t : Fin cfg1.N) :
    (dat1 V c).flushed 12 t = ((cfg1.win 12).blk t).view.read (Elt Ideal) (G12 V c) := by
  show (cfg1.win 12).cut (grid1.coords t) ((dat1 V c).after 12 t) = _
  rw [after1_12]
  unfold out1_12
  rw [View.canon_unit_zero hz3]
  funext y
  obtain ⟨u, r, q, rfl⟩ : ∃ (u : Fin 1) (r : Fin 256) (q : Fin 2048), y = ix3 u r q := ⟨y 0, y 1, y 2, eq_ix3 y⟩
  obtain rfl : u = 0 := Subsingleton.elim _ _
  rw [View.read_apply, emb12]
  show k1_pay3 (k1_pay6 (grid1.coords t) (iblk1 V c 1 t)) (ix3 (0 : Fin 1) r q) = Cert.Spec.sm (V c main_arg4) (bOf t) (pOf t r) q
  rw [pay3_apply, pay6_apply _ (coord1_lt t), rd1]
  unfold Cert.Spec.sm
  exact if_congr (pOf_eq_iff t r q) rfl rfl

include hcs in
theorem flushed13_eq (t : Fin cfg1.N) :
    (dat1 V c).flushed 13 t = ((cfg1.win 13).blk t).view.read (Elt Ideal) (G13 V c) := by
  show (cfg1.win 13).cut (grid1.coords t) ((dat1 V c).after 13 t) = _
  rw [after1_13]
  unfold out1_13
  rw [View.canon_unit_zero hz3]
  funext y
  obtain ⟨u, r, q, rfl⟩ : ∃ (u : Fin 1) (r : Fin 256) (q : Fin 2048), y = ix3 u r q := ⟨y 0, y 1, y 2, eq_ix3 y⟩
  obtain rfl : u = 0 := Subsingleton.elim _ _
  rw [View.read_apply, emb13]
  show k1_pay4 (k1_pay7 (grid1.coords t) (iblk1 V c 0 t) (iblk1 V c 2 t)) (ix3 (0 : Fin 1) r q) = Cert.Spec.P (V c main_arg2) (bOf t) (pOf t r) q
  rw [pay4_apply]
  exact P_at V c t r hcs q

include hcs hmm in
/-- THE FOUR RESULT ARRAYS after the region. -/
theorem final10 : (dat1 V c).arrAt 10 cfg1.N = G10 V c :=
  (dat1 V c).arrAt_eq_of_cover 10 (G10 V c) (fun t _ => flushed10_eq V c hcs hmm t) cover10
include hmm in
theorem final11 : (dat1 V c).arrAt 11 cfg1.N = G11 V c :=
  (dat1 V c).arrAt_eq_of_cover 11 (G11 V c) (fun t _ => flushed11_eq V c hmm t) cover11
theorem final12 : (dat1 V c).arrAt 12 cfg1.N = G12 V c :=
  (dat1 V c).arrAt_eq_of_cover 12 (G12 V c) (fun t _ => flushed12_eq V c t) cover12
include hcs in
theorem final13 : (dat1 V c).arrAt 13 cfg1.N = G13 V c :=
  (dat1 V c).arrAt_eq_of_cover 13 (G13 V c) (fun t _ => flushed13_eq V c hcs t) cover13

end

end Cert.KernelIdeal.Val1

end
-- ==== Proof.Val2.lean ====
import proofs.«166416_j86079734546455_2_alg».proof.Proof.RunVals
import proofs.«166416_j86079734546455_2_alg».proof.Proof.Spec
import Idealize.ShloMosaic.Lib.Pipeline.Value
import Idealize.ShloMosaic.Lib.StableHlo.Run
import Idealize.ShloMosaic.Lib.ValueIdx

/-!
# The last host stretch: the two matrices stacked along a new last axis

After the main region the program gives each of its two matrix results a trailing unit axis and joins them
along it. At (b, p, q, 0) the joined array is the first matrix at (b, p, q), at (b, p, q, 1) the second; the
two vector results of the main region are not touched by these three operations.
-/

noncomputable section

namespace Cert.KernelIdeal.Val2

open Cert.KernelIdeal Cert.KernelIdeal.Gen Cert.KernelIdeal.Hand
open Idealize.ShloMosaic Idealize.ShloMosaic.ValueIdx

/-- A matrix given a trailing unit axis, read at (b, p, q, 0), is the matrix at (b, p, q). -/
theorem bcast_last (x : S4x2048x2048.Idx → EReal) (b : Fin 4) (p q : Fin 2048) :
    broadcastInDim S4x2048x2048x1 ![0, 1, 2] bcast_S4x2048x2048_S4x2048x2048x1_0_1_2 x (ix4 b p q (0 : Fin 1))
      = x (ix3 b p q) :=
  broadcastInDim_apply _ bcast_S4x2048x2048_S4x2048x2048x1_0_1_2 x _ (ix3 b p q) (fun a => match a with
    | ⟨0, _⟩ => by show b.val = if (4 : Nat) = 1 then 0 else b.val; rw [if_neg (by decide)]
    | ⟨1, _⟩ => by show p.val = if (2048 : Nat) = 1 then 0 else p.val; rw [if_neg (by decide)]
    | ⟨2, _⟩ => by show q.val = if (2048 : Nat) = 1 then 0 else q.val; rw [if_neg (by decide)])

variable (m : (ℓ : Loc nD τ sig) → Buf (Elt Ideal) ℓ) (c : Dev nD)

/-- The third result: when the main region leaves the second matrix without its diagonal and the transition
    weights in its two matrix results, the program returns them side by side on the last axis. -/
theorem W4_v14 (a2 a4 : FVec Ideal Cert.Spec.A422 .f32)
    (h12 : W3 m c (Proc.devRef .tc main_v11_2) = fun j => Cert.Spec.sm a4 (j 0) (j 1) (j 2))
    (h13 : W3 m c (Proc.devRef .tc main_v11_3) = fun j => Cert.Spec.P a2 (j 0) (j 1) (j 2)) :
    W4 m c (Proc.devRef .tc main_v14) = Cert.Spec.ar2 a2 a4 := by
  show StableHlo.after hostOps2 (W3 m c) (Proc.devRef .tc main_v14) = _
  after_results
  rw [h12, h13]
  funext j
  obtain ⟨b, p, q, k, rfl⟩ : ∃ (b : Fin 4) (p q : Fin 2048) (k : Fin 2), j = ix4 b p q k :=
    ⟨j 0, j 1, j 2, j 3, eq_ix4 j⟩
  match k with
  | ⟨0, _⟩ =>
    refine Eq.trans (concatenate_apply_piece (t := S4x2048x2048x2) 3 _ _ _ 0 (by simp) S4x2048x2048x1 _ rfl rfl 0 rfl
      (ix4 b p q (0 : Fin 1))
      (fun a ha => by match a with | ⟨0, _⟩ => rfl | ⟨1, _⟩ => rfl | ⟨2, _⟩ => rfl | ⟨3, _⟩ => exact absurd rfl ha) rfl) ?_
    rw [bcast_last]
    rfl
  | ⟨1, _⟩ =>
    refine Eq.trans (concatenate_apply_piece (t := S4x2048x2048x2) 3 _ _ _ 1 (by simp) S4x2048x2048x1 _ rfl rfl 1 rfl
      (ix4 b p q (0 : Fin 1))
      (fun a ha => by match a with | ⟨0, _⟩ => rfl | ⟨1, _⟩ => rfl | ⟨2, _⟩ => rfl | ⟨3, _⟩ => exact absurd rfl ha) rfl) ?_
    rw [bcast_last]
    rfl

/-- The three operations write neither vector result of the main region. -/
theorem W4_v11_0 : W4 m c (Proc.devRef .tc main_v11_0) = W3 m c (Proc.devRef .tc main_v11_0) :=
  StableHlo.after_of_writes_sub hostOps2 _ hostOps2_writes (by decide)

theorem W4_v11_1 : W4 m c (Proc.devRef .tc main_v11_1) = W3 m c (Proc.devRef .tc main_v11_1) :=
  StableHlo.after_of_writes_sub hostOps2 _ hostOps2_writes (by decide)

end Cert.KernelIdeal.Val2

end
-- ==== Proof.ValRun.lean ====
/-
  The idealized kernel program's results, as the specification's functions of the launch arrays.

  The main region finds the transposed column sums and the mobility rate the column-sum pass and the host
  operations before it left, which are the specification's; so its four result arrays are the
  specification's functions of the arrays at launch; the last host operations stack the two matrices; and
  the run's final memory holds them.
-/
import proofs.«166416_j86079734546455_2_alg».proof.Proof.Run
import proofs.«166416_j86079734546455_2_alg».proof.Proof.Val0G
import proofs.«166416_j86079734546455_2_alg».proof.Proof.Val1Fin
import proofs.«166416_j86079734546455_2_alg».proof.Proof.Val2

set_option maxRecDepth 16384

noncomputable section

namespace Cert.KernelIdeal.KVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-- What the main region finds where the specification's column sums and mobility rate should be. -/
theorem hcs2 : ∀ (b : Fin 4) (p : Fin 2048), V2r m c main_v1 (ix3 b p (0 : Fin 1)) = Cert.Spec.cs (V2r m c main_arg2) b p := fun b p =>
  (Val0.W2_v1 m c b p).trans (by rw [show V2r m c main_arg2 = m ((c : Thread nD τ).loc main_arg2) from Val0.W2_arg2 m c])
theorem hmm2 : ∀ b : Fin 4, V2r m c main_v10 (ix3 b (0 : Fin 1) (0 : Fin 1)) = Cert.Spec.mm (V2r m c main_arg2) (V2r m c main_arg3) b := fun b =>
  (Val0.W2_v10 m c b).trans (by rw [show V2r m c main_arg2 = m ((c : Thread nD τ).loc main_arg2) from Val0.W2_arg2 m c,
    show V2r m c main_arg3 = m ((c : Thread nD τ).loc main_arg3) from Val0.W2_arg3 m c])

/-- The first result: the six updated columns. -/
theorem v11_0 : W4 m c (Proc.devRef .tc main_v11_0)
    = Cert.Spec.ht (m ((c : Thread nD τ).loc main_arg0)) (m ((c : Thread nD τ).loc main_arg1)) (m ((c : Thread nD τ).loc main_arg2))
        (m ((c : Thread nD τ).loc main_arg3)) (m ((c : Thread nD τ).loc main_arg5)) (m ((c : Thread nD τ).loc main_arg6)) := by
  refine (Val2.W4_v11_0 m c).trans ((W3_10 m c).trans ((Val1.final10 (V2r m) c (hcs2 m c) (hmm2 m c)).trans ?_))
  unfold Val1.G10
  rw [show V2r m c main_arg0 = m ((c : Thread nD τ).loc main_arg0) from Val0.W2_arg0 m c,
    show V2r m c main_arg1 = m ((c : Thread nD τ).loc main_arg1) from Val0.W2_arg1 m c,
    show V2r m c main_arg2 = m ((c : Thread nD τ).loc main_arg2) from Val0.W2_arg2 m c,
    show V2r m c main_arg3 = m ((c : Thread nD τ).loc main_arg3) from Val0.W2_arg3 m c,
    show V2r m c main_arg5 = m ((c : Thread nD τ).loc main_arg5) from Val0.W2_arg5 m c,
    show V2r m c main_arg6 = m ((c : Thread nD τ).loc main_arg6) from Val0.W2_arg6 m c]

/-- The second result: the four columns. -/
theorem v11_1 : W4 m c (Proc.devRef .tc main_v11_1)
    = Cert.Spec.ar1 (m ((c : Thread nD τ).loc main_arg0)) (m ((c : Thread nD τ).loc main_arg1)) (m ((c : Thread nD τ).loc main_arg2))
        (m ((c : Thread nD τ).loc main_arg3)) (m ((c : Thread nD τ).loc main_arg5)) (m ((c : Thread nD τ).loc main_arg6)) := by
  refine (Val2.W4_v11_1 m c).trans ((W3_11 m c).trans ((Val1.final11 (V2r m) c (hmm2 m c)).trans ?_))
  unfold Val1.G11
  rw [show V2r m c main_arg0 = m ((c : Thread nD τ).loc main_arg0) from Val0.W2_arg0 m c,
    show V2r m c main_arg1 = m ((c : Thread nD τ).loc main_arg1) from Val0.W2_arg1 m c,
    show V2r m c main_arg2 = m ((c : Thread nD τ).loc main_arg2) from Val0.W2_arg2 m c,
    show V2r m c main_arg3 = m ((c : Thread nD τ).loc main_arg3) from Val0.W2_arg3 m c,
    show V2r m c main_arg5 = m ((c : Thread nD τ).loc main_arg5) from Val0.W2_arg5 m c,
    show V2r m c main_arg6 = m ((c : Thread nD τ).loc main_arg6) from Val0.W2_arg6 m c]

/-- The third result: the two matrices side by side. -/
theorem v14 : W4 m c (Proc.devRef .tc main_v14)
    = Cert.Spec.ar2 (m ((c : Thread nD τ).loc main_arg2)) (m ((c : Thread nD τ).loc main_arg4)) := by
  refine Val2.W4_v14 m c _ _ ((W3_12 m c).trans ((Val1.final12 (V2r m) c).trans ?_)) ((W3_13 m c).trans ((Val1.final13 (V2r m) c (hcs2 m c)).trans ?_))
  · unfold Val1.G12
    rw [show V2r m c main_arg4 = m ((c : Thread nD τ).loc main_arg4) from Val0.W2_arg4 m c]
    rfl
  · unfold Val1.G13
    rw [show V2r m c main_arg2 = m ((c : Thread nD τ).loc main_arg2) from Val0.W2_arg2 m c]
    rfl

variable (ρ : Dev nD → PrngReg)

/-- THE RUN, READ: the three results at the specification's functions of the launch arrays, the arguments unchanged. -/
theorem run : θ_run defs (onTc (τ := τ) (main (F := Ideal))) ⟨m, fun _ => 0, ρ⟩ (fun r => ∀ c : Dev nD,
      r.2.mem ((c.tc : Thread nD τ).loc main_v11_0)
          = Cert.Spec.ht (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg5)) (m ((c.tc : Thread nD τ).loc main_arg6))
      ∧ r.2.mem ((c.tc : Thread nD τ).loc main_v11_1)
          = Cert.Spec.ar1 (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg5)) (m ((c.tc : Thread nD τ).loc main_arg6))
      ∧ r.2.mem ((c.tc : Thread nD τ).loc main_v14)
          = Cert.Spec.ar2 (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v11_0 (by decide))).trans (v11_0 m c),
     (h c _ (mem_uc main_v11_1 (by decide))).trans (v11_1 m c),
     (h c _ (mem_uc main_v14 (by decide))).trans (v14 m c),
     (h c _ (mem_uc main_arg0 (by decide))).trans (W4_arg m c main_arg0 (by decide) (by decide) (by decide) (by decide)),
     (h c _ (mem_uc main_arg1 (by decide))).trans (W4_arg m c main_arg1 (by decide) (by decide) (by decide) (by decide)),
     (h c _ (mem_uc main_arg2 (by decide))).trans (W4_arg m c main_arg2 (by decide) (by decide) (by decide) (by decide)),
     (h c _ (mem_uc main_arg3 (by decide))).trans (W4_arg m c main_arg3 (by decide) (by decide) (by decide) (by decide)),
     (h c _ (mem_uc main_arg4 (by decide))).trans (W4_arg m c main_arg4 (by decide) (by decide) (by decide) (by decide)),
     (h c _ (mem_uc main_arg5 (by decide))).trans (W4_arg m c main_arg5 (by decide) (by decide) (by decide) (by decide)),
     (h c _ (mem_uc main_arg6 (by decide))).trans (W4_arg m c main_arg6 (by decide) (by decide) (by decide) (by decide))⟩)
    (run_all m ρ)

end Cert.KernelIdeal.KVal

end
-- ==== Proof.RefMob.lean ====
import proofs.«166416_j86079734546455_2_alg».proof.Proof.Gen.ReferenceIdeal.Read
import proofs.«166416_j86079734546455_2_alg».proof.Proof.Spec

/-!
# The reference's mobility side, stage by stage, at an index built from coordinates

The mask is the comparison of the row number with the column number, both below 2048 and so far below 2^32:
it is the bit 1 exactly on the diagonal. From it: the two matrices without their diagonals, the column sums,
the transition weights, and the total flow of a batch, which the reference sums over two axes at once: the
indices that drop to batch b are exactly the (b, p, q), so the sum is the double sum over p and q.
-/

noncomputable section

namespace Cert.RefSide

open Cert.ReferenceIdeal Cert.ReferenceIdeal.Gen Cert.ReferenceIdeal.Read Idealize.ShloMosaic Idealize.ShloMosaic.ValueIdx
open scoped BigOperators

/-- Two indices with equal coordinates are equal: the tactics that check it axis by axis, one per rank. -/
macro "idx_eq1" : tactic => `(tactic| (funext a; match a with | ⟨0, _⟩ => rfl))
macro "idx_eq2" : tactic => `(tactic| (funext a; match a with | ⟨0, _⟩ => rfl | ⟨1, _⟩ => rfl))
macro "idx_eq3" : tactic => `(tactic| (funext a; match a with | ⟨0, _⟩ => rfl | ⟨1, _⟩ => rfl | ⟨2, _⟩ => rfl))
macro "idx_eq4" : tactic =>
  `(tactic| (funext a; match a with | ⟨0, _⟩ => rfl | ⟨1, _⟩ => rfl | ⟨2, _⟩ => rfl | ⟨3, _⟩ => rfl))

/-- A rank-3 index set is the triple product of its coordinate ranges, so a sum over it is the triple sum over
    the coordinates. -/
def idxEquiv3 {n0 n1 n2 : Nat} : (⟨3, ![n0, n1, n2]⟩ : Shape).Idx ≃ Fin n0 × Fin n1 × Fin n2 where
  toFun i := (i 0, i 1, i 2)
  invFun t := ix3 t.1 t.2.1 t.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The diagonal mask -/

/-- Numbers below 2048 are equal as 32-bit words exactly when they are equal. -/
theorem ofNat32_inj (p q : Fin 2048) : BitVec.ofNat 32 p.val = BitVec.ofNat 32 q.val ↔ p = q := by
  constructor
  · intro h
    have h' := congrArg BitVec.toNat h
    simp only [BitVec.toNat_ofNat] at h'
    have hp := p.isLt; have hq := q.isLt
    exact Fin.ext (by omega)
  · rintro rfl; rfl

/-- The mask at (p, q): the bit 1 on the diagonal, 0 off it. -/
theorem v4_at (p q : Fin 2048) : val_main_v4 (F := Ideal) (ix2 p q) = if p = q then 1#1 else 0#1 := by
  rw [val_main_v4_apply, val_main_v3_apply, val_main_v0_apply, val_main_v1_apply, val_main_v2_apply, val_main_c_apply]
  show IntOp.cmpi .eq (IntOp.addi (BitVec.ofNat 32 p.val) 0#32) (BitVec.ofNat 32 q.val) = _
  unfold IntOp.cmpi IntOp.addi
  rw [BitVec.add_zero]
  by_cases h : p = q
  · rw [if_pos h, h]; simp
  · rw [if_neg h]
    have : ¬ BitVec.ofNat 32 p.val = BitVec.ofNat 32 q.val := fun e => h ((ofNat32_inj p q).1 e)
    rw [show (BitVec.ofNat 32 p.val == BitVec.ofNat 32 q.val) = false from beq_eq_false_iff_ne.2 this]; rfl

theorem v5_at (p q : Fin 2048) : val_main_v5 (F := Ideal) (ix3 (0 : Fin 1) p q) = if p = q then 1#1 else 0#1 := by
  rw [val_main_v5_apply, show idx_main_v5 (ix3 (0 : Fin 1) p q) = ix2 p q from by idx_eq2, v4_at]

theorem v7_at (p q : Fin 2048) : val_main_v7 (F := Ideal) (ix3 (0 : Fin 1) p q) = if p = q then 1#1 else 0#1 := by
  rw [val_main_v7_apply, show idx_main_v7 (ix3 (0 : Fin 1) p q) = ix2 p q from by idx_eq2, v4_at]

theorem call0_v1_at (b : Fin 4) (p q : Fin 2048) :
    val_main_call0_v1 (F := Ideal) (ix3 b p q) = if p = q then 1#1 else 0#1 := by
  rw [val_main_call0_v1_apply, show idx_main_call0_v1 (ix3 b p q) = ix3 (0 : Fin 1) p q from by idx_eq3, v5_at]

theorem call1_v1_at (b : Fin 4) (p q : Fin 2048) :
    val_main_call1_v1 (F := Ideal) (ix3 b p q) = if p = q then 1#1 else 0#1 := by
  rw [val_main_call1_v1_apply, show idx_main_call1_v1 (ix3 b p q) = ix3 (0 : Fin 1) p q from by idx_eq3, v7_at]

theorem call0_v2_at (i : S4x2048x2048.Idx) : val_main_call0_v2 (F := Ideal) i = Spec.zeroW := by
  rw [val_main_call0_v2_apply, val_main_call0_v0_apply, val_main_cst_apply]; rfl

theorem call1_v2_at (i : S4x2048x2048.Idx) : val_main_call1_v2 (F := Ideal) i = Spec.zeroW := by
  rw [val_main_call1_v2_apply, val_main_call1_v0_apply, val_main_cst_0_apply]; rfl

/-- A select on the diagonal bit is the if on the diagonal. -/
theorem select_diag {α : Type} (p q : Fin 2048) (A B : α) :
    Scalar.select (if p = q then 1#1 else 0#1) A B = if p = q then A else B := by
  by_cases h : p = q
  · rw [if_pos h, if_pos h, select_one]
  · rw [if_neg h, if_neg h, select_zero]

/-! ## The matrices without their diagonals -/

theorem v6_at (x2 : FVec Ideal S4x2048x2048 .f32) (b : Fin 4) (p q : Fin 2048) :
    val_main_v6 (F := Ideal) x2 (ix3 b p q) = Spec.F x2 b p q := by
  rw [val_main_v6_apply, call0_v1_at, call0_v2_at, select_diag]; rfl

theorem v8_at (x4 : FVec Ideal S4x2048x2048 .f32) (b : Fin 4) (p q : Fin 2048) :
    val_main_v8 (F := Ideal) x4 (ix3 b p q) = Spec.sm x4 b p q := by
  rw [val_main_v8_apply, call1_v1_at, call1_v2_at, select_diag]; rfl

/-! ## Column sums and transition weights -/

theorem v9_at (x2 : FVec Ideal S4x2048x2048 .f32) (b : Fin 4) (q : Fin 2048) :
    val_main_v9 (F := Ideal) x2 (ix2 b q) = Spec.cs x2 b q := by
  rw [val_main_v9_apply, val_main_cst_1_apply]
  show Ideal.ofBits .f32 0x00000000#32 + _ = _
  rw [Ideal.ofBits_zero_f32, zero_add, Spec.cs]
  refine Finset.sum_congr rfl fun k _ => ?_
  rw [show idx_main_v9 (ix2 b q) k = ix3 b k q from by idx_eq3, v6_at]

theorem v10_at (x2 : FVec Ideal S4x2048x2048 .f32) (b : Fin 4) (p : Fin 2048) :
    val_main_v10 (F := Ideal) x2 (ix3 b p (0 : Fin 1)) = Spec.cs x2 b p := by
  rw [val_main_v10_apply, show idx_main_v10 (ix3 b p (0 : Fin 1)) = ix2 b p from by idx_eq2, v9_at]

theorem v11_at (x2 : FVec Ideal S4x2048x2048 .f32) (b : Fin 4) (p q : Fin 2048) :
    val_main_v11 (F := Ideal) x2 (ix3 b p q) = Spec.cs x2 b p := by
  rw [val_main_v11_apply, show idx_main_v11 (ix3 b p q) = ix3 b p (0 : Fin 1) from by idx_eq3, v10_at]

theorem v12_at (x2 : FVec Ideal S4x2048x2048 .f32) (b : Fin 4) (p q : Fin 2048) :
    val_main_v12 (F := Ideal) x2 (ix3 b p q) = Spec.P x2 b p q := by
  rw [val_main_v12_apply, v6_at, v11_at]; rfl

/-! ## The total flow: a sum over two axes at once -/

/-- The indices of a batch-by-region-by-region array that drop to batch b are the (b, p, q): the sum over
    them is the double sum over p and q. -/
theorem sum_filter_drop_batch (y : S4x2048x2048.Idx → EReal) (b : Fin 4)
    [DecidablePred fun i : S4x2048x2048.Idx => reducesTo_S4x2048x2048_S4_d1_2.drop i = ix1 b] :
    ∑ i ∈ Finset.univ.filter (fun i : S4x2048x2048.Idx => reducesTo_S4x2048x2048_S4_d1_2.drop i = ix1 b), y i
      = ∑ p : Fin 2048, ∑ q : Fin 2048, y (ix3 b p q) := by
  have hd : ∀ i : S4x2048x2048.Idx, (reducesTo_S4x2048x2048_S4_d1_2.drop i 0 : Nat) = (i 0).val := fun i =>
    Shape.ReducesTo.drop_apply_val_of_eq reducesTo_S4x2048x2048_S4_d1_2 i 0 0
  have hmem : ∀ (a : Fin 4) (p q : Fin 2048),
      reducesTo_S4x2048x2048_S4_d1_2.drop (ix3 a p q) = ix1 b ↔ a = b := fun a p q => by
    constructor
    · intro h; exact Fin.ext ((hd (ix3 a p q)).symm.trans (congrArg (fun j : S4.Idx => (j 0).val) h))
    · rintro rfl; funext c
      match c with
      | ⟨0, _⟩ => exact Fin.ext (hd (ix3 a p q))
  rw [Finset.sum_filter, sum_idx3, Finset.sum_eq_single b]
  · refine Finset.sum_congr rfl fun p _ => Finset.sum_congr rfl fun q _ => ?_
    rw [if_pos ((hmem b p q).2 rfl)]
  · intro a _ hab
    refine Finset.sum_eq_zero fun p _ => Finset.sum_eq_zero fun q _ => ?_
    rw [if_neg (fun h => hab ((hmem a p q).1 h))]
  · intro h; exact absurd (Finset.mem_univ b) h

theorem v13_at (x2 : FVec Ideal S4x2048x2048 .f32) (b : Fin 4) :
    val_main_v13 (F := Ideal) x2 (ix1 b) = Spec.fai x2 b := by
  unfold val_main_v13
  have hy : ∀ (b : Fin 4) (p q : Fin 2048), val_main_v6 (F := Ideal) x2 (ix3 b p q) = Spec.F x2 b p q := v6_at x2
  generalize val_main_v6 (F := Ideal) x2 = y0 at hy
  simp only [Host.reduceAdd, Ideal.hostReduceAdd_def]
  unfold Ideal.hostReduceAdd
  rw [sum_filter_drop_batch, val_main_cst_2_apply]
  show Ideal.ofBits .f32 0x00000000#32 + _ = _
  rw [Ideal.ofBits_zero_f32, zero_add, Spec.fai]
  exact Finset.sum_congr rfl fun p _ => Finset.sum_congr rfl fun q _ => hy b p q

theorem v14_at (x2 : FVec Ideal S4x2048x2048 .f32) (b : Fin 4) :
    val_main_v14 (F := Ideal) x2 (ix2 b (0 : Fin 1)) = Spec.fai x2 b := by
  rw [val_main_v14_apply, show idx_main_v14 (ix2 b (0 : Fin 1)) = ix1 b from by idx_eq1, v13_at]

end Cert.RefSide

end
-- ==== Proof.RefSir.lean ====
import proofs.«166416_j86079734546455_2_alg».proof.Proof.RefMob

/-!
# The reference's compartment side, stage by stage, at (batch, region)

Every stage here is a column [4, 2048, 1]; at the index (b, p, 0) it is read from the compartments' columns
at (b, p), the rates of region p, the mobility rate of batch b (a sum over regions divided into the total
flow), and the three matrix-vector products with the transition weights, each a sum over the regions.
-/

noncomputable section

namespace Cert.RefSide

open Cert.ReferenceIdeal Cert.ReferenceIdeal.Gen Cert.ReferenceIdeal.Read Idealize.ShloMosaic Idealize.ShloMosaic.ValueIdx
open scoped BigOperators

/-! ## The compartments' columns and the population -/

theorem v15_at (x3 : FVec Ideal S4x2048x4 .f32) (b : Fin 4) (p : Fin 2048) :
    val_main_v15 (F := Ideal) x3 (ix3 b p (0 : Fin 1)) = Spec.Sv x3 b p := by
  rw [val_main_v15_apply, show idx_main_v15 (ix3 b p (0 : Fin 1)) = ix3 b p (0 : Fin 4) from by idx_eq3]; rfl

theorem v16_at (x3 : FVec Ideal S4x2048x4 .f32) (b : Fin 4) (p : Fin 2048) :
    val_main_v16 (F := Ideal) x3 (ix3 b p (0 : Fin 1)) = Spec.Iv x3 b p := by
  rw [val_main_v16_apply, show idx_main_v16 (ix3 b p (0 : Fin 1)) = ix3 b p (1 : Fin 4) from by idx_eq3]; rfl

theorem v17_at (x3 : FVec Ideal S4x2048x4 .f32) (b : Fin 4) (p : Fin 2048) :
    val_main_v17 (F := Ideal) x3 (ix3 b p (0 : Fin 1)) = Spec.Rv x3 b p := by
  rw [val_main_v17_apply, show idx_main_v17 (ix3 b p (0 : Fin 1)) = ix3 b p (2 : Fin 4) from by idx_eq3]; rfl

theorem v18_at (x3 : FVec Ideal S4x2048x4 .f32) (b : Fin 4) (p : Fin 2048) :
    val_main_v18 (F := Ideal) x3 (ix3 b p (0 : Fin 1)) = Spec.Isv x3 b p := by
  rw [val_main_v18_apply, show idx_main_v18 (ix3 b p (0 : Fin 1)) = ix3 b p (3 : Fin 4) from by idx_eq3]; rfl

theorem v20_at (x3 : FVec Ideal S4x2048x4 .f32) (b : Fin 4) (p : Fin 2048) :
    val_main_v20 (F := Ideal) x3 (ix3 b p (0 : Fin 1)) = Spec.pop x3 b p := by
  rw [val_main_v20_apply, val_main_v19_apply, v15_at, v16_at, v17_at]; rfl

/-! ## The mobility rate of a batch -/

theorem v21_at (x3 : FVec Ideal S4x2048x4 .f32) (b : Fin 4) :
    val_main_v21 (F := Ideal) x3 (ix2 b (0 : Fin 1)) = Spec.tau x3 b := by
  rw [val_main_v21_apply, val_main_cst_3_apply]
  show Ideal.ofBits .f32 0x00000000#32 + _ = _
  rw [Ideal.ofBits_zero_f32, zero_add, Spec.tau]
  refine Finset.sum_congr rfl fun k _ => ?_
  rw [show idx_main_v21 (ix2 b (0 : Fin 1)) k = ix3 b k (0 : Fin 1) from by idx_eq3, v20_at]

theorem v22_at (x2 : FVec Ideal S4x2048x2048 .f32) (x3 : FVec Ideal S4x2048x4 .f32) (b : Fin 4) :
    val_main_v22 (F := Ideal) x2 x3 (ix2 b (0 : Fin 1)) = Spec.mm x2 x3 b := by
  rw [val_main_v22_apply, v14_at, v21_at]; rfl

theorem v23_at (x2 : FVec Ideal S4x2048x2048 .f32) (x3 : FVec Ideal S4x2048x4 .f32) (b : Fin 4) :
    val_main_v23 (F := Ideal) x2 x3 (ix3 b (0 : Fin 1) (0 : Fin 1)) = Spec.mm x2 x3 b := by
  rw [val_main_v23_apply, show idx_main_v23 (ix3 b (0 : Fin 1) (0 : Fin 1)) = ix2 b (0 : Fin 1) from by idx_eq2, v22_at]

/-- Each use of the mobility rate broadcasts it anew over the regions. -/
theorem v36_at (x2 : FVec Ideal S4x2048x2048 .f32) (x3 : FVec Ideal S4x2048x4 .f32) (b : Fin 4) (p : Fin 2048) :
    val_main_v36 (F := Ideal) x2 x3 (ix3 b p (0 : Fin 1)) = Spec.mm x2 x3 b := by
  rw [val_main_v36_apply, show idx_main_v36 (ix3 b p (0 : Fin 1)) = ix3 b (0 : Fin 1) (0 : Fin 1) from by idx_eq3, v23_at]

theorem v40_at (x2 : FVec Ideal S4x2048x2048 .f32) (x3 : FVec Ideal S4x2048x4 .f32) (b : Fin 4) (p : Fin 2048) :
    val_main_v40 (F := Ideal) x2 x3 (ix3 b p (0 : Fin 1)) = Spec.mm x2 x3 b := by
  rw [val_main_v40_apply, show idx_main_v40 (ix3 b p (0 : Fin 1)) = ix3 b (0 : Fin 1) (0 : Fin 1) from by idx_eq3, v23_at]

theorem v53_at (x2 : FVec Ideal S4x2048x2048 .f32) (x3 : FVec Ideal S4x2048x4 .f32) (b : Fin 4) (p : Fin 2048) :
    val_main_v53 (F := Ideal) x2 x3 (ix3 b p (0 : Fin 1)) = Spec.mm x2 x3 b := by
  rw [val_main_v53_apply, show idx_main_v53 (ix3 b p (0 : Fin 1)) = ix3 b (0 : Fin 1) (0 : Fin 1) from by idx_eq3, v23_at]

theorem v57_at (x2 : FVec Ideal S4x2048x2048 .f32) (x3 : FVec Ideal S4x2048x4 .f32) (b : Fin 4) (p : Fin 2048) :
    val_main_v57 (F := Ideal) x2 x3 (ix3 b p (0 : Fin 1)) = Spec.mm x2 x3 b := by
  rw [val_main_v57_apply, show idx_main_v57 (ix3 b p (0 : Fin 1)) = ix3 b (0 : Fin 1) (0 : Fin 1) from by idx_eq3, v23_at]

theorem v67_at (x2 : FVec Ideal S4x2048x2048 .f32) (x3 : FVec Ideal S4x2048x4 .f32) (b : Fin 4) (p : Fin 2048) :
    val_main_v67 (F := Ideal) x2 x3 (ix3 b p (0 : Fin 1)) = Spec.mm x2 x3 b := by
  rw [val_main_v67_apply, show idx_main_v67 (ix3 b p (0 : Fin 1)) = ix3 b (0 : Fin 1) (0 : Fin 1) from by idx_eq3, v23_at]

theorem v71_at (x2 : FVec Ideal S4x2048x2048 .f32) (x3 : FVec Ideal S4x2048x4 .f32) (b : Fin 4) (p : Fin 2048) :
    val_main_v71 (F := Ideal) x2 x3 (ix3 b p (0 : Fin 1)) = Spec.mm x2 x3 b := by
  rw [val_main_v71_apply, show idx_main_v71 (ix3 b p (0 : Fin 1)) = ix3 b (0 : Fin 1) (0 : Fin 1) from by idx_eq3, v23_at]

theorem v81_at (x2 : FVec Ideal S4x2048x2048 .f32) (x3 : FVec Ideal S4x2048x4 .f32) (b : Fin 4) (p : Fin 2048) :
    val_main_v81 (F := Ideal) x2 x3 (ix3 b p (0 : Fin 1)) = Spec.mm x2 x3 b := by
  rw [val_main_v81_apply, show idx_main_v81 (ix3 b p (0 : Fin 1)) = ix3 b (0 : Fin 1) (0 : Fin 1) from by idx_eq3, v23_at]

theorem v92_at (x2 : FVec Ideal S4x2048x2048 .f32) (x3 : FVec Ideal S4x2048x4 .f32) (b : Fin 4) (p : Fin 2048) :
    val_main_v92 (F := Ideal) x2 x3 (ix3 b p (0 : Fin 1)) = Spec.mm x2 x3 b := by
  rw [val_main_v92_apply, show idx_main_v92 (ix3 b p (0 : Fin 1)) = ix3 b (0 : Fin 1) (0 : Fin 1) from by idx_eq3, v23_at]

/-! ## The rates of a region -/

theorem v24_at (x5 : FVec Ideal S2048x1 .f32) (p : Fin 2048) :
    val_main_v24 (F := Ideal) x5 (ix3 (0 : Fin 1) p (0 : Fin 1)) = Spec.birth x5 p := by
  rw [val_main_v24_apply, show idx_main_v24 (ix3 (0 : Fin 1) p (0 : Fin 1)) = ix2 p (0 : Fin 1) from by idx_eq2]; rfl

theorem v25_at (x6 : FVec Ideal S2048x1 .f32) (p : Fin 2048) :
    val_main_v25 (F := Ideal) x6 (ix3 (0 : Fin 1) p (0 : Fin 1)) = Spec.death x6 p := by
  rw [val_main_v25_apply, show idx_main_v25 (ix3 (0 : Fin 1) p (0 : Fin 1)) = ix2 p (0 : Fin 1) from by idx_eq2]; rfl

theorem v33_at (x6 : FVec Ideal S2048x1 .f32) (b : Fin 4) (p : Fin 2048) :
    val_main_v33 (F := Ideal) x6 (ix3 b p (0 : Fin 1)) = Spec.death x6 p := by
  rw [val_main_v33_apply, show idx_main_v33 (ix3 b p (0 : Fin 1)) = ix3 (0 : Fin 1) p (0 : Fin 1) from by idx_eq3, v25_at]

theorem v44_at (x6 : FVec Ideal S2048x1 .f32) (b : Fin 4) (p : Fin 2048) :
    val_main_v44 (F := Ideal) x6 (ix3 b p (0 : Fin 1)) = Spec.death x6 p := by
  rw [val_main_v44_apply, show idx_main_v44 (ix3 b p (0 : Fin 1)) = ix3 (0 : Fin 1) p (0 : Fin 1) from by idx_eq3, v25_at]

theorem v61_at (x6 : FVec Ideal S2048x1 .f32) (b : Fin 4) (p : Fin 2048) :
    val_main_v61 (F := Ideal) x6 (ix3 b p (0 : Fin 1)) = Spec.death x6 p := by
  rw [val_main_v61_apply, show idx_main_v61 (ix3 b p (0 : Fin 1)) = ix3 (0 : Fin 1) p (0 : Fin 1) from by idx_eq3, v25_at]

theorem v85_at (x6 : FVec Ideal S2048x1 .f32) (b : Fin 4) (p : Fin 2048) :
    val_main_v85 (F := Ideal) x6 (ix3 b p (0 : Fin 1)) = Spec.death x6 p := by
  rw [val_main_v85_apply, show idx_main_v85 (ix3 b p (0 : Fin 1)) = ix3 (0 : Fin 1) p (0 : Fin 1) from by idx_eq3, v25_at]

theorem v64_at (x5 : FVec Ideal S2048x1 .f32) (b : Fin 4) (p : Fin 2048) :
    val_main_v64 (F := Ideal) x5 (ix3 b p (0 : Fin 1)) = Spec.birth x5 p := by
  rw [val_main_v64_apply, show idx_main_v64 (ix3 b p (0 : Fin 1)) = ix3 (0 : Fin 1) p (0 : Fin 1) from by idx_eq3, v24_at]

/-! ## The two rate literals, broadcast -/

theorem v30_at (i : S4x2048x1.Idx) : val_main_v30 (F := Ideal) i = Spec.gW := by
  rw [val_main_v30_apply, val_main_cst_4_apply]; rfl

theorem v47_at (i : S4x2048x1.Idx) : val_main_v47 (F := Ideal) i = Spec.gW := by
  rw [val_main_v47_apply, val_main_cst_5_apply]; rfl

theorem v87_at (i : S4x2048x1.Idx) : val_main_v87 (F := Ideal) i = Spec.gW := by
  rw [val_main_v87_apply, val_main_cst_9_apply]; rfl

theorem v50_at (i : S4x2048x1.Idx) : val_main_v50 (F := Ideal) i = Spec.vdW := by
  rw [val_main_v50_apply, val_main_cst_6_apply]; rfl

theorem v89_at (i : S4x2048x1.Idx) : val_main_v89 (F := Ideal) i = Spec.vdW := by
  rw [val_main_v89_apply, val_main_cst_10_apply]; rfl

theorem v76_at (i : S1x2048x1.Idx) : val_main_v76 (F := Ideal) i = Spec.gW := by
  rw [val_main_v76_apply, val_main_cst_7_apply]; rfl

theorem v78_at (i : S1x2048x1.Idx) : val_main_v78 (F := Ideal) i = Spec.vdW := by
  rw [val_main_v78_apply, val_main_cst_8_apply]; rfl

/-! ## New infections -/

theorem v29_at (x0 x1 : FVec Ideal S4x2048x1 .f32) (x3 : FVec Ideal S4x2048x4 .f32) (b : Fin 4) (p : Fin 2048) :
    val_main_v29 (F := Ideal) x0 x1 x3 (ix3 b p (0 : Fin 1)) = Spec.Inew x0 x1 x3 b p := by
  rw [val_main_v29_apply, val_main_v28_apply, val_main_v27_apply, val_main_v26_apply, v15_at, v20_at, v16_at]; rfl

/-! ## The three products with the transition weights: sums over the regions -/

theorem v39_at (x2 : FVec Ideal S4x2048x2048 .f32) (x3 : FVec Ideal S4x2048x4 .f32) (b : Fin 4) (p : Fin 2048) :
    val_main_v39 (F := Ideal) x2 x3 (ix3 b p (0 : Fin 1)) = ∑ j : Fin 2048, Spec.P x2 b p j * x3 (ix3 b j (2 : Fin 4)) := by
  rw [val_main_v39_apply]
  refine Finset.sum_congr rfl fun k _ => ?_
  rw [show lidx_main_v39 (ix3 b p (0 : Fin 1)) k = ix3 b p k from by idx_eq3,
    show ridx_main_v39 (ix3 b p (0 : Fin 1)) k = ix3 b k (0 : Fin 1) from by idx_eq3, v12_at, v17_at]
  rfl

theorem v56_at (x2 : FVec Ideal S4x2048x2048 .f32) (x3 : FVec Ideal S4x2048x4 .f32) (b : Fin 4) (p : Fin 2048) :
    val_main_v56 (F := Ideal) x2 x3 (ix3 b p (0 : Fin 1)) = ∑ j : Fin 2048, Spec.P x2 b p j * x3 (ix3 b j (1 : Fin 4)) := by
  rw [val_main_v56_apply]
  refine Finset.sum_congr rfl fun k _ => ?_
  rw [show lidx_main_v56 (ix3 b p (0 : Fin 1)) k = ix3 b p k from by idx_eq3,
    show ridx_main_v56 (ix3 b p (0 : Fin 1)) k = ix3 b k (0 : Fin 1) from by idx_eq3, v12_at, v16_at]
  rfl

theorem v70_at (x2 : FVec Ideal S4x2048x2048 .f32) (x3 : FVec Ideal S4x2048x4 .f32) (b : Fin 4) (p : Fin 2048) :
    val_main_v70 (F := Ideal) x2 x3 (ix3 b p (0 : Fin 1)) = ∑ j : Fin 2048, Spec.P x2 b p j * x3 (ix3 b j (0 : Fin 4)) := by
  rw [val_main_v70_apply]
  refine Finset.sum_congr rfl fun k _ => ?_
  rw [show lidx_main_v70 (ix3 b p (0 : Fin 1)) k = ix3 b p k from by idx_eq3,
    show ridx_main_v70 (ix3 b p (0 : Fin 1)) k = ix3 b k (0 : Fin 1) from by idx_eq3, v12_at, v15_at]
  rfl

end Cert.RefSide

end
-- ==== Proof.RefCols.lean ====
import proofs.«166416_j86079734546455_2_alg».proof.Proof.RefSir

/-!
# The reference's result columns at (batch, region)

The update formulas, in the reference's own order of operations: recovered, infected, susceptible and cumulative
infections after the step, the reproduction number and the arrival weight.
-/

noncomputable section

namespace Cert.RefSide

open Cert.ReferenceIdeal Cert.ReferenceIdeal.Gen Cert.ReferenceIdeal.Read Idealize.ShloMosaic Idealize.ShloMosaic.ValueIdx
open scoped BigOperators

variable (x0 x1 : FVec Ideal S4x2048x1 .f32) (x2 : FVec Ideal S4x2048x2048 .f32) (x3 : FVec Ideal S4x2048x4 .f32)
  (x5 x6 : FVec Ideal S2048x1 .f32) (b : Fin 4) (p : Fin 2048)

/-- Recovered: R + γ I − δ R − m R + m (P R). -/
theorem v42_at : val_main_v42 (F := Ideal) x2 x3 x6 (ix3 b p (0 : Fin 1)) = Spec.Rt x2 x3 x6 b p := by
  rw [val_main_v42_apply, val_main_v38_apply, val_main_v35_apply, val_main_v32_apply, val_main_v31_apply,
    val_main_v34_apply, val_main_v37_apply, val_main_v41_apply, v17_at, v30_at, v16_at, v33_at, v36_at, v40_at, v39_at]
  rfl

/-- Infected: I + Inew − δ I − γ I − ν I − m I + m (P I). -/
theorem v59_at : val_main_v59 (F := Ideal) x0 x1 x2 x3 x6 (ix3 b p (0 : Fin 1)) = Spec.It x0 x1 x2 x3 x6 b p := by
  rw [val_main_v59_apply, val_main_v55_apply, val_main_v52_apply, val_main_v49_apply, val_main_v46_apply,
    val_main_v43_apply, val_main_v45_apply, val_main_v48_apply, val_main_v51_apply, val_main_v54_apply,
    val_main_v58_apply, v16_at, v29_at, v44_at, v47_at, v50_at, v53_at, v57_at, v56_at]
  rfl

/-- Susceptible: S − Inew − δ S + birth · pop − m S + m (P S). -/
theorem v73_at : val_main_v73 (F := Ideal) x0 x1 x2 x3 x5 x6 (ix3 b p (0 : Fin 1)) = Spec.St x0 x1 x2 x3 x5 x6 b p := by
  rw [val_main_v73_apply, val_main_v69_apply, val_main_v66_apply, val_main_v63_apply, val_main_v60_apply,
    val_main_v62_apply, val_main_v65_apply, val_main_v68_apply, val_main_v72_apply, v15_at, v29_at, v61_at, v64_at,
    v20_at, v67_at, v71_at, v70_at]
  rfl

/-- Cumulative infections. -/
theorem v74_at : val_main_v74 (F := Ideal) x0 x1 x3 (ix3 b p (0 : Fin 1)) = Spec.Ist x0 x1 x3 b p := by
  rw [val_main_v74_apply, v18_at, v29_at]; rfl

/-- The denominator's region part, (δ + γ) + ν, before it is broadcast over the batches. -/
theorem v79_at : val_main_v79 (F := Ideal) x6 (ix3 (0 : Fin 1) p (0 : Fin 1)) = (Spec.death x6 p + Spec.gW) + Spec.vdW := by
  rw [val_main_v79_apply, val_main_v77_apply, v25_at, v76_at, v78_at]; rfl

theorem v80_at : val_main_v80 (F := Ideal) x6 (ix3 b p (0 : Fin 1)) = (Spec.death x6 p + Spec.gW) + Spec.vdW := by
  rw [val_main_v80_apply, show idx_main_v80 (ix3 b p (0 : Fin 1)) = ix3 (0 : Fin 1) p (0 : Fin 1) from by idx_eq3, v79_at]

/-- The reproduction number. -/
theorem v83_at : val_main_v83 (F := Ideal) x0 x1 x2 x3 x6 (ix3 b p (0 : Fin 1)) = Spec.R0 x0 x1 x2 x3 x6 b p := by
  rw [val_main_v83_apply, val_main_v75_apply, val_main_v82_apply, v80_at, v81_at]; rfl

/-- The arrival weight. -/
theorem v90_at : val_main_v90 (F := Ideal) x0 x1 x6 (ix3 b p (0 : Fin 1)) = Spec.Wa x0 x1 x6 b p := by
  rw [val_main_v90_apply, val_main_v88_apply, val_main_v86_apply, val_main_v84_apply, v85_at, v87_at, v89_at]; rfl

end Cert.RefSide

end
-- ==== Proof.RefValue.lean ====
import proofs.«166416_j86079734546455_2_alg».proof.Proof.RefCols
import Idealize.ShloMosaic.Lib.StableHlo.Run

/-!
# The reference computes the specification

Each result is a concatenation of unit-width pieces along its last axis: at column k it is the k-th piece at
the same batch and region(s), and the pieces are the specification's columns. The run then ends with the three
results at the specification's functions of the arguments, the arguments unchanged.
-/

noncomputable section

namespace Cert.RefSide

open Cert.ReferenceIdeal Cert.ReferenceIdeal.Gen Cert.ReferenceIdeal.Read Idealize.ShloMosaic Idealize.ShloMosaic.ValueIdx
  Idealize.ShloMosaic.TcCoe Idealize.SL.Sem
open scoped BigOperators

/-- The first result: columns R0, Inew, S', I', R', ΣI'. -/
theorem v91_eq (x0 x1 : FVec Ideal S4x2048x1 .f32) (x2 : FVec Ideal S4x2048x2048 .f32) (x3 : FVec Ideal S4x2048x4 .f32)
    (x5 x6 : FVec Ideal S2048x1 .f32) :
    val_main_v91 (F := Ideal) x0 x1 x2 x3 x5 x6 = Spec.ht x0 x1 x2 x3 x5 x6 := by
  funext j
  obtain ⟨b, p, k, rfl⟩ : ∃ (b : Fin 4) (p : Fin 2048) (k : Fin 6), j = ix3 b p k := ⟨j 0, j 1, j 2, eq_ix3 j⟩
  unfold val_main_v91
  match k with
  | ⟨0, _⟩ =>
    refine Eq.trans (concatenate_apply_piece (t := S4x2048x6) 2 _ _ _ 0 (by simp) S4x2048x1 _ rfl rfl 0 rfl (ix3 b p (0 : Fin 1)) (fun a ha => by match a with | ⟨0, _⟩ => rfl | ⟨1, _⟩ => rfl | ⟨2, _⟩ => exact absurd rfl ha) rfl) ?_
    exact v83_at x0 x1 x2 x3 x6 b p
  | ⟨1, _⟩ =>
    refine Eq.trans (concatenate_apply_piece (t := S4x2048x6) 2 _ _ _ 1 (by simp) S4x2048x1 _ rfl rfl 1 rfl (ix3 b p (0 : Fin 1)) (fun a ha => by match a with | ⟨0, _⟩ => rfl | ⟨1, _⟩ => rfl | ⟨2, _⟩ => exact absurd rfl ha) rfl) ?_
    exact v29_at x0 x1 x3 b p
  | ⟨2, _⟩ =>
    refine Eq.trans (concatenate_apply_piece (t := S4x2048x6) 2 _ _ _ 2 (by simp) S4x2048x1 _ rfl rfl 2 rfl (ix3 b p (0 : Fin 1)) (fun a ha => by match a with | ⟨0, _⟩ => rfl | ⟨1, _⟩ => rfl | ⟨2, _⟩ => exact absurd rfl ha) rfl) ?_
    exact v73_at x0 x1 x2 x3 x5 x6 b p
  | ⟨3, _⟩ =>
    refine Eq.trans (concatenate_apply_piece (t := S4x2048x6) 2 _ _ _ 3 (by simp) S4x2048x1 _ rfl rfl 3 rfl (ix3 b p (0 : Fin 1)) (fun a ha => by match a with | ⟨0, _⟩ => rfl | ⟨1, _⟩ => rfl | ⟨2, _⟩ => exact absurd rfl ha) rfl) ?_
    exact v59_at x0 x1 x2 x3 x6 b p
  | ⟨4, _⟩ =>
    refine Eq.trans (concatenate_apply_piece (t := S4x2048x6) 2 _ _ _ 4 (by simp) S4x2048x1 _ rfl rfl 4 rfl (ix3 b p (0 : Fin 1)) (fun a ha => by match a with | ⟨0, _⟩ => rfl | ⟨1, _⟩ => rfl | ⟨2, _⟩ => exact absurd rfl ha) rfl) ?_
    exact v42_at x2 x3 x6 b p
  | ⟨5, _⟩ =>
    refine Eq.trans (concatenate_apply_piece (t := S4x2048x6) 2 _ _ _ 5 (by simp) S4x2048x1 _ rfl rfl 5 rfl (ix3 b p (0 : Fin 1)) (fun a ha => by match a with | ⟨0, _⟩ => rfl | ⟨1, _⟩ => rfl | ⟨2, _⟩ => exact absurd rfl ha) rfl) ?_
    exact v74_at x0 x1 x3 b p

/-- The second result: columns W, mm, I, pop (no column reads the birth rate). -/
theorem v93_eq (x0 x1 : FVec Ideal S4x2048x1 .f32) (x2 : FVec Ideal S4x2048x2048 .f32) (x3 : FVec Ideal S4x2048x4 .f32)
    (x5 x6 : FVec Ideal S2048x1 .f32) :
    val_main_v93 (F := Ideal) x0 x1 x2 x3 x6 = Spec.ar1 x0 x1 x2 x3 x5 x6 := by
  funext j
  obtain ⟨b, p, k, rfl⟩ : ∃ (b : Fin 4) (p : Fin 2048) (k : Fin 4), j = ix3 b p k := ⟨j 0, j 1, j 2, eq_ix3 j⟩
  unfold val_main_v93
  match k with
  | ⟨0, _⟩ =>
    refine Eq.trans (concatenate_apply_piece (t := S4x2048x4) 2 _ _ _ 0 (by simp) S4x2048x1 _ rfl rfl 0 rfl (ix3 b p (0 : Fin 1)) (fun a ha => by match a with | ⟨0, _⟩ => rfl | ⟨1, _⟩ => rfl | ⟨2, _⟩ => exact absurd rfl ha) rfl) ?_
    exact v90_at x0 x1 x6 b p
  | ⟨1, _⟩ =>
    refine Eq.trans (concatenate_apply_piece (t := S4x2048x4) 2 _ _ _ 1 (by simp) S4x2048x1 _ rfl rfl 1 rfl (ix3 b p (0 : Fin 1)) (fun a ha => by match a with | ⟨0, _⟩ => rfl | ⟨1, _⟩ => rfl | ⟨2, _⟩ => exact absurd rfl ha) rfl) ?_
    exact v92_at x2 x3 b p
  | ⟨2, _⟩ =>
    refine Eq.trans (concatenate_apply_piece (t := S4x2048x4) 2 _ _ _ 2 (by simp) S4x2048x1 _ rfl rfl 2 rfl (ix3 b p (0 : Fin 1)) (fun a ha => by match a with | ⟨0, _⟩ => rfl | ⟨1, _⟩ => rfl | ⟨2, _⟩ => exact absurd rfl ha) rfl) ?_
    exact v16_at x3 b p
  | ⟨3, _⟩ =>
    refine Eq.trans (concatenate_apply_piece (t := S4x2048x4) 2 _ _ _ 3 (by simp) S4x2048x1 _ rfl rfl 3 rfl (ix3 b p (0 : Fin 1)) (fun a ha => by match a with | ⟨0, _⟩ => rfl | ⟨1, _⟩ => rfl | ⟨2, _⟩ => exact absurd rfl ha) rfl) ?_
    exact v20_at x3 b p

/-- The third result: the second matrix without its diagonal and the transition weights, side by side. -/
theorem v96_eq (x2 x4 : FVec Ideal S4x2048x2048 .f32) :
    val_main_v96 (F := Ideal) x2 x4 = Spec.ar2 x2 x4 := by
  funext j
  obtain ⟨b, p, q, k, rfl⟩ : ∃ (b : Fin 4) (p q : Fin 2048) (k : Fin 2), j = ix4 b p q k :=
    ⟨j 0, j 1, j 2, j 3, eq_ix4 j⟩
  unfold val_main_v96
  match k with
  | ⟨0, _⟩ =>
    refine Eq.trans (concatenate_apply_piece (t := S4x2048x2048x2) 3 _ _ _ 0 (by simp) S4x2048x2048x1 _ rfl rfl 0 rfl (ix4 b p q (0 : Fin 1)) (fun a ha => by match a with | ⟨0, _⟩ => rfl | ⟨1, _⟩ => rfl | ⟨2, _⟩ => rfl | ⟨3, _⟩ => exact absurd rfl ha) rfl) ?_
    rw [val_main_v94_apply, show idx_main_v94 (ix4 b p q (0 : Fin 1)) = ix3 b p q from by idx_eq3, v8_at]
    rfl
  | ⟨1, _⟩ =>
    refine Eq.trans (concatenate_apply_piece (t := S4x2048x2048x2) 3 _ _ _ 1 (by simp) S4x2048x2048x1 _ rfl rfl 1 rfl (ix4 b p q (0 : Fin 1)) (fun a ha => by match a with | ⟨0, _⟩ => rfl | ⟨1, _⟩ => rfl | ⟨2, _⟩ => rfl | ⟨3, _⟩ => exact absurd rfl ha) rfl) ?_
    rw [val_main_v95_apply, show idx_main_v95 (ix4 b p q (0 : Fin 1)) = ix3 b p q from by idx_eq3, v12_at]
    rfl

/-- Every weakly fair execution of the reference ends with the three results at the specification's functions of
    the arguments, and the arguments unchanged. -/
theorem run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v91)
            = Cert.Spec.ht (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_v93)
            = Cert.Spec.ar1 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_v96)
            = Cert.Spec.ar2 (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) :=
  (θ_run (Cert.ReferenceIdeal.defs (F := Ideal)) _ _).mono (fun _ h c =>
    ⟨(h c).1.trans ((val_main_v91_eq m' c).trans (v91_eq _ _ _ _ _ _)),
      (h c).2.1.trans ((val_main_v93_eq _ _ _ _ _).trans (v93_eq _ _ _ _ _ _)),
      (h c).2.2.1.trans ((val_main_v96_eq _ _).trans (v96_eq _ _)),
      (h c).2.2.2⟩)
    (Cert.ReferenceIdeal.Value.run (F := Ideal) m' ρ')

end Cert.RefSide

end
-- ==== Proof.lean ====
/-
  One step of an epidemic model on a mobility graph: four batches, 2048 regions; the kernel program against
  its reference, at the ideal instance (floats are extended reals, every operation exact).

  The kernel program computes the column sums of the mobility matrix with its diagonal zeroed in a first
  pass over four row tiles per batch (an accumulator reset at the first tile and written back after the
  last), forms on the host the batch's mobility rate (the column sums' total over the populations' total),
  and in a second pass over eight row tiles per batch divides each masked row by its column-sum entry,
  multiplies the weights' tile with the compartments' columns for the flux, and updates the compartments.
  The reference does the same with whole-array operations. The two agree because
    * the column sums accumulated tile by tile from zero are the sums over all 2048 rows (sums of extended
      reals may be regrouped),
    * the total flow as the sum over the columns of the column sums is the double sum over rows and columns,
    * the flux's product with the mobility rate is taken on the right by one side and on the left by the
      other (multiplication of extended reals commutes),
  and every other step is the same operation on the same values in the same order, the three float
  literals the same words on both sides. No finiteness of the inputs is needed.

  The frames: each kernel program's run is assembled from its two regions' body runs and its two host
  stretches (the SIR array is read by the main region through two windows, so its ownership is divided
  between them for the region's duration); the reference's frame is its run with the results dropped.
  The ideal pass rewrote nothing, so the preservation claim is trivial.
-/
import proofs.«166416_j86079734546455_2_alg».proof.Defs
import proofs.«166416_j86079734546455_2_alg».proof.Proof.Gen.Kernel
import proofs.«166416_j86079734546455_2_alg».proof.Proof.Gen.KernelIdeal
import proofs.«166416_j86079734546455_2_alg».proof.Proof.Gen.ReferenceIdeal
import proofs.«166416_j86079734546455_2_alg».proof.Proof.Gen.Pre_finite_inputs
import proofs.«166416_j86079734546455_2_alg».proof.Proof.KRun
import proofs.«166416_j86079734546455_2_alg».proof.Proof.ValRun
import proofs.«166416_j86079734546455_2_alg».proof.Proof.RefValue

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2.2) (Cert.RefSide.run m ρ)

theorem preserves : Cert.preserves_Kernel_KernelIdeal := trivial

/-- Both runs end with the three results at the specification's functions of the (agreeing) argument arrays. -/
theorem algebraic : Cert.algebraic_KernelIdeal_ReferenceIdeal := by
  intro m g m' g' _ hagree
  refine ⟨fun c => Cert.Spec.ht (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Spec.ar1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Spec.ar2 (m ((c.tc : Thread Cert.KernelIdeal.nD Cert.KernelIdeal.τ).loc Cert.KernelIdeal.main_arg2)) (m ((c.tc : Thread Cert.KernelIdeal.nD Cert.KernelIdeal.τ).loc Cert.KernelIdeal.main_arg4)),
    Cert.KernelIdeal.KVal.run m g, ?_⟩
  exact (θ_run (Cert.ReferenceIdeal.defs (F := Ideal)) _ _).mono (fun _ h c => by
    obtain ⟨e0, e1, e2, e3, e4, e5, e6⟩ := hagree c
    have hc := h c
    rw [e0, e1, e2, e3, e4, e5, e6] at hc
    refine ⟨hc.1, hc.2.1, hc.2.2.1, ?_⟩
    rw [e0, e1, e2, e3, e4, e5, e6]
    exact hc.2.2.2) (Cert.RefSide.run m' g')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
